-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S1024x768 : Shape := ⟨2, ![1024, 768]⟩
abbrev S4x2048x3072 : Shape := ⟨3, ![4, 2048, 3072]⟩
abbrev S1x1024x1024 : Shape := ⟨3, ![1, 1024, 1024]⟩
abbrev S1024x1 : Shape := ⟨2, ![1024, 1]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x3072, .f32⟩
  | .hbm, ⟨6, _⟩ => ⟨S8192x1024, .f32⟩
  | .hbm, ⟨7, _⟩ => ⟨S8192x1024, .bf16⟩
  | .hbm, ⟨8, _⟩ => ⟨S1024x3072, .bf16⟩
  | .hbm, ⟨9, _⟩ => ⟨S8192x3072, .bf16⟩
  | .hbm, ⟨10, _⟩ => ⟨S4x2048x3072, .bf16⟩
  | .hbm, ⟨11, _⟩ => ⟨S1024x1024, .bf16⟩
  | .hbm, ⟨12, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_25 : BitVec 32 := 0#32
  let v44 : BitVec 1 := Scalar.cmpi .ne v43 c0_i32_25
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  concatenates_S1024x1024_S1024x1024_S1024x1024_S1024x3072_d1 : Shape.Concatenates [S1024x1024, S1024x1024, S1024x1024] S1024x3072 1
  shapeCasts_S4x2048x1024_S8192x1024 : S4x2048x1024.ShapeCasts S8192x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  shapeCasts_S8192x3072_S4x2048x3072 : S8192x3072.ShapeCasts S4x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x1024_S1024x768_S1024x768_1_0_0_1_n_n_wf : DotDims.WF S1024x1024 S1024x768 S1024x768 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x3072.size a
  hwx0_1 : ∀ i : grid0.Coords, EltTy.bits .bf16 = 32 ∨ (Rect.block (s := S1024x3072) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S8192x3072.size a
  hwx0_2 : ∀ i : grid0.Coords, EltTy.bits .bf16 = 32 ∨ (Rect.block (s := S8192x3072) S1024x768.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x3072.size a
  hwx1_0 : ∀ i : grid1.Coords, EltTy.bits .bf16 = 32 ∨ (Rect.block (s := S4x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x3072.size a
  hwx1_1 : ∀ i : grid1.Coords, EltTy.bits .bf16 = 32 ∨ (Rect.block (s := S4x2048x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x3072.size a
  hwx1_2 : ∀ i : grid1.Coords, EltTy.bits .bf16 = 32 ∨ (Rect.block (s := S4x2048x3072) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | .hbm, ⟨29, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Region0.lean ====
/-
  The first kernel region (the fused projection): one grid point multiplies a block of 1024 rows of the
  activations by a block of 768 columns of the joined weights and stores the product whole. Stated at a
  parameter `V`, the buffers' contents when the region is entered: each window's block at a point, what the
  body leaves in the output window's buffer, the body's triple and the pipeline's proof data with its
  obligation at every point.
-/
import proofs.«133693_j50972671869478_2_alg».proof.Proof.Gen.Kernel.Launch
import proofs.«133693_j50972671869478_2_alg».proof.Proof.Gen.Kernel.Skeleton
import proofs.«133693_j50972671869478_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's block of columns. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S1024x1024 := Rect.unit (s := S1024x1024) ![0, 0] S1024x1024.size inb_S1024x1024_S1024x1024_0_0
abbrev rB : Rect S1024x768 := Rect.unit (s := S1024x768) ![0, 0] S1024x768.size inb_S1024x768_S1024x768_0_0

/-- The output window's buffer after the body: the product of the two input blocks, stored whole. -/
def out2 (x0 : Vec F S1024x1024 .bf16) (x1 : Vec F S1024x768 .bf16) : Vec F S1024x768 .bf16 :=
  View.canon [⟨rB, k0_pay1 (View.ld x0 rA) (View.ld x1 rB)⟩]

/-- The one store covers the buffer. -/
theorem cover2 (p0 : Vec F S1024x768 .bf16) (y : S1024x768.Idx) :
    ∃ pc ∈ ([⟨rB, p0⟩] : List (View.Piece (Elt F) S1024x768 .bf16)), y ∈ pc.1.set :=
  View.cover_of_tiled [⟨rB, p0⟩] S1024x768.size (by rfl) y

set_option maxHeartbeats 1000000 in
/-- The body on whole staging memrefs, the inputs' at `x0`, `x1` and the output's at anything, runs to the
    continuation holding the inputs' as they were and the output's at their product. -/
theorem sound_kernel (c : Dev nD) (E : Set ℕ) (i : grid0.Coords) (arg2 : Memref sig .tc .vmem S1024x1024 .bf16) (harg2 : arg2.IsWhole) (arg3 : Memref sig .tc .vmem S1024x768 .bf16) (harg3 : arg3.IsWhole) (arg4 : Memref sig .tc .vmem S1024x768 .bf16) (harg4 : arg4.IsWhole)
    (x0 : Vec F S1024x1024 .bf16) (x1 : Vec F S1024x768 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of the projection's pipeline on core `c`: the arrays as the region finds them; after the
    body at point `t` each input's buffer at its block and the output's at their product; nothing carried. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.Region1Shared.lean ====
/-
  The attention region, what its two cases share. A grid point is (batch, query block, key block); the key
  blocks of one (batch, query block) pair are two consecutive points. The first of the pair resets the running
  row maximum, row sum and accumulator and folds the first key block in; the second folds the second key
  block in, normalises and projects. Here: the two branch conditions in closed form over the grid, where the
  output window is idle, the memrefs the body is called with, and the region's invariant with the three
  scratch buffers spelt out.
-/
import proofs.«133693_j50972671869478_2_alg».proof.Proof.Gen.Kernel.Launch
import proofs.«133693_j50972671869478_2_alg».proof.Proof.Gen.Kernel.Skeleton
import proofs.«133693_j50972671869478_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

/-- The first key block of a pair: the running statistics are reset. -/
abbrev condFirst (i : grid1.Coords) : Prop :=
  Scalar.cmpi .ne (Scalar.extui (Scalar.cmpi .eq (BitVec.ofNat 32 (i 2).val) 0#32)) 0#32 = 1#1
theorem hcondFirst : ∀ t : Fin cfg1.N, condFirst (grid1.coords t) ↔ t.val % 2 = 0 :=
  (by decide +kernel : ∀ t : Fin grid1.N, condFirst (grid1.coords t) ↔ t.val % 2 = 0)

/-- The last key block of a pair: the accumulator is normalised, projected and stored. -/
abbrev condLast (i : grid1.Coords) : Prop := k1_cond2 i = 1#1
theorem hcondLast : ∀ t : Fin cfg1.N, condLast (grid1.coords t) ↔ t.val % 2 = 1 :=
  (by decide +kernel : ∀ t : Fin grid1.N, condLast (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At a first key block the output window is idle and not written back; -/
theorem idleAt_4_first : ∀ t : Fin cfg1.N, ¬condLast (grid1.coords t) → cfg1.idle 4 (grid1.coords t) = true := by decide +kernel
theorem noFlush_4_first : ∀ t : Fin cfg1.N, ¬condLast (grid1.coords t) → (cfg1.win 4).flush t = false := by decide +kernel
/-- at a last one it is live. -/
theorem liveAt_4_last : ∀ t : Fin cfg1.N, condLast (grid1.coords t) → cfg1.idle 4 (grid1.coords t) = false := by decide +kernel

/-! ## The memrefs the body is called with -/

abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
/-- The running row maximum, the running row sum and the accumulator: scratch carried from a pair's first point to its second. -/
abbrev scMax : Memref sig .tc .vmem S1024x1 .f32 := Memref.whole cc1_scratch0
abbrev scSum : Memref sig .tc .vmem S1024x1 .f32 := Memref.whole cc1_scratch1
abbrev scAcc : Memref sig .tc .vmem S1024x1024 .f32 := Memref.whole cc1_scratch2
abbrev VMax : View sig .tc .vmem S1024x1 .f32 := scMax.view
abbrev VSum : View sig .tc .vmem S1024x1 .f32 := scSum.view
abbrev VAcc : View sig .tc .vmem S1024x1024 .f32 := scAcc.view
/-- One staging buffer of the output window, through which its contents are stated. -/
abbrev VOut : View sig .tc .vmem S1x1024x1024 .f32 := (Memref.whole cc1_stg4_0 : Memref sig .tc .vmem S1x1024x1024 .f32).view

/-- The region's invariant with the scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

end Cert.Kernel.R1

end
-- ==== Proof.K.Region1RunFirst.lean ====
/-
  The attention body at the FIRST key block of a (batch, query block) pair: the running maximum, sum and
  accumulator are reset (to -∞, 0, 0) and the block folded in; nothing is stored into the output window.
  The run finds what the three scratch buffers end with, as pieces.
-/
import proofs.«133693_j50972671869478_2_alg».proof.Proof.K.Region1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the query, key and value blocks at `x0`, `x1`, `x2` and the scratch buffers at
    anything, the body runs to the continuation holding the inputs' as they were and each scratch buffer with its
    pieces written. -/
noncomputable def runFirst (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i)
    (x0 x1 x2 : Vec F S1x1024x1024 .bf16) :
    Σ' (LMax : List (View.Piece (Elt F) S1024x1 .f32)) (LSum : List (View.Piece (Elt F) S1024x1 .f32)), { LAcc : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2
                ∗ (∃ f, arg8.view.loc (c : Thread nD τ) ↦[arg8.view.set]{fullShare} arg8.view.writes (Elt F) f LMax)
                ∗ (∃ f, arg9.view.loc (c : Thread nD τ) ↦[arg9.view.set]{fullShare} arg9.view.writes (Elt F) f LSum)
                ∗ (∃ f, arg10.view.loc (c : Thread nD τ) ↦[arg10.view.set]{fullShare} arg10.view.writes (Elt F) f LAcc)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun E K => ?run⟩
  case run =>
    haveI : Fact (condFirst i) := ⟨hc0⟩
    haveI : Fact (¬condLast i) := ⟨hc1⟩
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.Kernel.R1

end
-- ==== Proof.K.Region1RunLast.lean ====
/-
  The attention body at the LAST key block of a (batch, query block) pair: the block is folded into the
  running statistics the first point left, the accumulator divided by the row sums, multiplied by the output
  weights and stored into the output window. The run finds what the output window's buffer and the three
  scratch buffers end with, as pieces.
-/
import proofs.«133693_j50972671869478_2_alg».proof.Proof.K.Region1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the query, key, value and output-weight blocks at `x0` … `x3`, the scratch buffers
    at what the point before left (`xMax`, `xSum`, `xAcc`) and the output window's buffer at anything, the body runs to
    the continuation holding the inputs' as they were and the output's and each scratch buffer with its pieces
    written. -/
noncomputable def runLast (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i)
    (x0 x1 x2 : Vec F S1x1024x1024 .bf16) (x3 : Vec F S1024x1024 .bf16) (xMax xSum : Vec F S1024x1 .f32) (xAcc : Vec F S1024x1024 .f32) :
    Σ' (LOut : List (View.Piece (Elt F) S1x1024x1024 .f32)) (LMax : List (View.Piece (Elt F) S1024x1 .f32)) (LSum : List (View.Piece (Elt F) S1024x1 .f32)), { LAcc : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xMax ∗ owns (c : Thread nD τ) arg9 fullShare xSum ∗ owns (c : Thread nD τ) arg10 fullShare xAcc
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f LOut)
                ∗ (∃ f, arg8.view.loc (c : Thread nD τ) ↦[arg8.view.set]{fullShare} arg8.view.writes (Elt F) f LMax)
                ∗ (∃ f, arg9.view.loc (c : Thread nD τ) ↦[arg9.view.set]{fullShare} arg9.view.writes (Elt F) f LSum)
                ∗ (∃ f, arg10.view.loc (c : Thread nD τ) ↦[arg10.view.set]{fullShare} arg10.view.writes (Elt F) f LAcc)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    haveI : Fact (¬condFirst i) := ⟨hc0⟩
    haveI : Fact (condLast i) := ⟨hc1⟩
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.R1

end
-- ==== Proof.K.Region1Dat.lean ====
/-
  The attention region's proof data. What a (batch, query block) pair's first point leaves in the running
  maximum, sum and accumulator, and what its second point leaves there and in the output window's buffer, read
  back from the pieces the two runs found; these chained point by point (the second point of a pair starts from
  what the first left); the region's invariant carrying the three scratch buffers at those contents; and the
  body obligation at every point.
-/
import proofs.«133693_j50972671869478_2_alg».proof.Proof.K.Region1RunFirst
import proofs.«133693_j50972671869478_2_alg».proof.Proof.K.Region1RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverMaxF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1.Idx) : ∃ pc ∈ (runFirst c i arg3 harg3 arg4 harg4 arg5 harg5 arg6 harg6 arg7 harg7 arg8 harg8 arg9 harg9 arg10 harg10 hc0 hc1 x0 x1 x2).1, y ∈ pc.1.set :=
  View.cover_of_tiledL (runFirst c i arg3 harg3 arg4 harg4 arg5 harg5 arg6 harg6 arg7 harg7 arg8 harg8 arg9 harg9 arg10 harg10 hc0 hc1 x0 x1 x2).1 S1024x1.size (by sl_kernel_rfl) y
theorem scoverSumF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1.Idx) : ∃ pc ∈ (runFirst c i arg3 harg3 arg4 harg4 arg5 harg5 arg6 harg6 arg7 harg7 arg8 harg8 arg9 harg9 arg10 harg10 hc0 hc1 x0 x1 x2).2.1, y ∈ pc.1.set :=
  View.cover_of_tiledL (runFirst c i arg3 harg3 arg4 harg4 arg5 harg5 arg6 harg6 arg7 harg7 arg8 harg8 arg9 harg9 arg10 harg10 hc0 hc1 x0 x1 x2).2.1 S1024x1.size (by sl_kernel_rfl) y
theorem scoverAccF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1024.Idx) : ∃ pc ∈ (runFirst c i arg3 harg3 arg4 harg4 arg5 harg5 arg6 harg6 arg7 harg7 arg8 harg8 arg9 harg9 arg10 harg10 hc0 hc1 x0 x1 x2).2.2.1, y ∈ pc.1.set :=
  View.cover_of_tiledL (runFirst c i arg3 harg3 arg4 harg4 arg5 harg5 arg6 harg6 arg7 harg7 arg8 harg8 arg9 harg9 arg10 harg10 hc0 hc1 x0 x1 x2).2.2.1 S1024x1024.size (by sl_kernel_rfl) y
/-- The running maximum, sum and accumulator after a pair's first point. -/
def soutMaxF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1 .f32 := VMax.read (Elt F) (VMax.writes (Elt F) VMax.junk (runFirst c i arg3 harg3 arg4 harg4 arg5 harg5 arg6 harg6 arg7 harg7 arg8 harg8 arg9 harg9 arg10 harg10 hc0 hc1 x0 x1 x2).1)
def soutSumF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1 .f32 := VSum.read (Elt F) (VSum.writes (Elt F) VSum.junk (runFirst c i arg3 harg3 arg4 harg4 arg5 harg5 arg6 harg6 arg7 harg7 arg8 harg8 arg9 harg9 arg10 harg10 hc0 hc1 x0 x1 x2).2.1)
def soutAccF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1024 .f32 := VAcc.read (Elt F) (VAcc.writes (Elt F) VAcc.junk (runFirst c i arg3 harg3 arg4 harg4 arg5 harg5 arg6 harg6 arg7 harg7 arg8 harg8 arg9 harg9 arg10 harg10 hc0 hc1 x0 x1 x2).2.2.1)
/-- A pair's first point stores nothing into the output window: a placeholder nothing consults. -/
def outF : Vec F S1x1024x1024 .f32 := VOut.read (Elt F) (VOut.writes (Elt F) VOut.junk [])

theorem coverOutL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1x1024x1024.Idx) : ∃ pc ∈ (runLast c i arg3 harg3 arg4 harg4 arg5 harg5 arg6 harg6 arg7 harg7 arg8 harg8 arg9 harg9 arg10 harg10 hc0 hc1 x0 x1 x2 x3 xMax xSum xAcc).1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).1 S1x1024x1024.size (by sl_kernel_rfl) y
theorem scoverMaxL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1.Idx) : ∃ pc ∈ (runLast c i arg3 harg3 arg4 harg4 arg5 harg5 arg6 harg6 arg7 harg7 arg8 harg8 arg9 harg9 arg10 harg10 hc0 hc1 x0 x1 x2 x3 xMax xSum xAcc).2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.1 S1024x1.size (by sl_kernel_rfl) y
theorem scoverSumL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1.Idx) : ∃ pc ∈ (runLast c i arg3 harg3 arg4 harg4 arg5 harg5 arg6 harg6 arg7 harg7 arg8 harg8 arg9 harg9 arg10 harg10 hc0 hc1 x0 x1 x2 x3 xMax xSum xAcc).2.2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.2.1 S1024x1.size (by sl_kernel_rfl) y
theorem scoverAccL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1024.Idx) : ∃ pc ∈ (runLast c i arg3 harg3 arg4 harg4 arg5 harg5 arg6 harg6 arg7 harg7 arg8 harg8 arg9 harg9 arg10 harg10 hc0 hc1 x0 x1 x2 x3 xMax xSum xAcc).2.2.2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.2.2.1 S1024x1024.size (by sl_kernel_rfl) y
/-- The output window's buffer and the scratch buffers after a pair's second point. -/
def outL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1x1024x1024 .f32 := VOut.read (Elt F) (VOut.writes (Elt F) VOut.junk (runLast c i arg3 harg3 arg4 harg4 arg5 harg5 arg6 harg6 arg7 harg7 arg8 harg8 arg9 harg9 arg10 harg10 hc0 hc1 x0 x1 x2 x3 xMax xSum xAcc).1)
def soutMaxL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1 .f32 := VMax.read (Elt F) (VMax.writes (Elt F) VMax.junk (runLast c i arg3 harg3 arg4 harg4 arg5 harg5 arg6 harg6 arg7 harg7 arg8 harg8 arg9 harg9 arg10 harg10 hc0 hc1 x0 x1 x2 x3 xMax xSum xAcc).2.1)
def soutSumL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1 .f32 := VSum.read (Elt F) (VSum.writes (Elt F) VSum.junk (runLast c i arg3 harg3 arg4 harg4 arg5 harg5 arg6 harg6 arg7 harg7 arg8 harg8 arg9 harg9 arg10 harg10 hc0 hc1 x0 x1 x2 x3 xMax xSum xAcc).2.2.1)
def soutAccL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1024 .f32 := VAcc.read (Elt F) (VAcc.writes (Elt F) VAcc.junk (runLast c i arg3 harg3 arg4 harg4 arg5 harg5 arg6 harg6 arg7 harg7 arg8 harg8 arg9 harg9 arg10 harg10 hc0 hc1 x0 x1 x2 x3 xMax xSum xAcc).2.2.2.1)

/-! ## Point by point -/

/-- What the output window's buffer and the three scratch buffers hold after the body at position `n`: at an even
    position the first-point contents, at an odd one the second-point contents over what position `n - 1` left. -/
def outsAt (c : Dev nD) : (n : ℕ) → n < cfg1.N → Vec F S1x1024x1024 .f32 × Vec F S1024x1 .f32 × Vec F S1024x1 .f32 × Vec F S1024x1024 .f32
  | 0, hn => (outF, soutMaxF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩), soutSumF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩), soutAccF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩))
  | n + 1, hn =>
    if h0 : (n + 1) % 2 = 0 then
      (outF, soutMaxF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩), soutSumF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩), soutAccF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩))
    else
      (outL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutMaxL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutSumL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutAccL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2)

theorem outsAt_first (c : Dev nD) (t : Fin cfg1.N) (h0 : t.val % 2 = 0) :
    outsAt V c t.val t.isLt = (outF, soutMaxF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t), soutSumF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t), soutAccF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t)) := by
  obtain ⟨n, hn⟩ := t
  cases n with
  | zero => exact rfl
  | succ n => exact (dif_pos h0).trans rfl

theorem outsAt_last (c : Dev nD) (t : Fin cfg1.N) (h0 : ¬t.val % 2 = 0) :
    outsAt V c t.val t.isLt = (outL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutMaxL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutSumL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutAccL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod 2) h0
  | succ n => exact (dif_neg h0).trans rfl

/-- The region's invariant before position `n`: before the first point every scratch buffer at anything; afterwards
    the three carried buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c n hn).2.1) ∗ owns (c : Thread nD τ) scSum fullShare ((outsAt V c n hn).2.2.1) ∗ owns (c : Thread nD τ) scAcc fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c n hn).2.1) ∗ owns (c : Thread nD τ) scSum fullShare ((outsAt V c n hn).2.2.1) ∗ owns (c : Thread nD τ) scAcc fullShare ((outsAt V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c (n - 1) (by omega)).2.1) ∗ owns (c : Thread nD τ) scSum fullShare ((outsAt V c (n - 1) (by omega)).2.2.1) ∗ owns (c : Thread nD τ) scAcc fullShare ((outsAt V c (n - 1) (by omega)).2.2.2)) ∗ (∃ r, prngReg c r)) := by
  cases n with
  | zero => exact absurd rfl hz
  | succ n => rfl

/-! ## The proof data -/

/-- The proof data of the attention pipeline on core `c`: the arrays as the region finds them; after the body at
    point `t` each input's buffer at its block and the output's at `outsAt`'s first component; the invariant
    `PhiS`; the three windows on the fused query-key-value array hold a third of it each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the position says which case it is;
    the invariant hands the body the carried scratch at what the point before left (at anything before a pair's first
    point, which overwrites it) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [liveAt_0 t], after_0]
  rw [show (dat V c).leavesExact 1 t = owns (c : Thread nD τ) (ms1 t) fullShare ((dat V c).after 1 t) from by
      unfold Dat.leavesExact; rw [liveAt_1 t], after_1]
  rw [show (dat V c).leavesExact 2 t = owns (c : Thread nD τ) (ms2 t) fullShare ((dat V c).after 2 t) from by
      unfold Dat.leavesExact; rw [liveAt_2 t], after_2]
  rw [show (dat V c).leavesExact 3 t = owns (c : Thread nD τ) (ms3 t) fullShare ((dat V c).after 3 t) from by
      unfold Dat.leavesExact; rw [liveAt_3 t], after_3]
  have hN : t.val < 16 := lt_of_lt_of_eq t.isLt (show cfg1.N = 16 from N_1)
  by_cases h0 : t.val % 2 = 0
  · have hF : condFirst (grid1.coords t) := (hcondFirst t).mpr h0
    have hNL : ¬condLast (grid1.coords t) := fun h => absurd ((hcondLast t).mp h) (by omega)
    rw [Dat.leavesExact_idle (dat V c) 4 t (idleAt_4_first t hNL) (noFlush_4_first t hNL)]
    rw [outsAt_first V c t h0]
    unfold soutMaxF soutSumF soutAccF; (try dsimp only)
    by_cases hz : t.val = 0
    · rw [PhiS_castSucc V c t, PhiS_zero V c _ _ hz, PhiA_eq]
      iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ _ _ _ _ hF hNL (iblk V c 0 t) (iblk V c 1 t) (iblk V c 2 t)).2.2.2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scoverMaxF c _ _ _ _ _ _ _ _ _ _ _ _ _ _ _ _ _ _ _ _ _ _)
          isplitl [HS1]
          · unfold owns; iexists _; isplitr
            swap; · iexact HS1
            ipureintro; exact View.read_writes_of_cover _ _ _ _ _ (scoverSumF c _ _ _ _ _ _ _ _ _ _ _ _ _ _ _ _ _ _ _ _ _ _)
          · unfold owns; iexists _; isplitr
            swap; · iexact HS2
            ipureintro; exact View.read_writes_of_cover _ _ _ _ _ (scoverAccF c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ _ _ _ _ hF hNL (iblk V c 0 t) (iblk V c 1 t) (iblk V c 2 t)).2.2.2 Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scoverMaxF c _ _ _ _ _ _ _ _ _ _ _ _ _ _ _ _ _ _ _ _ _ _)
          isplitl [HS1]
          · unfold owns; iexists _; isplitr
            swap; · iexact HS1
            ipureintro; exact View.read_writes_of_cover _ _ _ _ _ (scoverSumF c _ _ _ _ _ _ _ _ _ _ _ _ _ _ _ _ _ _ _ _ _ _)
          · unfold owns; iexists _; isplitr
            swap; · iexact HS2
            ipureintro; exact View.read_writes_of_cover _ _ _ _ _ (scoverAccF c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hNF : ¬condFirst (grid1.coords t) := fun h => h0 ((hcondFirst t).mp h)
    have hL : condLast (grid1.coords t) := (hcondLast t).mpr (by omega)
    have hz : t.val ≠ 0 := fun hz => h0 (by rw [hz])
    rw [show (dat V c).leavesExact 4 t = owns (c : Thread nD τ) (ms4 t) fullShare ((dat V c).after 4 t) from by
      unfold Dat.leavesExact; rw [liveAt_4_last t hL], after_4]
    rw [outsAt_last V c t h0]
    unfold outL soutMaxL soutSumL soutAccL; (try dsimp only)
    rw [PhiS_castSucc V c t, PhiS_pos V c _ _ hz]
    iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
    iapply ((runLast c (grid1.coords t) _ _ _ _ _ _ _ _ _ _ _ _ _ _ _ _ hNF hL (iblk V c 0 t) (iblk V c 1 t) (iblk V c 2 t) (iblk V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HR0 HR1 HR2 HR3 HR4 HR5 HS0 HS1 HS2 Hg]
    · isplitl [HR0 HR1 HR2 HR3 HR4 HR5 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · unfold owns; iexists _; isplitr
          swap; · iexact HS0
          ipureintro; exact View.read_writes_of_cover _ _ _ _ _ (scoverMaxL c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverSumL c _ _ _ _ _ _ _ _ _ _ _ _ _ _ _ _ _ _ _ _ _ _ _ _ _ _)
        · unfold owns; iexists _; isplitr
          swap; · iexact HS2
          ipureintro; exact View.read_writes_of_cover _ _ _ _ _ (scoverAccL c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutL c _ _ _ _ _ _ _ _ _ _ _ _ _ _ _ _ _ _ _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the carried contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HR0, HR1, HR2, HR3, HR4, HR5, HS0, HS1, HS2⟩, Hg⟩
  isplitl [HR0 HR1 HR2 HR3 HR4 HR5 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    iexists _; iexact HS2
  iexact Hg

theorem hout (c : Dev nD) : (dat V c).Φ (Fin.last cfg1.N) ⊢ Pipeline.ΦA spec1 c :=
  Phi_out V c _ (by rw [Fin.val_last]; have : cfg1.N = 16 := N_1; omega)

end Cert.Kernel.R1

end
-- ==== Proof.K.Region1Arrays.lean ====
/-
  The attention region's arrays. Its query, key and value windows are three windows on ONE array (the fused
  projection's result), so on entry that array, held whole, is divided into three shares, one per window, and on
  exit the three shares are joined again; the output-weight array and the output array are held whole throughout.
  Here: the pipeline's arrays window by window, the buffers behind them listed, and the two entailments — the
  core's unscoped buffers make the arrays at entry, and the arrays after the last write-back make the core's
  unscoped buffers at the exit contents.
-/
import proofs.«133693_j50972671869478_2_alg».proof.Proof.K.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays at contents `G`, window by window, each at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v6) ↦{fullShare} G 3)
          ∗ (((c : Thread nD τ).loc main_v7) ↦{fullShare} G 4)) := by
  unfold Pipeline.Dat.arrays
  rw [bigSep_W1]
  rw [(arr_whole1 0).set_eq_univ, (arr_whole1 3).set_eq_univ, (arr_whole1 4).set_eq_univ]
  rfl

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  rw [BI.bigSep_eq_bigSepL_of_eq [main_v5, main_v6, main_v7] (by decide) (by decide)]; rfl

/-- The core's unscoped buffers are the buffers behind the arrays and the rest. -/
theorem bufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec1 c W : sProp 𝕄) ∗ Pipeline.unscopedRest spec1 c W) :=
  Pipeline.unscopedBufs_split₀ cfgs 1 (by decide) c W

/-- ENTRY: the unscoped buffers at the region-entry contents make the pipeline's arrays at their entry contents —
    the fused array divided into a share per window — beside the rest. -/
theorem entry (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec1 c (V c)) := by
  rw [bufs_split, arrBufs_eq, arrays_eq]
  iintro ⟨⟨H5, H6, H7⟩, Hrest⟩
  ihave H5s := (pointsTo_share (PosShare.mem_left_op_right fullShare)).1 $$ H5
  icases H5s with ⟨H5a, H5r⟩
  ihave H5t := (pointsTo_share (PosShare.mem_left_op_right fullShare.right)).1 $$ H5r
  icases H5t with ⟨H5b, H5c⟩
  isplitr [Hrest]
  · isplitl [H5a]; · iexact H5a
    isplitl [H5b]; · iexact H5b
    isplitl [H5c]; · iexact H5c
    isplitl [H6]; · iexact H6
    iexact H7
  iexact Hrest

/-- EXIT: the arrays after the last write-back — the three shares of the fused array joined — and the rest make the
    unscoped buffers at any contents `V'` that hold the output array's final contents and agree with the entry contents
    elsewhere. -/
theorem exit (c : Dev nD) (V' : (b : Ref sig .tc) → Buf (Elt F) ((c : Thread nD τ).loc b))
    (h5 : V' main_v5 = V c main_v5) (h6 : V' main_v6 = V c main_v6) (h7 : V' main_v7 = (dat V c).arrAt 4 cfg1.N)
    (hrest : ∀ b, b ∉ Finset.univ.image (Pipeline.arrRef spec1) → V' b = V c b) :
    iprop((dat V c).arrays ((dat V c).arrAt · cfg1.N) ∗ Pipeline.unscopedRest spec1 c (V c))
      ⊢ (unscopedBufs (Ix := Unit) (Name := ℕ) (U := UR sig nD τ) (Lvl := ℕ) c V' : sProp 𝕄) := by
  rw [bufs_split, arrBufs_eq, arrays_eq, h5, h6, h7,
    show (dat V c).arrAt 0 cfg1.N = V c main_v5 from ((dat V c).arrAt_in 0 rfl _).trans (A_eq V c 0),
    show (dat V c).arrAt 1 cfg1.N = V c main_v5 from ((dat V c).arrAt_in 1 rfl _).trans (A_eq V c 1),
    show (dat V c).arrAt 2 cfg1.N = V c main_v5 from ((dat V c).arrAt_in 2 rfl _).trans (A_eq V c 2),
    show (dat V c).arrAt 3 cfg1.N = V c main_v6 from ((dat V c).arrAt_in 3 rfl _).trans (A_eq V c 3),
    show (Pipeline.unscopedRest spec1 c V' : sProp 𝕄) = Pipeline.unscopedRest spec1 c (V c) from by
      unfold Pipeline.unscopedRest; exact BI.bigSep_congr fun b hb => by rw [hrest b (Finset.mem_sdiff.mp hb).2]]
  iintro ⟨⟨H5a, H5b, H5c, H6, H7⟩, Hrest⟩
  ihave H5r := (pointsTo_share (PosShare.mem_left_op_right fullShare.right)).2 $$ [H5b H5c]
  · isplitl [H5b]; · iexact H5b
    iexact H5c
  ihave H5 := (pointsTo_share (PosShare.mem_left_op_right fullShare)).2 $$ [H5a H5r]
  · isplitl [H5a]; · iexact H5a
    iexact H5r
  isplitr [Hrest]
  · isplitl [H5]; · iexact H5
    isplitl [H6]; · iexact H6
    iexact H7
  iexact Hrest

end Cert.Kernel.R1

end
-- ==== Proof.K.RunMain.lean ====
/-
  The whole program's run. @main is four segments: the host operations that join the three weight matrices and
  re-lay the activations, the projection region, the host operations that re-lay its result and convert the output
  weights, and the attention region. The buffers' contents at each boundary are a fold from the launch memory: a
  host stretch's operations applied in order, a region's output array at what its write-backs leave. Every weakly
  fair execution terminates without a fault, the result array ends at what the attention region's write-backs leave
  in it, and every argument array ends as launched.
-/
import proofs.«133693_j50972671869478_2_alg».proof.Proof.Gen.Kernel.Regions
import proofs.«133693_j50972671869478_2_alg».proof.Proof.K.Region0
import proofs.«133693_j50972671869478_2_alg».proof.Proof.K.Region1Arrays

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the projection region's exit: its output array at what the write-backs leave, every other buffer as entered. -/
def W2 (c : Dev nD) : Valuation τ sig (Elt F) :=
  Function.update (W1 m ρ c) main_v4 ((R0.dat (E1 m ρ) c).arrAt 2 cfg0.N)
theorem W2_main_v4 (c : Dev nD) : W2 m ρ c (Proc.devRef .tc main_v4) = (R0.dat (E1 m ρ) c).arrAt 2 cfg0.N := by
  unfold W2; exact Function.update_self _ _ _
theorem W2_of_ne' (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _
theorem W2_arr (c : Dev nD) (w : Fin cfg0.W) :
    W2 m ρ c (Proc.devRef .tc (Pipeline.arrRef spec0 w)) = (R0.dat (E1 m ρ) c).arrAt w cfg0.N := by
  match w with
  | ⟨0, _⟩ => exact (W2_of_ne' m ρ c main_v2 (by decide)).trans (((R0.dat (E1 m ρ) c).arrAt_in 0 rfl _).trans (R0.A_eq (E1 m ρ) c 0)).symm
  | ⟨1, _⟩ => exact (W2_of_ne' m ρ c main_v3 (by decide)).trans (((R0.dat (E1 m ρ) c).arrAt_in 1 rfl _).trans (R0.A_eq (E1 m ρ) c 1)).symm
  | ⟨2, _⟩ => exact W2_main_v4 m ρ c
theorem W2_of_ne (c : Dev nD) (b : Ref sig .tc) (hb : ∀ w, Pipeline.arrRef spec0 w ≠ b) :
    W2 m ρ c (Proc.devRef .tc b) = W1 m ρ c (Proc.devRef .tc b) :=
  W2_of_ne' m ρ c b (fun e => hb 2 e.symm)
abbrev E2 : (c : Dev nD) → (b : Ref sig .tc) → Buf (Elt F) ((c : Thread nD τ).loc b) := fun c b => W2 m ρ c b
theorem hF0 (c : Dev nD) (w : Fin cfg0.W) : (R0.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention region's exit: the result array at what the write-backs leave, every other buffer as entered. -/
def W4 (c : Dev nD) : Valuation τ sig (Elt F) :=
  Function.update (W3 m ρ c) main_v7 ((R1.dat (E3 m ρ) c).arrAt 4 cfg1.N)
abbrev E4 : (c : Dev nD) → (b : Ref sig .tc) → Buf (Elt F) ((c : Thread nD τ).loc b) := fun c b => W4 m ρ c b
theorem W4_main_v7 (c : Dev nD) : W4 m ρ c (Proc.devRef .tc main_v7) = (R1.dat (E3 m ρ) c).arrAt 4 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _

/-- No host operation and no region writes an argument array: the fold at it walks back to the launch memory. -/
theorem W4_arg (c : Dev nD) (b : Ref sig .tc) (h7 : b ≠ main_v7) (h1 : b ∉ hostOps1_W) (h4 : ∀ w, Pipeline.arrRef spec0 w ≠ b ∨ (cfg0.win w).isOut = false)
    (h0 : b ∉ hostOps0_W) : W4 m ρ c (Proc.devRef .tc b) = m ((c : Thread nD τ).loc b) := by
  rw [W4_of_ne m ρ c b h7]
  rw [show W3 m ρ c (Proc.devRef .tc b) = W2 m ρ c (Proc.devRef .tc b) from StableHlo.after_of_writes_sub hostOps1 _ hostOps1_writes h1]
  have h2 : W2 m ρ c (Proc.devRef .tc b) = W1 m ρ c (Proc.devRef .tc b) := by
    by_cases hb : ∀ w, Pipeline.arrRef spec0 w ≠ b
    · exact W2_of_ne m ρ c b hb
    · obtain ⟨w, hw⟩ := not_forall.mp hb
      obtain rfl : Pipeline.arrRef spec0 w = b := not_not.mp hw
      have hin : (cfg0.win w).isOut = false := (h4 w).resolve_left (fun h => h rfl)
      exact (W2_arr m ρ c w).trans (((R0.dat (E1 m ρ) c).arrAt_in w hin _).trans (R0.A_eq (E1 m ρ) c w))
  rw [h2]
  exact (StableHlo.after_of_writes_sub hostOps0 _ hostOps0_writes h0).trans rfl

/-! ## The proof data family and the thread state -/

abbrev admT : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admT p) c
  | ⟨0, _⟩ => fun c => R0.dat (E1 m ρ) c
  | ⟨1, _⟩ => fun c => R1.dat (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) admT (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := R1.entry (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin (E3 m ρ) c)
    unfold Pipeline.ΦA
    iintro ⟨Hp, -, Hr⟩
    isplitl [Hr]; · iexact Hr
    iexact Hp
  hout c := by
    refine (R1.hout (E3 m ρ) c).trans ?_
    rw [Pipeline.ownSems0_none]; unfold Pipeline.ΦA
    iintro ⟨Hr, Hp⟩
    isplitl [Hp]; · iexact Hp
    isplitr; · iempintro
    iexact Hr
  hexit c := by
    have hjoin := R1.exit (E3 m ρ) c (E4 m ρ c)
      ((W4_of_ne m ρ c main_v5 (by decide)))
      ((W4_of_ne m ρ c main_v6 (by decide)))
      (W4_main_v7 m ρ c)
      (fun b hb => W4_of_ne m ρ c b (fun e => hb (Finset.mem_image.mpr ⟨4, Finset.mem_univ _, e.symm⟩)))
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsT m ρ) := (main_chain c).trans (by chain_rfl)

set_option backward.isDefEq.respectTransparency.types false in
/-- THE RUN, at any instance: from any memory with zero counters every weakly fair execution of @main terminates,
    nothing faulting; the result array ends at what the attention region's write-backs leave in it and every argument
    array as launched. -/
theorem run_main : θ_run defs (onTc (τ := τ) (main (F := F))) ⟨m, fun _ => 0, ρ⟩ (fun r => ∀ c : Dev nD,
      r.2.mem ((c.tc : Thread nD τ).loc main_v7) = (R1.dat (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide)),
       (h c _ (mem_uc main_arg4 (by decide))).trans (W4_arg m ρ c main_arg4 (by decide) (by decide) (by decide) (by decide))⟩)

end Cert.Kernel.Run

end
-- ==== Proof.KI.Region0.lean ====
/-
  The first kernel region (the fused projection): one grid point multiplies a block of 1024 rows of the
  activations by a block of 768 columns of the joined weights and stores the product whole. Stated at a
  parameter `V`, the buffers' contents when the region is entered: each window's block at a point, what the
  body leaves in the output window's buffer, the body's triple and the pipeline's proof data with its
  obligation at every point.
-/
import proofs.«133693_j50972671869478_2_alg».proof.Proof.Gen.KernelIdeal.Launch
import proofs.«133693_j50972671869478_2_alg».proof.Proof.Gen.KernelIdeal.Skeleton
import proofs.«133693_j50972671869478_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weights' staging buffer holds the point's block of columns. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rA : Rect S1024x1024 := Rect.unit (s := S1024x1024) ![0, 0] S1024x1024.size inb_S1024x1024_S1024x1024_0_0
abbrev rB : Rect S1024x768 := Rect.unit (s := S1024x768) ![0, 0] S1024x768.size inb_S1024x768_S1024x768_0_0

/-- The output window's buffer after the body: the product of the two input blocks, stored whole. -/
def out2 (x0 : Vec F S1024x1024 .bf16) (x1 : Vec F S1024x768 .bf16) : Vec F S1024x768 .bf16 :=
  View.canon [⟨rB, k0_pay1 (View.ld x0 rA) (View.ld x1 rB)⟩]

/-- The one store covers the buffer. -/
theorem cover2 (p0 : Vec F S1024x768 .bf16) (y : S1024x768.Idx) :
    ∃ pc ∈ ([⟨rB, p0⟩] : List (View.Piece (Elt F) S1024x768 .bf16)), y ∈ pc.1.set :=
  View.cover_of_tiled [⟨rB, p0⟩] S1024x768.size (by rfl) y

set_option maxHeartbeats 1000000 in
/-- The body on whole staging memrefs, the inputs' at `x0`, `x1` and the output's at anything, runs to the
    continuation holding the inputs' as they were and the output's at their product. -/
theorem sound_kernel (c : Dev nD) (E : Set ℕ) (i : grid0.Coords) (arg2 : Memref sig .tc .vmem S1024x1024 .bf16) (harg2 : arg2.IsWhole) (arg3 : Memref sig .tc .vmem S1024x768 .bf16) (harg3 : arg3.IsWhole) (arg4 : Memref sig .tc .vmem S1024x768 .bf16) (harg4 : arg4.IsWhole)
    (x0 : Vec F S1024x1024 .bf16) (x1 : Vec F S1024x768 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of the projection's pipeline on core `c`: the arrays as the region finds them; after the
    body at point `t` each input's buffer at its block and the output's at their product; nothing carried. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.Region1Shared.lean ====
/-
  The attention region, what its two cases share. A grid point is (batch, query block, key block); the key
  blocks of one (batch, query block) pair are two consecutive points. The first of the pair resets the running
  row maximum, row sum and accumulator and folds the first key block in; the second folds the second key
  block in, normalises and projects. Here: the two branch conditions in closed form over the grid, where the
  output window is idle, the memrefs the body is called with, and the region's invariant with the three
  scratch buffers spelt out.
-/
import proofs.«133693_j50972671869478_2_alg».proof.Proof.Gen.KernelIdeal.Launch
import proofs.«133693_j50972671869478_2_alg».proof.Proof.Gen.KernelIdeal.Skeleton
import proofs.«133693_j50972671869478_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

/-- The first key block of a pair: the running statistics are reset. -/
abbrev condFirst (i : grid1.Coords) : Prop :=
  Scalar.cmpi .ne (Scalar.extui (Scalar.cmpi .eq (BitVec.ofNat 32 (i 2).val) 0#32)) 0#32 = 1#1
theorem hcondFirst : ∀ t : Fin cfg1.N, condFirst (grid1.coords t) ↔ t.val % 2 = 0 :=
  (by decide +kernel : ∀ t : Fin grid1.N, condFirst (grid1.coords t) ↔ t.val % 2 = 0)

/-- The last key block of a pair: the accumulator is normalised, projected and stored. -/
abbrev condLast (i : grid1.Coords) : Prop := k1_cond2 i = 1#1
theorem hcondLast : ∀ t : Fin cfg1.N, condLast (grid1.coords t) ↔ t.val % 2 = 1 :=
  (by decide +kernel : ∀ t : Fin grid1.N, condLast (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
/-- At a first key block the output window is idle and not written back; -/
theorem idleAt_4_first : ∀ t : Fin cfg1.N, ¬condLast (grid1.coords t) → cfg1.idle 4 (grid1.coords t) = true := by decide +kernel
theorem noFlush_4_first : ∀ t : Fin cfg1.N, ¬condLast (grid1.coords t) → (cfg1.win 4).flush t = false := by decide +kernel
/-- at a last one it is live. -/
theorem liveAt_4_last : ∀ t : Fin cfg1.N, condLast (grid1.coords t) → cfg1.idle 4 (grid1.coords t) = false := by decide +kernel

/-! ## The memrefs the body is called with -/

abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
/-- The running row maximum, the running row sum and the accumulator: scratch carried from a pair's first point to its second. -/
abbrev scMax : Memref sig .tc .vmem S1024x1 .f32 := Memref.whole cc1_scratch0
abbrev scSum : Memref sig .tc .vmem S1024x1 .f32 := Memref.whole cc1_scratch1
abbrev scAcc : Memref sig .tc .vmem S1024x1024 .f32 := Memref.whole cc1_scratch2
abbrev VMax : View sig .tc .vmem S1024x1 .f32 := scMax.view
abbrev VSum : View sig .tc .vmem S1024x1 .f32 := scSum.view
abbrev VAcc : View sig .tc .vmem S1024x1024 .f32 := scAcc.view
/-- One staging buffer of the output window, through which its contents are stated. -/
abbrev VOut : View sig .tc .vmem S1x1024x1024 .f32 := (Memref.whole cc1_stg4_0 : Memref sig .tc .vmem S1x1024x1024 .f32).view

/-- The region's invariant with the scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scMax fullShare d) ∗ (∃ d, owns (c : Thread nD τ) scSum fullShare d) ∗ (∃ d, owns (c : Thread nD τ) scAcc fullShare d)) ∗ (∃ r, prngReg c r)) := by
  unfold Pipeline.ΦA; rw [scopedRest1_eq]; simp only [scMax, scSum, scAcc, owns_whole]; try rfl

end Cert.KernelIdeal.R1

end
-- ==== Proof.KI.Region1RunFirst.lean ====
/-
  The attention body at the FIRST key block of a (batch, query block) pair: the running maximum, sum and
  accumulator are reset (to -∞, 0, 0) and the block folded in; nothing is stored into the output window.
  The run finds what the three scratch buffers end with, as pieces.
-/
import proofs.«133693_j50972671869478_2_alg».proof.Proof.KI.Region1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the query, key and value blocks at `x0`, `x1`, `x2` and the scratch buffers at
    anything, the body runs to the continuation holding the inputs' as they were and each scratch buffer with its
    pieces written. -/
noncomputable def runFirst (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i)
    (x0 x1 x2 : Vec F S1x1024x1024 .bf16) :
    Σ' (LMax : List (View.Piece (Elt F) S1024x1 .f32)) (LSum : List (View.Piece (Elt F) S1024x1 .f32)), { LAcc : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2
                ∗ (∃ f, arg8.view.loc (c : Thread nD τ) ↦[arg8.view.set]{fullShare} arg8.view.writes (Elt F) f LMax)
                ∗ (∃ f, arg9.view.loc (c : Thread nD τ) ↦[arg9.view.set]{fullShare} arg9.view.writes (Elt F) f LSum)
                ∗ (∃ f, arg10.view.loc (c : Thread nD τ) ↦[arg10.view.set]{fullShare} arg10.view.writes (Elt F) f LAcc)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, fun E K => ?run⟩
  case run =>
    haveI : Fact (condFirst i) := ⟨hc0⟩
    haveI : Fact (¬condLast i) := ⟨hc1⟩
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    iexists _; iexact HS2

end Cert.KernelIdeal.R1

end
-- ==== Proof.KI.Region1RunLast.lean ====
/-
  The attention body at the LAST key block of a (batch, query block) pair: the block is folded into the
  running statistics the first point left, the accumulator divided by the row sums, multiplied by the output
  weights and stored into the output window. The run finds what the output window's buffer and the three
  scratch buffers end with, as pieces.
-/
import proofs.«133693_j50972671869478_2_alg».proof.Proof.KI.Region1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the query, key, value and output-weight blocks at `x0` … `x3`, the scratch buffers
    at what the point before left (`xMax`, `xSum`, `xAcc`) and the output window's buffer at anything, the body runs to
    the continuation holding the inputs' as they were and the output's and each scratch buffer with its pieces
    written. -/
noncomputable def runLast (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i)
    (x0 x1 x2 : Vec F S1x1024x1024 .bf16) (x3 : Vec F S1024x1024 .bf16) (xMax xSum : Vec F S1024x1 .f32) (xAcc : Vec F S1024x1024 .f32) :
    Σ' (LOut : List (View.Piece (Elt F) S1x1024x1024 .f32)) (LMax : List (View.Piece (Elt F) S1024x1 .f32)) (LSum : List (View.Piece (Elt F) S1024x1 .f32)), { LAcc : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xMax ∗ owns (c : Thread nD τ) arg9 fullShare xSum ∗ owns (c : Thread nD τ) arg10 fullShare xAcc
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f LOut)
                ∗ (∃ f, arg8.view.loc (c : Thread nD τ) ↦[arg8.view.set]{fullShare} arg8.view.writes (Elt F) f LMax)
                ∗ (∃ f, arg9.view.loc (c : Thread nD τ) ↦[arg9.view.set]{fullShare} arg9.view.writes (Elt F) f LSum)
                ∗ (∃ f, arg10.view.loc (c : Thread nD τ) ↦[arg10.view.set]{fullShare} arg10.view.writes (Elt F) f LAcc)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10) K } := by
  refine ⟨?_, ?_, ?_, ?_, fun E K => ?run⟩
  case run =>
    haveI : Fact (¬condFirst i) := ⟨hc0⟩
    haveI : Fact (condLast i) := ⟨hc1⟩
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.R1

end
-- ==== Proof.KI.Region1Dat.lean ====
/-
  The attention region's proof data. What a (batch, query block) pair's first point leaves in the running
  maximum, sum and accumulator, and what its second point leaves there and in the output window's buffer, read
  back from the pieces the two runs found; these chained point by point (the second point of a pair starts from
  what the first left); the region's invariant carrying the three scratch buffers at those contents; and the
  body obligation at every point.
-/
import proofs.«133693_j50972671869478_2_alg».proof.Proof.KI.Region1RunFirst
import proofs.«133693_j50972671869478_2_alg».proof.Proof.KI.Region1RunLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scoverMaxF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1.Idx) : ∃ pc ∈ (runFirst c i arg3 harg3 arg4 harg4 arg5 harg5 arg6 harg6 arg7 harg7 arg8 harg8 arg9 harg9 arg10 harg10 hc0 hc1 x0 x1 x2).1, y ∈ pc.1.set :=
  View.cover_of_tiledL (runFirst c i arg3 harg3 arg4 harg4 arg5 harg5 arg6 harg6 arg7 harg7 arg8 harg8 arg9 harg9 arg10 harg10 hc0 hc1 x0 x1 x2).1 S1024x1.size (by sl_kernel_rfl) y
theorem scoverSumF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1.Idx) : ∃ pc ∈ (runFirst c i arg3 harg3 arg4 harg4 arg5 harg5 arg6 harg6 arg7 harg7 arg8 harg8 arg9 harg9 arg10 harg10 hc0 hc1 x0 x1 x2).2.1, y ∈ pc.1.set :=
  View.cover_of_tiledL (runFirst c i arg3 harg3 arg4 harg4 arg5 harg5 arg6 harg6 arg7 harg7 arg8 harg8 arg9 harg9 arg10 harg10 hc0 hc1 x0 x1 x2).2.1 S1024x1.size (by sl_kernel_rfl) y
theorem scoverAccF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) (y : S1024x1024.Idx) : ∃ pc ∈ (runFirst c i arg3 harg3 arg4 harg4 arg5 harg5 arg6 harg6 arg7 harg7 arg8 harg8 arg9 harg9 arg10 harg10 hc0 hc1 x0 x1 x2).2.2.1, y ∈ pc.1.set :=
  View.cover_of_tiledL (runFirst c i arg3 harg3 arg4 harg4 arg5 harg5 arg6 harg6 arg7 harg7 arg8 harg8 arg9 harg9 arg10 harg10 hc0 hc1 x0 x1 x2).2.2.1 S1024x1024.size (by sl_kernel_rfl) y
/-- The running maximum, sum and accumulator after a pair's first point. -/
def soutMaxF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1 .f32 := VMax.read (Elt F) (VMax.writes (Elt F) VMax.junk (runFirst c i arg3 harg3 arg4 harg4 arg5 harg5 arg6 harg6 arg7 harg7 arg8 harg8 arg9 harg9 arg10 harg10 hc0 hc1 x0 x1 x2).1)
def soutSumF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1 .f32 := VSum.read (Elt F) (VSum.writes (Elt F) VSum.junk (runFirst c i arg3 harg3 arg4 harg4 arg5 harg5 arg6 harg6 arg7 harg7 arg8 harg8 arg9 harg9 arg10 harg10 hc0 hc1 x0 x1 x2).2.1)
def soutAccF (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : Vec F S1024x1024 .f32 := VAcc.read (Elt F) (VAcc.writes (Elt F) VAcc.junk (runFirst c i arg3 harg3 arg4 harg4 arg5 harg5 arg6 harg6 arg7 harg7 arg8 harg8 arg9 harg9 arg10 harg10 hc0 hc1 x0 x1 x2).2.2.1)
/-- A pair's first point stores nothing into the output window: a placeholder nothing consults. -/
def outF : Vec F S1x1024x1024 .f32 := VOut.read (Elt F) (VOut.writes (Elt F) VOut.junk [])

theorem coverOutL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1x1024x1024.Idx) : ∃ pc ∈ (runLast c i arg3 harg3 arg4 harg4 arg5 harg5 arg6 harg6 arg7 harg7 arg8 harg8 arg9 harg9 arg10 harg10 hc0 hc1 x0 x1 x2 x3 xMax xSum xAcc).1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).1 S1x1024x1024.size (by sl_kernel_rfl) y
theorem scoverMaxL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1.Idx) : ∃ pc ∈ (runLast c i arg3 harg3 arg4 harg4 arg5 harg5 arg6 harg6 arg7 harg7 arg8 harg8 arg9 harg9 arg10 harg10 hc0 hc1 x0 x1 x2 x3 xMax xSum xAcc).2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.1 S1024x1.size (by sl_kernel_rfl) y
theorem scoverSumL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1.Idx) : ∃ pc ∈ (runLast c i arg3 harg3 arg4 harg4 arg5 harg5 arg6 harg6 arg7 harg7 arg8 harg8 arg9 harg9 arg10 harg10 hc0 hc1 x0 x1 x2 x3 xMax xSum xAcc).2.2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.2.1 S1024x1.size (by sl_kernel_rfl) y
theorem scoverAccL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) (y : S1024x1024.Idx) : ∃ pc ∈ (runLast c i arg3 harg3 arg4 harg4 arg5 harg5 arg6 harg6 arg7 harg7 arg8 harg8 arg9 harg9 arg10 harg10 hc0 hc1 x0 x1 x2 x3 xMax xSum xAcc).2.2.2.1, y ∈ pc.1.set :=
  View.cover_of_tiledL (runLast c i arg3 harg3 arg4 harg4 arg5 harg5 arg6 harg6 arg7 harg7 arg8 harg8 arg9 harg9 arg10 harg10 hc0 hc1 x0 x1 x2 x3 xMax xSum xAcc).2.2.2.1 S1024x1024.size (by sl_kernel_rfl) y
/-- The output window's buffer and the scratch buffers after a pair's second point. -/
def outL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1x1024x1024 .f32 := VOut.read (Elt F) (VOut.writes (Elt F) VOut.junk (runLast c i arg3 harg3 arg4 harg4 arg5 harg5 arg6 harg6 arg7 harg7 arg8 harg8 arg9 harg9 arg10 harg10 hc0 hc1 x0 x1 x2 x3 xMax xSum xAcc).1)
def soutMaxL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1 .f32 := VMax.read (Elt F) (VMax.writes (Elt F) VMax.junk (runLast c i arg3 harg3 arg4 harg4 arg5 harg5 arg6 harg6 arg7 harg7 arg8 harg8 arg9 harg9 arg10 harg10 hc0 hc1 x0 x1 x2 x3 xMax xSum xAcc).2.1)
def soutSumL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1 .f32 := VSum.read (Elt F) (VSum.writes (Elt F) VSum.junk (runLast c i arg3 harg3 arg4 harg4 arg5 harg5 arg6 harg6 arg7 harg7 arg8 harg8 arg9 harg9 arg10 harg10 hc0 hc1 x0 x1 x2 x3 xMax xSum xAcc).2.2.1)
def soutAccL (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : Vec F S1024x1024 .f32 := VAcc.read (Elt F) (VAcc.writes (Elt F) VAcc.junk (runLast c i arg3 harg3 arg4 harg4 arg5 harg5 arg6 harg6 arg7 harg7 arg8 harg8 arg9 harg9 arg10 harg10 hc0 hc1 x0 x1 x2 x3 xMax xSum xAcc).2.2.2.1)

/-! ## Point by point -/

/-- What the output window's buffer and the three scratch buffers hold after the body at position `n`: at an even
    position the first-point contents, at an odd one the second-point contents over what position `n - 1` left. -/
def outsAt (c : Dev nD) : (n : ℕ) → n < cfg1.N → Vec F S1x1024x1024 .f32 × Vec F S1024x1 .f32 × Vec F S1024x1 .f32 × Vec F S1024x1024 .f32
  | 0, hn => (outF, soutMaxF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩), soutSumF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩), soutAccF c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scMax (Memref.isWhole_whole _) scSum (Memref.isWhole_whole _) scAcc (Memref.isWhole_whole _) ((hcondFirst ⟨0, hn⟩).mpr (Nat.zero_mod 2)) (fun h => absurd ((hcondLast ⟨0, hn⟩).mp h) (by have := (Nat.zero_mod 2); (try dsimp only at this ⊢); omega)) (iblk V c 0 ⟨0, hn⟩) (iblk V c 1 ⟨0, hn⟩) (iblk V c 2 ⟨0, hn⟩))
  | n + 1, hn =>
    if h0 : (n + 1) % 2 = 0 then
      (outF, soutMaxF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩), soutSumF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩), soutAccF c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) ((hcondFirst ⟨n + 1, hn⟩).mpr h0) (fun h => absurd ((hcondLast ⟨n + 1, hn⟩).mp h) (by have := h0; (try dsimp only at this ⊢); omega)) (iblk V c 0 ⟨n + 1, hn⟩) (iblk V c 1 ⟨n + 1, hn⟩) (iblk V c 2 ⟨n + 1, hn⟩))
    else
      (outL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutMaxL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutSumL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2, soutAccL c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scMax (Memref.isWhole_whole _) scSum (Memref.isWhole_whole _) scAcc (Memref.isWhole_whole _) (fun h => h0 ((hcondFirst ⟨n + 1, hn⟩).mp h)) ((hcondLast ⟨n + 1, hn⟩).mpr (by have := h0; (try dsimp only at this ⊢); omega)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2.1 (outsAt c n (Nat.lt_of_succ_lt hn)).2.2.2)

theorem outsAt_first (c : Dev nD) (t : Fin cfg1.N) (h0 : t.val % 2 = 0) :
    outsAt V c t.val t.isLt = (outF, soutMaxF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t), soutSumF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t), soutAccF c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) ((hcondFirst t).mpr h0) (fun h => absurd ((hcondLast t).mp h) (by have := h0; (try dsimp only at this ⊢); omega)) (iblk V c 0 t) (iblk V c 1 t) (iblk V c 2 t)) := by
  obtain ⟨n, hn⟩ := t
  cases n with
  | zero => exact rfl
  | succ n => exact (dif_pos h0).trans rfl

theorem outsAt_last (c : Dev nD) (t : Fin cfg1.N) (h0 : ¬t.val % 2 = 0) :
    outsAt V c t.val t.isLt = (outL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutMaxL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutSumL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, soutAccL c (grid1.coords t) (ms0 t) (hs0 t) (ms1 t) (hs1 t) (ms2 t) (hs2 t) (ms3 t) (hs3 t) (ms4 t) (hs4 t) scMax (Memref.isWhole_whole _) scSum (Memref.isWhole_whole _) scAcc (Memref.isWhole_whole _) (fun h => h0 ((hcondFirst t).mp h)) ((hcondLast t).mpr (by have := h0; (try dsimp only at this ⊢); omega)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact absurd (Nat.zero_mod 2) h0
  | succ n => exact (dif_neg h0).trans rfl

/-- The region's invariant before position `n`: before the first point every scratch buffer at anything; afterwards
    the three carried buffers at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c n hn).2.1) ∗ owns (c : Thread nD τ) scSum fullShare ((outsAt V c n hn).2.2.1) ∗ owns (c : Thread nD τ) scAcc fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c n hn).2.1) ∗ owns (c : Thread nD τ) scSum fullShare ((outsAt V c n hn).2.2.1) ∗ owns (c : Thread nD τ) scAcc fullShare ((outsAt V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scMax fullShare ((outsAt V c (n - 1) (by omega)).2.1) ∗ owns (c : Thread nD τ) scSum fullShare ((outsAt V c (n - 1) (by omega)).2.2.1) ∗ owns (c : Thread nD τ) scAcc fullShare ((outsAt V c (n - 1) (by omega)).2.2.2)) ∗ (∃ r, prngReg c r)) := by
  cases n with
  | zero => exact absurd rfl hz
  | succ n => rfl

/-! ## The proof data -/

/-- The proof data of the attention pipeline on core `c`: the arrays as the region finds them; after the body at
    point `t` each input's buffer at its block and the output's at `outsAt`'s first component; the invariant
    `PhiS`; the three windows on the fused query-key-value array hold a third of it each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' memrefs hold their blocks; the parity of the position says which case it is;
    the invariant hands the body the carried scratch at what the point before left (at anything before a pair's first
    point, which overwrites it) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [liveAt_0 t], after_0]
  rw [show (dat V c).leavesExact 1 t = owns (c : Thread nD τ) (ms1 t) fullShare ((dat V c).after 1 t) from by
      unfold Dat.leavesExact; rw [liveAt_1 t], after_1]
  rw [show (dat V c).leavesExact 2 t = owns (c : Thread nD τ) (ms2 t) fullShare ((dat V c).after 2 t) from by
      unfold Dat.leavesExact; rw [liveAt_2 t], after_2]
  rw [show (dat V c).leavesExact 3 t = owns (c : Thread nD τ) (ms3 t) fullShare ((dat V c).after 3 t) from by
      unfold Dat.leavesExact; rw [liveAt_3 t], after_3]
  have hN : t.val < 16 := lt_of_lt_of_eq t.isLt (show cfg1.N = 16 from N_1)
  by_cases h0 : t.val % 2 = 0
  · have hF : condFirst (grid1.coords t) := (hcondFirst t).mpr h0
    have hNL : ¬condLast (grid1.coords t) := fun h => absurd ((hcondLast t).mp h) (by omega)
    rw [Dat.leavesExact_idle (dat V c) 4 t (idleAt_4_first t hNL) (noFlush_4_first t hNL)]
    rw [outsAt_first V c t h0]
    unfold soutMaxF soutSumF soutAccF; (try dsimp only)
    by_cases hz : t.val = 0
    · rw [PhiS_castSucc V c t, PhiS_zero V c _ _ hz, PhiA_eq]
      iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ _ _ _ _ hF hNL (iblk V c 0 t) (iblk V c 1 t) (iblk V c 2 t)).2.2.2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scoverMaxF c _ _ _ _ _ _ _ _ _ _ _ _ _ _ _ _ _ _ _ _ _ _)
          isplitl [HS1]
          · unfold owns; iexists _; isplitr
            swap; · iexact HS1
            ipureintro; exact View.read_writes_of_cover _ _ _ _ _ (scoverSumF c _ _ _ _ _ _ _ _ _ _ _ _ _ _ _ _ _ _ _ _ _ _)
          · unfold owns; iexists _; isplitr
            swap; · iexact HS2
            ipureintro; exact View.read_writes_of_cover _ _ _ _ _ (scoverAccF c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ _ _ _ _ hF hNL (iblk V c 0 t) (iblk V c 1 t) (iblk V c 2 t)).2.2.2 Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, ⟨%es0, HS0⟩, ⟨%es1, HS1⟩, ⟨%es2, HS2⟩⟩
      isplitl [HR0 HR1 HR2 HR3 HR4 HR5 HS0 HS1 HS2 Hg]
      · isplitl [HR0 HR1 HR2 HR3 HR4 HR5 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HS0]
          · unfold owns; iexists _; isplitr
            swap; · iexact HS0
            ipureintro; exact View.read_writes_of_cover _ _ _ _ _ (scoverMaxF c _ _ _ _ _ _ _ _ _ _ _ _ _ _ _ _ _ _ _ _ _ _)
          isplitl [HS1]
          · unfold owns; iexists _; isplitr
            swap; · iexact HS1
            ipureintro; exact View.read_writes_of_cover _ _ _ _ _ (scoverSumF c _ _ _ _ _ _ _ _ _ _ _ _ _ _ _ _ _ _ _ _ _ _)
          · unfold owns; iexists _; isplitr
            swap; · iexact HS2
            ipureintro; exact View.read_writes_of_cover _ _ _ _ _ (scoverAccF c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hNF : ¬condFirst (grid1.coords t) := fun h => h0 ((hcondFirst t).mp h)
    have hL : condLast (grid1.coords t) := (hcondLast t).mpr (by omega)
    have hz : t.val ≠ 0 := fun hz => h0 (by rw [hz])
    rw [show (dat V c).leavesExact 4 t = owns (c : Thread nD τ) (ms4 t) fullShare ((dat V c).after 4 t) from by
      unfold Dat.leavesExact; rw [liveAt_4_last t hL], after_4]
    rw [outsAt_last V c t h0]
    unfold outL soutMaxL soutSumL soutAccL; (try dsimp only)
    rw [PhiS_castSucc V c t, PhiS_pos V c _ _ hz]
    iintro ⟨⟨⟨HR0, HR1, HR2, HR3, HR4, HR5, HS0, HS1, HS2⟩, Hg⟩, Ho, ⟨%d0, H0⟩, ⟨%d1, H1⟩, ⟨%d2, H2⟩, ⟨%d3, H3⟩, ⟨%d4, H4⟩⟩
    iapply ((runLast c (grid1.coords t) _ _ _ _ _ _ _ _ _ _ _ _ _ _ _ _ hNF hL (iblk V c 0 t) (iblk V c 1 t) (iblk V c 2 t) (iblk V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HR0 HR1 HR2 HR3 HR4 HR5 HS0 HS1 HS2 Hg]
    · isplitl [HR0 HR1 HR2 HR3 HR4 HR5 HS0 HS1 HS2]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]
        · unfold owns; iexists _; isplitr
          swap; · iexact HS0
          ipureintro; exact View.read_writes_of_cover _ _ _ _ _ (scoverMaxL c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverSumL c _ _ _ _ _ _ _ _ _ _ _ _ _ _ _ _ _ _ _ _ _ _ _ _ _ _)
        · unfold owns; iexists _; isplitr
          swap; · iexact HS2
          ipureintro; exact View.read_writes_of_cover _ _ _ _ _ (scoverAccL c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutL c _ _ _ _ _ _ _ _ _ _ _ _ _ _ _ _ _ _ _ _ _ _ _ _ _ _)

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the carried contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HR0, HR1, HR2, HR3, HR4, HR5, HS0, HS1, HS2⟩, Hg⟩
  isplitl [HR0 HR1 HR2 HR3 HR4 HR5 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    iexists _; iexact HS2
  iexact Hg

theorem hout (c : Dev nD) : (dat V c).Φ (Fin.last cfg1.N) ⊢ Pipeline.ΦA spec1 c :=
  Phi_out V c _ (by rw [Fin.val_last]; have : cfg1.N = 16 := N_1; omega)

end Cert.KernelIdeal.R1

end
-- ==== Proof.KI.Region1Arrays.lean ====
/-
  The attention region's arrays. Its query, key and value windows are three windows on ONE array (the fused
  projection's result), so on entry that array, held whole, is divided into three shares, one per window, and on
  exit the three shares are joined again; the output-weight array and the output array are held whole throughout.
  Here: the pipeline's arrays window by window, the buffers behind them listed, and the two entailments — the
  core's unscoped buffers make the arrays at entry, and the arrays after the last write-back make the core's
  unscoped buffers at the exit contents.
-/
import proofs.«133693_j50972671869478_2_alg».proof.Proof.KI.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays at contents `G`, window by window, each at its share. -/
theorem arrays_eq (c : Dev nD) (G : (w : Fin cfg1.W) → Buf (Elt F) ((cfg1.win w).arr.view.loc (c : Thread nD τ))) :
    ((dat V c).arrays G : sProp 𝕄)
      = iprop((((c : Thread nD τ).loc main_v5) ↦{fullShare.left} G 0) ∗ (((c : Thread nD τ).loc main_v5) ↦{fullShare.right.left} G 1)
          ∗ (((c : Thread nD τ).loc main_v5) ↦{fullShare.right.right} G 2) ∗ (((c : Thread nD τ).loc main_v6) ↦{fullShare} G 3)
          ∗ (((c : Thread nD τ).loc main_v7) ↦{fullShare} G 4)) := by
  unfold Pipeline.Dat.arrays
  rw [bigSep_W1]
  rw [(arr_whole1 0).set_eq_univ, (arr_whole1 3).set_eq_univ, (arr_whole1 4).set_eq_univ]
  rfl

/-- The distinct buffers behind the windows' arrays, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  rw [BI.bigSep_eq_bigSepL_of_eq [main_v5, main_v6, main_v7] (by decide) (by decide)]; rfl

/-- The core's unscoped buffers are the buffers behind the arrays and the rest. -/
theorem bufs_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec1 c W : sProp 𝕄) ∗ Pipeline.unscopedRest spec1 c W) :=
  Pipeline.unscopedBufs_split₀ cfgs 1 (by decide) c W

/-- ENTRY: the unscoped buffers at the region-entry contents make the pipeline's arrays at their entry contents —
    the fused array divided into a share per window — beside the rest. -/
theorem entry (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec1 c (V c)) := by
  rw [bufs_split, arrBufs_eq, arrays_eq]
  iintro ⟨⟨H5, H6, H7⟩, Hrest⟩
  ihave H5s := (pointsTo_share (PosShare.mem_left_op_right fullShare)).1 $$ H5
  icases H5s with ⟨H5a, H5r⟩
  ihave H5t := (pointsTo_share (PosShare.mem_left_op_right fullShare.right)).1 $$ H5r
  icases H5t with ⟨H5b, H5c⟩
  isplitr [Hrest]
  · isplitl [H5a]; · iexact H5a
    isplitl [H5b]; · iexact H5b
    isplitl [H5c]; · iexact H5c
    isplitl [H6]; · iexact H6
    iexact H7
  iexact Hrest

/-- EXIT: the arrays after the last write-back — the three shares of the fused array joined — and the rest make the
    unscoped buffers at any contents `V'` that hold the output array's final contents and agree with the entry contents
    elsewhere. -/
theorem exit (c : Dev nD) (V' : (b : Ref sig .tc) → Buf (Elt F) ((c : Thread nD τ).loc b))
    (h5 : V' main_v5 = V c main_v5) (h6 : V' main_v6 = V c main_v6) (h7 : V' main_v7 = (dat V c).arrAt 4 cfg1.N)
    (hrest : ∀ b, b ∉ Finset.univ.image (Pipeline.arrRef spec1) → V' b = V c b) :
    iprop((dat V c).arrays ((dat V c).arrAt · cfg1.N) ∗ Pipeline.unscopedRest spec1 c (V c))
      ⊢ (unscopedBufs (Ix := Unit) (Name := ℕ) (U := UR sig nD τ) (Lvl := ℕ) c V' : sProp 𝕄) := by
  rw [bufs_split, arrBufs_eq, arrays_eq, h5, h6, h7,
    show (dat V c).arrAt 0 cfg1.N = V c main_v5 from ((dat V c).arrAt_in 0 rfl _).trans (A_eq V c 0),
    show (dat V c).arrAt 1 cfg1.N = V c main_v5 from ((dat V c).arrAt_in 1 rfl _).trans (A_eq V c 1),
    show (dat V c).arrAt 2 cfg1.N = V c main_v5 from ((dat V c).arrAt_in 2 rfl _).trans (A_eq V c 2),
    show (dat V c).arrAt 3 cfg1.N = V c main_v6 from ((dat V c).arrAt_in 3 rfl _).trans (A_eq V c 3),
    show (Pipeline.unscopedRest spec1 c V' : sProp 𝕄) = Pipeline.unscopedRest spec1 c (V c) from by
      unfold Pipeline.unscopedRest; exact BI.bigSep_congr fun b hb => by rw [hrest b (Finset.mem_sdiff.mp hb).2]]
  iintro ⟨⟨H5a, H5b, H5c, H6, H7⟩, Hrest⟩
  ihave H5r := (pointsTo_share (PosShare.mem_left_op_right fullShare.right)).2 $$ [H5b H5c]
  · isplitl [H5b]; · iexact H5b
    iexact H5c
  ihave H5 := (pointsTo_share (PosShare.mem_left_op_right fullShare)).2 $$ [H5a H5r]
  · isplitl [H5a]; · iexact H5a
    iexact H5r
  isplitr [Hrest]
  · isplitl [H5]; · iexact H5
    isplitl [H6]; · iexact H6
    iexact H7
  iexact Hrest

end Cert.KernelIdeal.R1

end
-- ==== Proof.KI.RunMain.lean ====
/-
  The whole program's run. @main is four segments: the host operations that join the three weight matrices and
  re-lay the activations, the projection region, the host operations that re-lay its result and convert the output
  weights, and the attention region. The buffers' contents at each boundary are a fold from the launch memory: a
  host stretch's operations applied in order, a region's output array at what its write-backs leave. Every weakly
  fair execution terminates without a fault, the result array ends at what the attention region's write-backs leave
  in it, and every argument array ends as launched.
-/
import proofs.«133693_j50972671869478_2_alg».proof.Proof.Gen.KernelIdeal.Regions
import proofs.«133693_j50972671869478_2_alg».proof.Proof.KI.Region0
import proofs.«133693_j50972671869478_2_alg».proof.Proof.KI.Region1Arrays

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the projection region's exit: its output array at what the write-backs leave, every other buffer as entered. -/
def W2 (c : Dev nD) : Valuation τ sig (Elt F) :=
  Function.update (W1 m ρ c) main_v4 ((R0.dat (E1 m ρ) c).arrAt 2 cfg0.N)
theorem W2_main_v4 (c : Dev nD) : W2 m ρ c (Proc.devRef .tc main_v4) = (R0.dat (E1 m ρ) c).arrAt 2 cfg0.N := by
  unfold W2; exact Function.update_self _ _ _
theorem W2_of_ne' (c : Dev nD) (b : Ref sig .tc) (hb : b ≠ main_v4) :
    W2 m ρ c (Proc.devRef .tc b) = W1 m ρ c (Proc.devRef .tc b) := by
  unfold W2; exact Function.update_of_ne (StableHlo.devRef_ne_of_ne hb) _ _
theorem W2_arr (c : Dev nD) (w : Fin cfg0.W) :
    W2 m ρ c (Proc.devRef .tc (Pipeline.arrRef spec0 w)) = (R0.dat (E1 m ρ) c).arrAt w cfg0.N := by
  match w with
  | ⟨0, _⟩ => exact (W2_of_ne' m ρ c main_v2 (by decide)).trans (((R0.dat (E1 m ρ) c).arrAt_in 0 rfl _).trans (R0.A_eq (E1 m ρ) c 0)).symm
  | ⟨1, _⟩ => exact (W2_of_ne' m ρ c main_v3 (by decide)).trans (((R0.dat (E1 m ρ) c).arrAt_in 1 rfl _).trans (R0.A_eq (E1 m ρ) c 1)).symm
  | ⟨2, _⟩ => exact W2_main_v4 m ρ c
theorem W2_of_ne (c : Dev nD) (b : Ref sig .tc) (hb : ∀ w, Pipeline.arrRef spec0 w ≠ b) :
    W2 m ρ c (Proc.devRef .tc b) = W1 m ρ c (Proc.devRef .tc b) :=
  W2_of_ne' m ρ c b (fun e => hb 2 e.symm)
abbrev E2 : (c : Dev nD) → (b : Ref sig .tc) → Buf (Elt F) ((c : Thread nD τ).loc b) := fun c b => W2 m ρ c b
theorem hF0 (c : Dev nD) (w : Fin cfg0.W) : (R0.dat (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention region's exit: the result array at what the write-backs leave, every other buffer as entered. -/
def W4 (c : Dev nD) : Valuation τ sig (Elt F) :=
  Function.update (W3 m ρ c) main_v7 ((R1.dat (E3 m ρ) c).arrAt 4 cfg1.N)
abbrev E4 : (c : Dev nD) → (b : Ref sig .tc) → Buf (Elt F) ((c : Thread nD τ).loc b) := fun c b => W4 m ρ c b
theorem W4_main_v7 (c : Dev nD) : W4 m ρ c (Proc.devRef .tc main_v7) = (R1.dat (E3 m ρ) c).arrAt 4 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) _ _

/-- No host operation and no region writes an argument array: the fold at it walks back to the launch memory. -/
theorem W4_arg (c : Dev nD) (b : Ref sig .tc) (h7 : b ≠ main_v7) (h1 : b ∉ hostOps1_W) (h4 : ∀ w, Pipeline.arrRef spec0 w ≠ b ∨ (cfg0.win w).isOut = false)
    (h0 : b ∉ hostOps0_W) : W4 m ρ c (Proc.devRef .tc b) = m ((c : Thread nD τ).loc b) := by
  rw [W4_of_ne m ρ c b h7]
  rw [show W3 m ρ c (Proc.devRef .tc b) = W2 m ρ c (Proc.devRef .tc b) from StableHlo.after_of_writes_sub hostOps1 _ hostOps1_writes h1]
  have h2 : W2 m ρ c (Proc.devRef .tc b) = W1 m ρ c (Proc.devRef .tc b) := by
    by_cases hb : ∀ w, Pipeline.arrRef spec0 w ≠ b
    · exact W2_of_ne m ρ c b hb
    · obtain ⟨w, hw⟩ := not_forall.mp hb
      obtain rfl : Pipeline.arrRef spec0 w = b := not_not.mp hw
      have hin : (cfg0.win w).isOut = false := (h4 w).resolve_left (fun h => h rfl)
      exact (W2_arr m ρ c w).trans (((R0.dat (E1 m ρ) c).arrAt_in w hin _).trans (R0.A_eq (E1 m ρ) c w))
  rw [h2]
  exact (StableHlo.after_of_writes_sub hostOps0 _ hostOps0_writes h0).trans rfl

/-! ## The proof data family and the thread state -/

abbrev admT : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admT p) c
  | ⟨0, _⟩ => fun c => R0.dat (E1 m ρ) c
  | ⟨1, _⟩ => fun c => R1.dat (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) admT (pdats m ρ) () defs₀ 𝒱₀ L lv 1 where
  win := winFacts₀1
  block_pos := block_pos1
  stage_whole := stage_whole1
  K := PEmpty
  osem k := k.elim
  ho := Pipeline.OwnSemFacts.none _
  hbody c := (R1.body_obligation (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := R1.entry (E3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin (E3 m ρ) c)
    unfold Pipeline.ΦA
    iintro ⟨Hp, -, Hr⟩
    isplitl [Hr]; · iexact Hr
    iexact Hp
  hout c := by
    refine (R1.hout (E3 m ρ) c).trans ?_
    rw [Pipeline.ownSems0_none]; unfold Pipeline.ΦA
    iintro ⟨Hr, Hp⟩
    isplitl [Hp]; · iexact Hp
    isplitr; · iempintro
    iexact Hr
  hexit c := by
    have hjoin := R1.exit (E3 m ρ) c (E4 m ρ c)
      ((W4_of_ne m ρ c main_v5 (by decide)))
      ((W4_of_ne m ρ c main_v6 (by decide)))
      (W4_main_v7 m ρ c)
      (fun b hb => W4_of_ne m ρ c b (fun e => hb (Finset.mem_image.mpr ⟨4, Finset.mem_univ _, e.symm⟩)))
    rw [Pipeline.unscopedBufs_held] at hjoin
    iintro ⟨Ha, HO, HY, Hrest⟩
    imodintro
    isplitl [Ha Hrest HY]
    · isplitl [Ha Hrest]
      · iapply hjoin; isplitl [Ha]
        · iexact Ha
        iexact Hrest
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segsT m ρ) := (main_chain c).trans (by chain_rfl)

set_option backward.isDefEq.respectTransparency.types false in
/-- THE RUN, at any instance: from any memory with zero counters every weakly fair execution of @main terminates,
    nothing faulting; the result array ends at what the attention region's write-backs leave in it and every argument
    array as launched. -/
theorem run_main : θ_run defs (onTc (τ := τ) (main (F := F))) ⟨m, fun _ => 0, ρ⟩ (fun r => ∀ c : Dev nD,
      r.2.mem ((c.tc : Thread nD τ).loc main_v7) = (R1.dat (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide)),
       (h c _ (mem_uc main_arg4 (by decide))).trans (W4_arg m ρ c main_arg4 (by decide) (by decide) (by decide) (by decide))⟩)

end Cert.KernelIdeal.Run

end
-- ==== Proof.KI.Region1Tile.lean ====
/-
  The attention region's arithmetic, one (batch, query block) pair at a time, as pure functions of the blocks
  the two points load. The first point, from the reset statistics (-∞, 0, 0), leaves the running maximum, sum and
  accumulator of the first key block; the second point folds the second key block in and stores the normalised,
  projected accumulator. The runs' found pieces, read back, ARE these functions.
-/
import proofs.«133693_j50972671869478_2_alg».proof.Proof.KI.Region1Dat
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pair's arithmetic -/

/-- After the first key block: the running row maximum, -/
def firstMax (q k : Vec F S1x1024x1024 .bf16) : Vec F S1024x1 .f32 := k1_pay2 (k1_pay8 q k (k1_pay4 (F := F)))
/-- the running row sum, -/
def firstSum (q k : Vec F S1x1024x1024 .bf16) : Vec F S1024x1 .f32 := k1_pay11 q k (k1_pay4 (F := F)) (k1_pay5 (F := F))
/-- and the accumulator. -/
def firstAcc (q k v : Vec F S1x1024x1024 .bf16) : Vec F S1024x1024 .f32 :=
  k1_pay1 (k1_pay9 q k (k1_pay4 (F := F))) (k1_pay12 q k v (k1_pay4 (F := F))) (k1_pay6 (F := F))
/-- After the second key block, from the statistics `xMax`, `xSum`, `xAcc` the first left. -/
def lastMax (q k : Vec F S1x1024x1024 .bf16) (xMax : Vec F S1024x1 .f32) : Vec F S1024x1 .f32 := k1_pay2 (k1_pay8 q k xMax)
def lastSum (q k : Vec F S1x1024x1024 .bf16) (xMax xSum : Vec F S1024x1 .f32) : Vec F S1024x1 .f32 := k1_pay11 q k xMax xSum
def lastAcc (q k v : Vec F S1x1024x1024 .bf16) (xMax : Vec F S1024x1 .f32) (xAcc : Vec F S1024x1024 .f32) : Vec F S1024x1024 .f32 :=
  k1_pay1 (k1_pay9 q k xMax) (k1_pay12 q k v xMax) xAcc
/-- The stored block: the accumulator over the row sums, times the output weights. -/
def lastOut (q k v : Vec F S1x1024x1024 .bf16) (wo : Vec F S1024x1024 .bf16) (xMax xSum : Vec F S1024x1 .f32) (xAcc : Vec F S1024x1024 .f32) : Vec F S1x1024x1024 .f32 :=
  k1_pay3 (lastAcc q k v xMax xAcc) (lastSum q k xMax xSum) wo
/-- A whole pair: query block `q`, key and value blocks `k1`, `v1` then `k2`, `v2`, output weights `wo`. -/
def pair (q k1 v1 k2 v2 : Vec F S1x1024x1024 .bf16) (wo : Vec F S1024x1024 .bf16) : Vec F S1x1024x1024 .f32 :=
  lastOut q k2 v2 wo (firstMax q k1) (firstSum q k1) (firstAcc q k1 v1)

/-! ## The runs' pieces read back -/

theorem hz2 : (![0, 0] : Fin 2 → Nat) = fun _ => 0 := by funext a; fin_cases a <;> rfl
theorem hz3 : (![0, 0, 0] : Fin 3 → Nat) = fun _ => 0 := by funext a; fin_cases a <;> rfl

theorem soutMaxF_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : soutMaxF c i arg3 harg3 arg4 harg4 arg5 harg5 arg6 harg6 arg7 harg7 arg8 harg8 arg9 harg9 arg10 harg10 hc0 hc1 x0 x1 x2 = firstMax x0 x1 := by
  unfold soutMaxF
  rw [View.read_writes_eq_canon _ _ _ (scoverMaxF c i arg3 harg3 arg4 harg4 arg5 harg5 arg6 harg6 arg7 harg7 arg8 harg8 arg9 harg9 arg10 harg10 hc0 hc1 x0 x1 x2)]
  unfold runFirst; dsimp only; sl_unfold_words
  rw [View.canon_cons_unit_zero hz2]
  simp only [View.readAt_eq_ld, harg3.read_unread, harg4.read_unread, harg5.read_unread, View.ld_unit_zero (S := S1x1024x1024) hz3, View.readCov_unit_zero (S := S1024x1) arg8.view hz2, View.readCov_unit_zero (S := S1024x1) arg9.view hz2, View.readCov_unit_zero (S := S1024x1024) arg10.view hz2]
  rfl

theorem soutSumF_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : soutSumF c i arg3 harg3 arg4 harg4 arg5 harg5 arg6 harg6 arg7 harg7 arg8 harg8 arg9 harg9 arg10 harg10 hc0 hc1 x0 x1 x2 = firstSum x0 x1 := by
  unfold soutSumF
  rw [View.read_writes_eq_canon _ _ _ (scoverSumF c i arg3 harg3 arg4 harg4 arg5 harg5 arg6 harg6 arg7 harg7 arg8 harg8 arg9 harg9 arg10 harg10 hc0 hc1 x0 x1 x2)]
  unfold runFirst; dsimp only; sl_unfold_words
  rw [View.canon_cons_unit_zero hz2]
  simp only [View.readAt_eq_ld, harg3.read_unread, harg4.read_unread, harg5.read_unread, View.ld_unit_zero (S := S1x1024x1024) hz3, View.readCov_unit_zero (S := S1024x1) arg8.view hz2, View.readCov_unit_zero (S := S1024x1) arg9.view hz2, View.readCov_unit_zero (S := S1024x1024) arg10.view hz2]
  rfl

theorem soutAccF_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : condFirst i) (hc1 : ¬condLast i) (x0 x1 x2 : Vec F S1x1024x1024 .bf16) : soutAccF c i arg3 harg3 arg4 harg4 arg5 harg5 arg6 harg6 arg7 harg7 arg8 harg8 arg9 harg9 arg10 harg10 hc0 hc1 x0 x1 x2 = firstAcc x0 x1 x2 := by
  unfold soutAccF
  rw [View.read_writes_eq_canon _ _ _ (scoverAccF c i arg3 harg3 arg4 harg4 arg5 harg5 arg6 harg6 arg7 harg7 arg8 harg8 arg9 harg9 arg10 harg10 hc0 hc1 x0 x1 x2)]
  unfold runFirst; dsimp only; sl_unfold_words
  rw [View.canon_cons_unit_zero hz2]
  simp only [View.readAt_eq_ld, harg3.read_unread, harg4.read_unread, harg5.read_unread, View.ld_unit_zero (S := S1x1024x1024) hz3, View.readCov_unit_zero (S := S1024x1) arg8.view hz2, View.readCov_unit_zero (S := S1024x1) arg9.view hz2, View.readCov_unit_zero (S := S1024x1024) arg10.view hz2]
  rfl

theorem soutMaxL_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : soutMaxL c i arg3 harg3 arg4 harg4 arg5 harg5 arg6 harg6 arg7 harg7 arg8 harg8 arg9 harg9 arg10 harg10 hc0 hc1 x0 x1 x2 x3 xMax xSum xAcc = lastMax x0 x1 xMax := by
  unfold soutMaxL
  rw [View.read_writes_eq_canon _ _ _ (scoverMaxL c i arg3 harg3 arg4 harg4 arg5 harg5 arg6 harg6 arg7 harg7 arg8 harg8 arg9 harg9 arg10 harg10 hc0 hc1 x0 x1 x2 x3 xMax xSum xAcc)]
  unfold runLast; dsimp only; sl_unfold_words
  rw [View.canon_cons_unit_zero hz2]
  simp only [View.readAt_eq_ld, harg3.read_unread, harg4.read_unread, harg5.read_unread, harg6.read_unread, harg8.read_unread, harg9.read_unread, harg10.read_unread,
    View.ld_unit_zero (S := S1x1024x1024) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2]
  rfl

theorem soutSumL_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : soutSumL c i arg3 harg3 arg4 harg4 arg5 harg5 arg6 harg6 arg7 harg7 arg8 harg8 arg9 harg9 arg10 harg10 hc0 hc1 x0 x1 x2 x3 xMax xSum xAcc = lastSum x0 x1 xMax xSum := by
  unfold soutSumL
  rw [View.read_writes_eq_canon _ _ _ (scoverSumL c i arg3 harg3 arg4 harg4 arg5 harg5 arg6 harg6 arg7 harg7 arg8 harg8 arg9 harg9 arg10 harg10 hc0 hc1 x0 x1 x2 x3 xMax xSum xAcc)]
  unfold runLast; dsimp only; sl_unfold_words
  rw [View.canon_cons_unit_zero hz2]
  simp only [View.readAt_eq_ld, harg3.read_unread, harg4.read_unread, harg5.read_unread, harg6.read_unread, harg8.read_unread, harg9.read_unread, harg10.read_unread,
    View.ld_unit_zero (S := S1x1024x1024) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2]
  rfl

theorem soutAccL_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : soutAccL c i arg3 harg3 arg4 harg4 arg5 harg5 arg6 harg6 arg7 harg7 arg8 harg8 arg9 harg9 arg10 harg10 hc0 hc1 x0 x1 x2 x3 xMax xSum xAcc = lastAcc x0 x1 x2 xMax xAcc := by
  unfold soutAccL
  rw [View.read_writes_eq_canon _ _ _ (scoverAccL c i arg3 harg3 arg4 harg4 arg5 harg5 arg6 harg6 arg7 harg7 arg8 harg8 arg9 harg9 arg10 harg10 hc0 hc1 x0 x1 x2 x3 xMax xSum xAcc)]
  unfold runLast; dsimp only; sl_unfold_words
  rw [View.canon_cons_unit_zero hz2]
  simp only [View.readAt_eq_ld, harg3.read_unread, harg4.read_unread, harg5.read_unread, harg6.read_unread, harg8.read_unread, harg9.read_unread, harg10.read_unread,
    View.ld_unit_zero (S := S1x1024x1024) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2]
  rfl

theorem outL_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬condFirst i) (hc1 : condLast i) (x0 x1 x2 : Vec F S1x1024x1024 .bf16) (x3 : Vec F S1024x1024 .bf16) (xMax xSum : Vec F S1024x1 .f32) (xAcc : Vec F S1024x1024 .f32) : outL c i arg3 harg3 arg4 harg4 arg5 harg5 arg6 harg6 arg7 harg7 arg8 harg8 arg9 harg9 arg10 harg10 hc0 hc1 x0 x1 x2 x3 xMax xSum xAcc = lastOut x0 x1 x2 x3 xMax xSum xAcc := by
  unfold outL
  rw [View.read_writes_eq_canon _ _ _ (coverOutL c i arg3 harg3 arg4 harg4 arg5 harg5 arg6 harg6 arg7 harg7 arg8 harg8 arg9 harg9 arg10 harg10 hc0 hc1 x0 x1 x2 x3 xMax xSum xAcc)]
  unfold runLast; dsimp only; sl_unfold_words
  rw [View.canon_cons_unit_zero hz3]
  simp only [View.readAt_eq_ld, harg3.read_unread, harg4.read_unread, harg5.read_unread, harg6.read_unread, harg8.read_unread, harg9.read_unread, harg10.read_unread,
    View.ld_unit_zero (S := S1x1024x1024) hz3, View.ld_unit_zero (S := S1024x1) hz2, View.ld_unit_zero (S := S1024x1024) hz2, View.readCov_unit_zero (S := S1024x1) arg8.view hz2, View.readCov_unit_zero (S := S1024x1) arg9.view hz2, View.readCov_unit_zero (S := S1024x1024) arg10.view hz2]
  rfl

end Cert.KernelIdeal.R1

end
-- ==== Proof.KI.Region1Value.lean ====
/-
  The array the attention region leaves. A grid point is (batch, query block, key block); the two points of a
  (batch, query block) pair fold the two key blocks into the running statistics, and the second stores the
  normalised, projected accumulator into the pair's block of the result. The 4 × 2 pairs' blocks tile the
  [4, 2048, 1024] result: so the result array, at batch `b`, row `r`, column `f`, is the pair function of the
  query block `r / 1024` of batch `b`, the batch's two key and value blocks and the output weights, at row
  `r % 1024`, column `f`.
-/
import proofs.«133693_j50972671869478_2_alg».proof.Proof.KI.Region1Tile
import Idealize.ShloMosaic.Lib.ValueIdx
import Idealize.ShloMosaic.Lib.Pipeline.Value

noncomputable section

namespace Cert.KernelIdeal.R1V

open Cert.KernelIdeal Cert.KernelIdeal.Gen
open Idealize.ShloMosaic Idealize.ShloMosaic.TcCoe Idealize.SL.Sem
open Idealize.ShloMosaic.Pipeline (Dat)
open Idealize.ShloMosaic.ValueIdx

/-! ## The blocks of the fused query-key-value array -/

/-- Query block `qi` of batch `b`: rows `qi * 1024 …`, columns `0 … 1023`. -/
def blkQ (a : S4x2048x3072.Idx → EReal) (b : Fin 4) (qi : Fin 2) : S1x1024x1024.Idx → EReal := fun y =>
  a (ix3 b (⟨qi.val * 1024 + (y 1).val, by have h : (y 1).val < 1024 := (y 1).isLt; have := qi.isLt; omega⟩ : Fin 2048)
    (⟨(y 2).val, by have h : (y 2).val < 1024 := (y 2).isLt; omega⟩ : Fin 3072))
/-- Key block `kv` of batch `b`: rows `kv * 1024 …`, columns `1024 … 2047`. -/
def blkK (a : S4x2048x3072.Idx → EReal) (b : Fin 4) (kv : Fin 2) : S1x1024x1024.Idx → EReal := fun y =>
  a (ix3 b (⟨kv.val * 1024 + (y 1).val, by have h : (y 1).val < 1024 := (y 1).isLt; have := kv.isLt; omega⟩ : Fin 2048)
    (⟨1024 + (y 2).val, by have h : (y 2).val < 1024 := (y 2).isLt; omega⟩ : Fin 3072))
/-- Value block `kv` of batch `b`: rows `kv * 1024 …`, columns `2048 … 3071`. -/
def blkV (a : S4x2048x3072.Idx → EReal) (b : Fin 4) (kv : Fin 2) : S1x1024x1024.Idx → EReal := fun y =>
  a (ix3 b (⟨kv.val * 1024 + (y 1).val, by have h : (y 1).val < 1024 := (y 1).isLt; have := kv.isLt; omega⟩ : Fin 2048)
    (⟨2048 + (y 2).val, by have h : (y 2).val < 1024 := (y 2).isLt; omega⟩ : Fin 3072))

/-- One (batch, query block) pair's stored block. -/
def tile (a : S4x2048x3072.Idx → EReal) (wo : S1024x1024.Idx → EReal) (b : Fin 4) (qi : Fin 2) : S1x1024x1024.Idx → EReal :=
  R1.pair (F := Ideal) (blkQ a b qi) (blkK a b 0) (blkV a b 0) (blkK a b 1) (blkV a b 1) wo

/-- The whole result: at (b, r, f) the tile of batch `b`, query block `r / 1024`, at row `r % 1024`, column `f`. -/
def G (a : S4x2048x3072.Idx → EReal) (wo : S1024x1024.Idx → EReal) : S4x2048x1024.Idx → EReal := fun i =>
  tile a wo (⟨(i 0).val, (i 0).isLt⟩ : Fin 4) (⟨(i 1).val / 1024, by have h : (i 1).val < 2048 := (i 1).isLt; omega⟩ : Fin 2)
    (ix3 (0 : Fin 1) (⟨(i 1).val % 1024, Nat.mod_lt _ (by decide)⟩ : Fin 1024) (⟨(i 2).val, (i 2).isLt⟩ : Fin 1024))

/-- The whole result at an index of a pair's block. -/
theorem G_apply (a : S4x2048x3072.Idx → EReal) (wo : S1024x1024.Idx → EReal) (i : S4x2048x1024.Idx) (b : Fin 4) (qi : Fin 2)
    (j : S1x1024x1024.Idx) (h0 : (i 0).val = b.val) (h1 : (i 1).val = qi.val * 1024 + (j 1).val) (h2 : (i 2).val = (j 2).val) :
    G a wo i = tile a wo b qi j := by
  have hj0 : (j 0).val < 1 := (j 0).isLt
  have hj1 : (j 1).val < 1024 := (j 1).isLt
  have eb : (⟨(i 0).val, (i 0).isLt⟩ : Fin 4) = b := Fin.ext h0
  have eq : (⟨(i 1).val / 1024, by have h : (i 1).val < 2048 := (i 1).isLt; omega⟩ : Fin 2) = qi := Fin.ext (by show (i 1).val / 1024 = qi.val; omega)
  have ej : ix3 (0 : Fin 1) (⟨(i 1).val % 1024, Nat.mod_lt _ (by decide)⟩ : Fin 1024) (⟨(i 2).val, (i 2).isLt⟩ : Fin 1024) = j := by
    funext d; apply Fin.ext
    match d with
    | ⟨0, _⟩ => show (0 : Nat) = (j 0).val; omega
    | ⟨1, _⟩ => show (i 1).val % 1024 = (j 1).val; omega
    | ⟨2, _⟩ => exact h2
  unfold G
  rw [eb, eq, ej]

/-- The second point's stored block over what the first point left is the pair's tile, once every loaded block is
    known to be its block of the fused array. -/
theorem lastOut_eq_tile (a : S4x2048x3072.Idx → EReal) (wo : S1024x1024.Idx → EReal) (b : Fin 4) (qi : Fin 2)
    (x0 x1 x2 x0' x1' x2' : Vec Ideal S1x1024x1024 .bf16) (x3 : Vec Ideal S1024x1024 .bf16)
    (h0 : x0 = blkQ a b qi) (h1 : x1 = blkK a b 1) (h2 : x2 = blkV a b 1) (h3 : x3 = wo)
    (h0' : x0' = blkQ a b qi) (h1' : x1' = blkK a b 0) (h2' : x2' = blkV a b 0) :
    R1.lastOut (F := Ideal) x0 x1 x2 x3 (R1.firstMax x0' x1') (R1.firstSum x0' x1') (R1.firstAcc x0' x1' x2') = tile a wo b qi := by
  subst h0 h1 h2 h3 h0' h1' h2'; rfl

/-! ## The windows' blocks over the grid -/

/-- The printed index maps over the grid: point `t` is batch `t / 4`, query block `t / 2 % 2`, key block `t % 2`; the
    three windows on the fused array are its column blocks 0, 1, 2. -/
theorem idx_facts : ∀ t : Fin cfg1.N,
    (win1_0.index t (0 : Fin 3) = t.val / 4 ∧ win1_0.index t (1 : Fin 3) = t.val / 2 % 2 ∧ win1_0.index t (2 : Fin 3) = 0)
    ∧ (win1_1.index t (0 : Fin 3) = t.val / 4 ∧ win1_1.index t (1 : Fin 3) = t.val % 2 ∧ win1_1.index t (2 : Fin 3) = 1)
    ∧ (win1_2.index t (0 : Fin 3) = t.val / 4 ∧ win1_2.index t (1 : Fin 3) = t.val % 2 ∧ win1_2.index t (2 : Fin 3) = 2)
    ∧ (win1_3.index t (0 : Fin 2) = 0 ∧ win1_3.index t (1 : Fin 2) = 0)
    ∧ (win1_4.index t (0 : Fin 3) = t.val / 4 ∧ win1_4.index t (1 : Fin 3) = t.val / 2 % 2 ∧ win1_4.index t (2 : Fin 3) = 0) :=
  (by decide +kernel : ∀ t : Fin grid1.N, _)

variable (V : (c : Dev nD) → (b : Ref sig .tc) → Buf (Elt Ideal) ((c : Thread nD τ).loc b))

/-- The query window's block at point `t`. -/
theorem iblk0_eq (c : Dev nD) (t : Fin cfg1.N) (b : Fin 4) (qi : Fin 2) (hb : b.val = t.val / 4) (hq : qi.val = t.val / 2 % 2) :
    (R1.iblk V c 0 t : S1x1024x1024.Idx → EReal) = blkQ (V c main_v5) b qi := by
  obtain ⟨⟨e0, e1, e2⟩, -⟩ := idx_facts t
  funext y
  have hy0 : (y 0).val < 1 := (y 0).isLt
  show V c main_v5 (((cfg1.win 0).blk t).view.emb y) = V c main_v5 _
  refine congrArg _ (funext fun d => Fin.ext ?_)
  match d with
  | ⟨0, _⟩ => show win1_0.index t (0 : Fin 3) * 1 + 1 * (y 0).val = b.val; omega
  | ⟨1, _⟩ => show win1_0.index t (1 : Fin 3) * 1024 + 1 * (y 1).val = qi.val * 1024 + (y 1).val; omega
  | ⟨2, _⟩ => show win1_0.index t (2 : Fin 3) * 1024 + 1 * (y 2).val = (y 2).val; omega

/-- The key window's block at point `t`. -/
theorem iblk1_eq (c : Dev nD) (t : Fin cfg1.N) (b : Fin 4) (kv : Fin 2) (hb : b.val = t.val / 4) (hk : kv.val = t.val % 2) :
    (R1.iblk V c 1 t : S1x1024x1024.Idx → EReal) = blkK (V c main_v5) b kv := by
  obtain ⟨-, ⟨e0, e1, e2⟩, -⟩ := idx_facts t
  funext y
  have hy0 : (y 0).val < 1 := (y 0).isLt
  show V c main_v5 (((cfg1.win 1).blk t).view.emb y) = V c main_v5 _
  refine congrArg _ (funext fun d => Fin.ext ?_)
  match d with
  | ⟨0, _⟩ => show win1_1.index t (0 : Fin 3) * 1 + 1 * (y 0).val = b.val; omega
  | ⟨1, _⟩ => show win1_1.index t (1 : Fin 3) * 1024 + 1 * (y 1).val = kv.val * 1024 + (y 1).val; omega
  | ⟨2, _⟩ => show win1_1.index t (2 : Fin 3) * 1024 + 1 * (y 2).val = 1024 + (y 2).val; omega

/-- The value window's block at point `t`. -/
theorem iblk2_eq (c : Dev nD) (t : Fin cfg1.N) (b : Fin 4) (kv : Fin 2) (hb : b.val = t.val / 4) (hk : kv.val = t.val % 2) :
    (R1.iblk V c 2 t : S1x1024x1024.Idx → EReal) = blkV (V c main_v5) b kv := by
  obtain ⟨-, -, ⟨e0, e1, e2⟩, -⟩ := idx_facts t
  funext y
  have hy0 : (y 0).val < 1 := (y 0).isLt
  show V c main_v5 (((cfg1.win 2).blk t).view.emb y) = V c main_v5 _
  refine congrArg _ (funext fun d => Fin.ext ?_)
  match d with
  | ⟨0, _⟩ => show win1_2.index t (0 : Fin 3) * 1 + 1 * (y 0).val = b.val; omega
  | ⟨1, _⟩ => show win1_2.index t (1 : Fin 3) * 1024 + 1 * (y 1).val = kv.val * 1024 + (y 1).val; omega
  | ⟨2, _⟩ => show win1_2.index t (2 : Fin 3) * 1024 + 1 * (y 2).val = 2048 + (y 2).val; omega

/-- The output weights' window is the whole matrix at every point. -/
theorem iblk3_eq (c : Dev nD) (t : Fin cfg1.N) :
    (R1.iblk V c 3 t : S1024x1024.Idx → EReal) = (V c main_v6 : S1024x1024.Idx → EReal) := by
  obtain ⟨-, -, -, ⟨e0, e1⟩, -⟩ := idx_facts t
  funext y
  show V c main_v6 (((cfg1.win 3).blk t).view.emb y) = V c main_v6 y
  refine congrArg _ (funext fun d => Fin.ext ?_)
  match d with
  | ⟨0, _⟩ => show win1_3.index t (0 : Fin 2) * 1024 + 1 * (y 0).val = (y 0).val; omega
  | ⟨1, _⟩ => show win1_3.index t (1 : Fin 2) * 1024 + 1 * (y 1).val = (y 1).val; omega

/-! ## A pair's second point -/

/-- What the output window's buffer holds after a pair's second point: the pair's tile. -/
theorem out_last (c : Dev nD) (t : Fin cfg1.N) (hodd : t.val % 2 = 1) (b : Fin 4) (qi : Fin 2) (hb : b.val = t.val / 4) (hq : qi.val = t.val / 2 % 2) :
    ((R1.outsAt (F := Ideal) V c t.val t.isLt).1 : S1x1024x1024.Idx → EReal) = tile (V c main_v5) (V c main_v6) b qi := by
  have hfirst := R1.outsAt_first (F := Ideal) V c ⟨t.val - 1, Nat.lt_of_le_of_lt (Nat.sub_le _ _) t.isLt⟩ (by show (t.val - 1) % 2 = 0; omega)
  rw [R1.outsAt_last V c t (by omega)]
  dsimp only
  rw [R1.outL_eq, hfirst]
  dsimp only
  rw [R1.soutMaxF_eq, R1.soutSumF_eq, R1.soutAccF_eq]
  rw [iblk0_eq V c t b qi hb hq, iblk1_eq V c t b 1 hb (by show 1 = t.val % 2; omega), iblk2_eq V c t b 1 hb (by show 1 = t.val % 2; omega), iblk3_eq V c t,
    iblk0_eq V c ⟨t.val - 1, Nat.lt_of_le_of_lt (Nat.sub_le _ _) t.isLt⟩ b qi (by show b.val = (t.val - 1) / 4; omega) (by show qi.val = (t.val - 1) / 2 % 2; omega),
    iblk1_eq V c ⟨t.val - 1, Nat.lt_of_le_of_lt (Nat.sub_le _ _) t.isLt⟩ b 0 (by show b.val = (t.val - 1) / 4; omega) (by show 0 = (t.val - 1) % 2; omega),
    iblk2_eq V c ⟨t.val - 1, Nat.lt_of_le_of_lt (Nat.sub_le _ _) t.isLt⟩ b 0 (by show b.val = (t.val - 1) / 4; omega) (by show 0 = (t.val - 1) % 2; omega)]
  unfold tile R1.pair
  rfl

/-! ## From blocks to the array -/

/-- What a pair's second point writes back is its block of the whole result. -/
theorem flushed_eq (c : Dev nD) (t : Fin cfg1.N) (hf : (cfg1.win 4).flush t = true) :
    (R1.dat (F := Ideal) V c).flushed 4 t = ((cfg1.win 4).blk t).view.read (Elt Ideal) (G (V c main_v5) (V c main_v6)) := by
  have hN : cfg1.N = 16 := N_1
  have ht : t.val < 16 := lt_of_lt_of_eq t.isLt hN
  have hodd : t.val % 2 = 1 := (flush1_4 t).mp hf
  obtain ⟨-, -, -, -, e0, e1, e2⟩ := idx_facts t
  show (cfg1.win 4).cut (grid1.coords t) ((R1.dat V c).after 4 t) = _
  rw [R1.after_4]
  rw [out_last V c t hodd ⟨t.val / 4, by omega⟩ ⟨t.val / 2 % 2, by omega⟩ rfl rfl]
  funext j
  have hj0 : (j 0).val < 1 := (j 0).isLt
  rw [View.read_apply, cast_eq]
  rw [G_apply (V c main_v5) (V c main_v6) _ ⟨t.val / 4, by omega⟩ ⟨t.val / 2 % 2, by omega⟩ j
    (by show win1_4.index t (0 : Fin 3) * 1 + 1 * (j 0).val = t.val / 4; omega)
    (by show win1_4.index t (1 : Fin 3) * 1024 + 1 * (j 1).val = t.val / 2 % 2 * 1024 + (j 1).val; omega)
    (by show win1_4.index t (2 : Fin 3) * 1024 + 1 * (j 2).val = (j 2).val; omega)]

/-- An index of the result array is in point `t`'s block iff each coordinate is in the block's range on its axis. -/
theorem mem_blk (t : Fin cfg1.N) (i : S4x2048x1024.Idx) :
    i ∈ ((cfg1.win 4).blk t).view.set ↔ ∀ a : Fin 3, win1_4.index t a * S1x1024x1024.size a ≤ (i a).val ∧ (i a).val < win1_4.index t a * S1x1024x1024.size a + S1x1024x1024.size a := by
  show i ∈ ((View.whole main_v7).slice (win1_4.rect t)).set ↔ _
  rw [View.set_slice_whole, Rect.mem_set_unit]
  exact Iff.rfl

/-- Every index of the result array is in the block of a pair's second point: batch `b`, row `r` in that of point
    `4 * b + 2 * (r / 1024) + 1`. -/
theorem cover (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  have hN : cfg1.N = 16 := N_1
  obtain ⟨t, ht⟩ : ∃ t : Fin cfg1.N, t.val = 4 * (i 0).val + 2 * ((i 1).val / 1024) + 1 := ⟨⟨4 * (i 0).val + 2 * ((i 1).val / 1024) + 1, by rw [hN]; omega⟩, rfl⟩
  obtain ⟨-, -, -, -, e0, e1, e2⟩ := idx_facts t
  refine ⟨t, (flush1_4 t).mpr (by omega), ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 1024 ≤ (i 2).val ∧ (i 2).val < win1_4.index t (2 : Fin 3) * 1024 + 1024; omega

/-- THE ARRAY the attention region leaves: every pair's tile in its place. -/
theorem final (c : Dev nD) : (R1.dat (F := Ideal) V c).arrAt 4 cfg1.N = G (V c main_v5) (V c main_v6) :=
  (R1.dat (F := Ideal) V c).arrAt_eq_of_cover 4 (G (V c main_v5) (V c main_v6)) (fun t hf => flushed_eq V c t hf) cover

end Cert.KernelIdeal.R1V

end
-- ==== Proof.KI.Region0Value.lean ====
/-
  The array the fused projection leaves. One grid point multiplies 1024 rows of the activations by 768 columns of
  the joined weights, exactly (at the ideal values a matrix product into a zero accumulator is the sum of the
  products, and the format changes are the identity), and the 8 × 4 points' blocks tile the [8192, 3072] result:
  so the result array is the whole product, entry (r, s) the sum over k of activations (r, k) times weights (k, s).
-/
import proofs.«133693_j50972671869478_2_alg».proof.Proof.KI.Region0
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.R0V

open Cert.KernelIdeal Cert.KernelIdeal.Gen
open Idealize.ShloMosaic Idealize.ShloMosaic.TcCoe Idealize.SL.Sem
open Idealize.ShloMosaic.Pipeline (Dat)
open Idealize.ShloMosaic.ValueIdx

/-! ## One block: the product at an index -/

/-- The left operand's row coordinate is the output's. -/
theorem lhs_0 (i : S1024x768.Idx) (q : dot_S1024x1024_S1024x768_S1024x768_1_0_0_1_n_n.contr.Idx) : (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
/-- Its column coordinate is the contraction's. -/
theorem lhs_1 (i : S1024x768.Idx) (q : dot_S1024x1024_S1024x768_S1024x768_1_0_0_1_n_n.contr.Idx) : (dot_S1024x1024_S1024x768_S1024x768_1_0_0_1_n_n.lhsIdx i q 1).val = (q ⟨0, by decide⟩).val :=
  dot_S1024x1024_S1024x768_S1024x768_1_0_0_1_n_n.lhsIdx_val_of_single rfl i q
/-- The right operand's row coordinate is the contraction's. -/
theorem rhs_0 (i : S1024x768.Idx) (q : dot_S1024x1024_S1024x768_S1024x768_1_0_0_1_n_n.contr.Idx) : (dot_S1024x1024_S1024x768_S1024x768_1_0_0_1_n_n.rhsIdx i q 0).val = (q ⟨0, by decide⟩).val :=
  dot_S1024x1024_S1024x768_S1024x768_1_0_0_1_n_n.rhsIdx_val_of_single rfl i q
/-- Its column coordinate is the output's. -/
theorem rhs_1 (i : S1024x768.Idx) (q : dot_S1024x1024_S1024x768_S1024x768_1_0_0_1_n_n.contr.Idx) : (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

/-- What the body computes from its two loaded blocks, at row `p` and column `q`: the sum over `k` of the products. -/
theorem pay_apply (x0 : Vec Ideal S1024x1024 .bf16) (x1 : Vec Ideal S1024x768 .bf16) (p : Fin 1024) (q : Fin 768) :
    k0_pay1 (F := Ideal) x0 x1 (ix2 p q) = ∑ k : Fin 1024, (x0 (ix2 p k) : EReal) * (x1 (ix2 k q) : EReal) := by
  unfold k0_pay1
  simp only [shapeCast_self]
  show FloatOps.matmul (φ₁ := .bf16) (φ₂ := .bf16) dot_S1024x1024_S1024x768_S1024x768_1_0_0_1_n_n none x0 x1 (constant (F := Ideal) S1024x768 .f32 0x00000000#32) (ix2 p q) = _
  rw [Ideal.matmul_constant_zero_apply, ← Equiv.sum_comp (contrEquiv1 dot_S1024x1024_S1024x768_S1024x768_1_0_0_1_n_n 1024 rfl rfl).symm]
  refine Finset.sum_congr rfl fun k _ => ?_
  have hk := contrEquiv1_symm_val dot_S1024x1024_S1024x768_S1024x768_1_0_0_1_n_n 1024 rfl rfl k
  have el : dot_S1024x1024_S1024x768_S1024x768_1_0_0_1_n_n.lhsIdx (ix2 p q) ((contrEquiv1 dot_S1024x1024_S1024x768_S1024x768_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x768_S1024x768_1_0_0_1_n_n.rhsIdx (ix2 p q) ((contrEquiv1 dot_S1024x1024_S1024x768_S1024x768_1_0_0_1_n_n 1024 rfl rfl).symm k) = ix2 k q := funext fun a => Fin.ext (by
    match a with
    | ⟨0, _⟩ => exact (rhs_0 _ _).trans hk
    | ⟨1, _⟩ => exact rhs_1 _ _)
  rw [el, er]

theorem hz : (![0, 0] : Fin 2 → Nat) = fun _ => 0 := funext fun a => by fin_cases a <;> rfl

/-- The one store covers the output window's buffer: after the body it holds the product of the two loaded blocks. -/
theorem out2_eq (x0 : Vec Ideal S1024x1024 .bf16) (x1 : Vec Ideal S1024x768 .bf16) : R0.out2 (F := Ideal) x0 x1 = k0_pay1 x0 x1 := by
  unfold R0.out2
  rw [View.canon_unit_zero hz]
  simp only [View.ld_unit_zero (S := S1024x1024) hz, View.ld_unit_zero (S := S1024x768) hz]

/-! ## From blocks to the array -/

/-- The whole product: entry (r, s) is the sum over `k` of `a (r, k) * b (k, s)`. -/
abbrev G (a : S8192x1024.Idx → EReal) (b : S1024x3072.Idx → EReal) : S8192x3072.Idx → EReal :=
  fun i => ∑ k : Fin 1024, a (ix2 (⟨(i 0).val, idx2_lt0 i⟩ : Fin 8192) k) * b (ix2 k (⟨(i 1).val, idx2_lt1 i⟩ : Fin 3072))

/-- A block of the product: if `x0` is rows `R * 1024 …` of `a` and `x1` is columns `C * 768 …` of `b`, the body's
    result at `j` is the whole product at row `R * 1024 + j 0`, column `C * 768 + j 1`. -/
theorem pay_block (a : S8192x1024.Idx → EReal) (b : S1024x3072.Idx → EReal)
    (x0 : Vec Ideal S1024x1024 .bf16) (x1 : Vec Ideal S1024x768 .bf16) (R C : Nat)
    (h0 : ∀ (y : S1024x1024.Idx) (i : S8192x1024.Idx), (i 0).val = R * 1024 + (y 0).val → (i 1).val = (y 1).val → x0 y = a i)
    (h1 : ∀ (y : S1024x768.Idx) (i : S1024x3072.Idx), (i 0).val = (y 0).val → (i 1).val = C * 768 + (y 1).val → x1 y = b i)
    (j : S1024x768.Idx) (i : S8192x3072.Idx) (hi0 : (i 0).val = R * 1024 + (j 0).val) (hi1 : (i 1).val = C * 768 + (j 1).val) :
    k0_pay1 (F := Ideal) x0 x1 j = G a b i := by
  obtain ⟨p, q, rfl⟩ : ∃ (p : Fin 1024) (q : Fin 768), j = ix2 p q := ⟨j 0, j 1, eq_ix2 j⟩
  rw [pay_apply]
  refine Finset.sum_congr rfl fun k _ => ?_
  rw [h0 (ix2 p k) (ix2 (⟨(i 0).val, idx2_lt0 i⟩ : Fin 8192) k) hi0 rfl,
    h1 (ix2 k q) (ix2 k (⟨(i 1).val, idx2_lt1 i⟩ : Fin 3072)) rfl hi1]

/-- The printed index maps over the grid: point `t` is block row `t / 4`, block column `t % 4`; the activations' window
    follows the row, the weights' the column. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = t.val % 4 :=
  (by decide +kernel : ∀ t : Fin grid0.N, _)

/-- What point `t` writes back is block `t` of the whole product of the two arrays as the region finds them. -/
theorem flushed_eq (V : (c : Dev nD) → (b : Ref sig .tc) → Buf (Elt Ideal) ((c : Thread nD τ).loc b)) (c : Dev nD) (t : Fin cfg0.N) :
    (R0.dat (F := Ideal) V c).flushed 2 t = ((cfg0.win 2).blk t).view.read (Elt Ideal) (G (V c main_v2) (V c main_v3)) := by
  show (cfg0.win 2).cut (grid0.coords t) ((R0.dat V c).after 2 t) = _
  rw [R0.after_2, out2_eq]
  obtain ⟨e00, e01, e10, e11, e20, e21⟩ := idx_facts t
  funext j
  show k0_pay1 (F := Ideal) (R0.iblk V c 0 t) (R0.iblk V c 1 t) j = G (V c main_v2) (V c main_v3) (((cfg0.win 2).blk t).view.emb j)
  refine pay_block (V c main_v2) (V c main_v3) (R0.iblk V c 0 t) (R0.iblk V c 1 t) (t.val / 4) (t.val % 4) ?_ ?_ j _ ?_ ?_
  · intro y i hi0 hi1
    show V c main_v2 (((cfg0.win 0).blk t).view.emb y) = V c main_v2 i
    refine congrArg _ (funext fun a => Fin.ext ?_)
    match a with
    | ⟨0, _⟩ => show win0_0.index t (0 : Fin 2) * 1024 + 1 * (y 0).val = (i 0).val; omega
    | ⟨1, _⟩ => show win0_0.index t (1 : Fin 2) * 1024 + 1 * (y 1).val = (i 1).val; omega
  · intro y i hi0 hi1
    show V c main_v3 (((cfg0.win 1).blk t).view.emb y) = V c main_v3 i
    refine congrArg _ (funext fun a => Fin.ext ?_)
    match a with
    | ⟨0, _⟩ => show win0_1.index t (0 : Fin 2) * 1024 + 1 * (y 0).val = (i 0).val; omega
    | ⟨1, _⟩ => show win0_1.index t (1 : Fin 2) * 768 + 1 * (y 1).val = (i 1).val; omega
  · show win0_2.index t (0 : Fin 2) * 1024 + 1 * (j 0).val = t.val / 4 * 1024 + (j 0).val; omega
  · show win0_2.index t (1 : Fin 2) * 768 + 1 * (j 1).val = t.val % 4 * 768 + (j 1).val; omega

/-- An index of the result array is in point `t`'s block iff each coordinate is in the block's range on its axis. -/
theorem mem_blk (t : Fin cfg0.N) (i : S8192x3072.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v4).slice (win0_2.rect t)).set ↔ _
  rw [View.set_slice_whole, Rect.mem_set_unit]
  exact Iff.rfl

/-- Every index of the result array is in some point's block: row `r`, column `s` in the block of point
    `(r / 1024) * 4 + s / 768`. -/
theorem cover (i : S8192x3072.Idx) : ∃ t : Fin cfg0.N, (cfg0.win 2).flush t = true ∧ i ∈ ((cfg0.win 2).blk t).view.set := by
  have hi0 : (i 0).val < 8192 := idx2_lt0 i
  have hi1 : (i 1).val < 3072 := idx2_lt1 i
  have hN : cfg0.N = 32 := N_0
  obtain ⟨t, ht⟩ : ∃ t : Fin cfg0.N, t.val = (i 0).val / 1024 * 4 + (i 1).val / 768 := ⟨⟨(i 0).val / 1024 * 4 + (i 1).val / 768, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 768 ≤ (i 1).val ∧ (i 1).val < win0_2.index t (1 : Fin 2) * 768 + 768; omega

/-- THE ARRAY the first region leaves: the whole product of the two arrays it was entered with. -/
theorem final (V : (c : Dev nD) → (b : Ref sig .tc) → Buf (Elt Ideal) ((c : Thread nD τ).loc b)) (c : Dev nD) :
    (R0.dat (F := Ideal) V c).arrAt 2 cfg0.N = G (V c main_v2) (V c main_v3) :=
  (R0.dat (F := Ideal) V c).arrAt_eq_of_cover 2 (G (V c main_v2) (V c main_v3)) (fun t _ => flushed_eq V c t) cover

end Cert.KernelIdeal.R0V

end
-- ==== Proof.KI.HostStages.lean ====
/-
  What the host operations of the fused attention program put in the buffers the two kernel regions read, index by
  index, at the ideal instance (floats are extended reals, conversions between formats the identity): the
  activations reshaped to rows, the three weight matrices joined side by side, the first region's result reshaped
  back to batches, and the output weights.
-/
import proofs.«133693_j50972671869478_2_alg».proof.Proof.Gen.KernelIdeal.Regions
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.Host

open Cert.KernelIdeal Cert.KernelIdeal.Gen
open Idealize.ShloMosaic Idealize.ShloMosaic.TcCoe Idealize.SL.Sem
open Idealize.ShloMosaic.ValueIdx

variable (W : Valuation τ sig (Elt Ideal))
variable (m : (ℓ : Loc nD τ sig) → Buf (Elt Ideal) ℓ) (outs : Gen.Outs (F := Ideal))

/-! ## The second stretch (after the first region), from any contents `W` -/

/-- The output weights' converted copy is the output weights (the conversion is the identity on extended reals). -/
theorem after1_v6 :
    (StableHlo.after (Gen.hostOps1 (F := Ideal)) W main_v6 : S1024x1024.Idx → EReal) = (W main_arg4 : S1024x1024.Idx → EReal) := by
  dsimp only [Gen.hostOps1]; after_results; rfl

/-- The first region's result reshaped back to batches: entry (b, r, s) of the [4, 2048, 3072] array is entry
    (b * 2048 + r, s) of the [8192, 3072] one. -/
theorem after1_v5_eq :
    (StableHlo.after (Gen.hostOps1 (F := Ideal)) W main_v5 : S4x2048x3072.Idx → EReal) = fun i => (W main_v4 : S8192x3072.Idx → EReal)
      (ix2 (⟨(i 0).val * 2048 + (i 1).val, by have h0 : (i 0).val < 4 := (i 0).isLt; have h1 : (i 1).val < 2048 := (i 1).isLt; omega⟩ : Fin 8192)
        (⟨(i 2).val, (i 2).isLt⟩ : Fin 3072)) := by
  have e : (StableHlo.after (Gen.hostOps1 (F := Ideal)) W main_v5 : S4x2048x3072.Idx → EReal) = shapeCast S4x2048x3072 (W main_v4 : S8192x3072.Idx → EReal) shapeCasts_S8192x3072_S4x2048x3072 := by
    dsimp only [Gen.hostOps1]; after_results; rfl
  rw [e]; funext i
  refine shapeCast_apply _ _ i _ ?_
  refine (Shape.rowMajor_val_two (d := ![8192, 3072]) _).trans ?_
  exact (Shape.rowMajor_val_three (d := ![4, 2048, 3072]) i).symm

/-- The same at coordinates. -/
theorem after1_v5_apply (b : Fin 4) (r : Fin 2048) (s : Fin 3072) :
    (StableHlo.after (Gen.hostOps1 (F := Ideal)) W main_v5 : S4x2048x3072.Idx → EReal) (ix3 b r s) = (W main_v4 : S8192x3072.Idx → EReal)
      (ix2 (⟨b.val * 2048 + r.val, by have := b.isLt; have := r.isLt; omega⟩ : Fin 8192) s) := by
  rw [after1_v5_eq]; exact rfl

/-! ## The first stretch (before the first region), from any contents `W` -/

/-- The activations reshaped to rows: row `r` of the [8192, 1024] array is row `r % 2048` of batch `r / 2048` of the
    [4, 2048, 1024] array. -/
theorem after0_v2_eq :
    (StableHlo.after (Gen.hostOps0 (F := Ideal)) W main_v2 : S8192x1024.Idx → EReal) = fun i => (W main_arg0 : S4x2048x1024.Idx → EReal)
      (ix3 (⟨(i 0).val / 2048, by have := idx2_lt0 i; omega⟩ : Fin 4) (⟨(i 0).val % 2048, Nat.mod_lt _ (by decide)⟩ : Fin 2048) (⟨(i 1).val, idx2_lt1 i⟩ : Fin 1024)) := by
  have e : (StableHlo.after (Gen.hostOps0 (F := Ideal)) W main_v2 : S8192x1024.Idx → EReal) = shapeCast S8192x1024 (W main_arg0 : S4x2048x1024.Idx → EReal) shapeCasts_S4x2048x1024_S8192x1024 := by
    dsimp only [Gen.hostOps0]; after_results; rfl
  rw [e]; funext i
  refine shapeCast_apply _ _ i _ ?_
  refine (Shape.rowMajor_val_three (d := ![4, 2048, 1024]) _).trans ?_
  refine Eq.trans ?_ (Shape.rowMajor_val_two (d := ![8192, 1024]) i).symm
  show ((i 0).val / 2048 * 2048 + (i 0).val % 2048) * 1024 + (i 1).val = (i 0).val * 1024 + (i 1).val
  omega

/-- The same at coordinates. -/
theorem after0_v2_apply (r : Fin 8192) (k : Fin 1024) :
    (StableHlo.after (Gen.hostOps0 (F := Ideal)) W main_v2 : S8192x1024.Idx → EReal) (ix2 r k) = (W main_arg0 : S4x2048x1024.Idx → EReal)
      (ix3 (⟨r.val / 2048, by have := r.isLt; omega⟩ : Fin 4) (⟨r.val % 2048, Nat.mod_lt _ (by decide)⟩ : Fin 2048) k) := by
  rw [after0_v2_eq]

/-- The weights joined side by side (the conversion is the identity on extended reals). -/
theorem after0_v3_concat :
    (StableHlo.after (Gen.hostOps0 (F := Ideal)) W main_v3 : S1024x3072.Idx → EReal) = concatenate S1024x3072 1
      [⟨S1024x1024, (W main_arg1 : S1024x1024.Idx → EReal)⟩,
        ⟨S1024x1024, (W main_arg2 : S1024x1024.Idx → EReal)⟩,
        ⟨S1024x1024, (W main_arg3 : S1024x1024.Idx → EReal)⟩]
      concatenates_S1024x1024_S1024x1024_S1024x1024_S1024x3072_d1 := by
  dsimp only [Gen.hostOps0]; after_results; rfl

/-- Columns 0 … 1023 are the first matrix, -/
theorem after0_v3_first (i : S1024x3072.Idx) (y : S1024x1024.Idx) (h0 : (y 0).val = (i 0).val) (h1 : (y 1).val = (i 1).val) :
    (StableHlo.after (Gen.hostOps0 (F := Ideal)) W main_v3 : S1024x3072.Idx → EReal) i = (W main_arg1 : S1024x1024.Idx → EReal) y := by
  rw [after0_v3_concat]
  refine concatenate_apply_piece (1 : Fin 2) _ _ i 0 ?_ S1024x1024 _ ?_ rfl 0 ?_ y (fun b hb => ?_) ?_
  · exact (by decide : (0 : Nat) < 3)
  · rfl
  · rfl
  · match b with
    | ⟨0, _⟩ => exact h0
    | ⟨1, _⟩ => exact absurd rfl hb
  · show 0 + (y 1).val = (i 1).val; omega
/-- columns 1024 … 2047 the second, -/
theorem after0_v3_second (i : S1024x3072.Idx) (y : S1024x1024.Idx) (h0 : (y 0).val = (i 0).val) (h1 : 1024 + (y 1).val = (i 1).val) :
    (StableHlo.after (Gen.hostOps0 (F := Ideal)) W main_v3 : S1024x3072.Idx → EReal) i = (W main_arg2 : S1024x1024.Idx → EReal) y := by
  rw [after0_v3_concat]
  refine concatenate_apply_piece (1 : Fin 2) _ _ i 1 ?_ S1024x1024 _ ?_ rfl 1024 ?_ y (fun b hb => ?_) ?_
  · exact (by decide : (1 : Nat) < 3)
  · rfl
  · rfl
  · match b with
    | ⟨0, _⟩ => exact h0
    | ⟨1, _⟩ => exact absurd rfl hb
  · exact h1
/-- columns 2048 … 3071 the third. -/
theorem after0_v3_third (i : S1024x3072.Idx) (y : S1024x1024.Idx) (h0 : (y 0).val = (i 0).val) (h1 : 2048 + (y 1).val = (i 1).val) :
    (StableHlo.after (Gen.hostOps0 (F := Ideal)) W main_v3 : S1024x3072.Idx → EReal) i = (W main_arg3 : S1024x1024.Idx → EReal) y := by
  rw [after0_v3_concat]
  refine concatenate_apply_piece (1 : Fin 2) _ _ i 2 ?_ S1024x1024 _ ?_ rfl 2048 ?_ y (fun b hb => ?_) ?_
  · exact (by decide : (2 : Nat) < 3)
  · rfl
  · rfl
  · match b with
    | ⟨0, _⟩ => exact h0
    | ⟨1, _⟩ => exact absurd rfl hb
  · exact h1

/-- The three ranges at coordinates. -/
theorem after0_v3_apply_first (k : Fin 1024) (s : Fin 1024) :
    (StableHlo.after (Gen.hostOps0 (F := Ideal)) W main_v3 : S1024x3072.Idx → EReal) (ix2 k (⟨s.val, by have := s.isLt; omega⟩ : Fin 3072))
      = (W main_arg1 : S1024x1024.Idx → EReal) (ix2 k s) :=
  after0_v3_first W _ (ix2 k s) rfl rfl
theorem after0_v3_apply_second (k : Fin 1024) (s : Fin 1024) :
    (StableHlo.after (Gen.hostOps0 (F := Ideal)) W main_v3 : S1024x3072.Idx → EReal) (ix2 k (⟨1024 + s.val, by have := s.isLt; omega⟩ : Fin 3072))
      = (W main_arg2 : S1024x1024.Idx → EReal) (ix2 k s) :=
  after0_v3_second W _ (ix2 k s) rfl rfl
theorem after0_v3_apply_third (k : Fin 1024) (s : Fin 1024) :
    (StableHlo.after (Gen.hostOps0 (F := Ideal)) W main_v3 : S1024x3072.Idx → EReal) (ix2 k (⟨2048 + s.val, by have := s.isLt; omega⟩ : Fin 3072))
      = (W main_arg3 : S1024x1024.Idx → EReal) (ix2 k s) :=
  after0_v3_third W _ (ix2 k s) rfl rfl

/-- The joined weights as one function of the index. -/
theorem after0_v3_eq :
    (StableHlo.after (Gen.hostOps0 (F := Ideal)) W main_v3 : S1024x3072.Idx → EReal) = fun i =>
      if h : (i 1).val < 1024 then (W main_arg1 : S1024x1024.Idx → EReal) (ix2 (⟨(i 0).val, idx2_lt0 i⟩ : Fin 1024) (⟨(i 1).val, h⟩ : Fin 1024))
      else if h' : (i 1).val < 2048 then (W main_arg2 : S1024x1024.Idx → EReal) (ix2 (⟨(i 0).val, idx2_lt0 i⟩ : Fin 1024) (⟨(i 1).val - 1024, by omega⟩ : Fin 1024))
      else (W main_arg3 : S1024x1024.Idx → EReal) (ix2 (⟨(i 0).val, idx2_lt0 i⟩ : Fin 1024) (⟨(i 1).val - 2048, by have := idx2_lt1 i; omega⟩ : Fin 1024)) := by
  funext i
  by_cases h : (i 1).val < 1024
  · rw [dif_pos h]; exact after0_v3_first W i _ rfl rfl
  · rw [dif_neg h]
    by_cases h' : (i 1).val < 2048
    · rw [dif_pos h']; exact after0_v3_second W i _ rfl (by show 1024 + ((i 1).val - 1024) = (i 1).val; omega)
    · rw [dif_neg h']; exact after0_v3_third W i _ rfl (by show 2048 + ((i 1).val - 2048) = (i 1).val; omega)

/-! ## The same for the frame's own contents `Gen.V1`, `Gen.V3` over the launch memory -/

theorem v6_eq (c : Dev nD) :
    (Gen.V3 m outs c main_v6 : S1024x1024.Idx → EReal) = (m ((c : Thread nD τ).loc main_arg4) : S1024x1024.Idx → EReal) := by
  refine (after1_v6 (Gen.V2 m outs c)).trans ?_
  rw [Gen.V2_of m outs c main_arg4 (by decide), Gen.V1_of m c main_arg4 (by decide)]

theorem v2_eq (c : Dev nD) :
    (Gen.V1 m c main_v2 : S8192x1024.Idx → EReal) = fun i => (m ((c : Thread nD τ).loc main_arg0) : S4x2048x1024.Idx → EReal)
      (ix3 (⟨(i 0).val / 2048, by have := idx2_lt0 i; omega⟩ : Fin 4) (⟨(i 0).val % 2048, Nat.mod_lt _ (by decide)⟩ : Fin 2048) (⟨(i 1).val, idx2_lt1 i⟩ : Fin 1024)) :=
  after0_v2_eq (Gen.V0 m c)

theorem v2_apply (c : Dev nD) (r : Fin 8192) (k : Fin 1024) :
    (Gen.V1 m c main_v2 : S8192x1024.Idx → EReal) (ix2 r k) = (m ((c : Thread nD τ).loc main_arg0) : S4x2048x1024.Idx → EReal)
      (ix3 (⟨r.val / 2048, by have := r.isLt; omega⟩ : Fin 4) (⟨r.val % 2048, Nat.mod_lt _ (by decide)⟩ : Fin 2048) k) :=
  after0_v2_apply (Gen.V0 m c) r k

theorem v5_eq (c : Dev nD) :
    (Gen.V3 m outs c main_v5 : S4x2048x3072.Idx → EReal) = fun i => (outs 2 main_v4 c : S8192x3072.Idx → EReal)
      (ix2 (⟨(i 0).val * 2048 + (i 1).val, by have h0 : (i 0).val < 4 := (i 0).isLt; have h1 : (i 1).val < 2048 := (i 1).isLt; omega⟩ : Fin 8192)
        (⟨(i 2).val, (i 2).isLt⟩ : Fin 3072)) := by
  have h4 : Gen.V2 m outs c main_v4 = outs 2 main_v4 c := Function.update_self _ _ _
  refine (after1_v5_eq (Gen.V2 m outs c)).trans ?_
  rw [h4]

theorem v5_apply (c : Dev nD) (b : Fin 4) (r : Fin 2048) (s : Fin 3072) :
    (Gen.V3 m outs c main_v5 : S4x2048x3072.Idx → EReal) (ix3 b r s) = (outs 2 main_v4 c : S8192x3072.Idx → EReal)
      (ix2 (⟨b.val * 2048 + r.val, by have := b.isLt; have := r.isLt; omega⟩ : Fin 8192) s) := by
  rw [v5_eq]; exact rfl

theorem v3_first (c : Dev nD) (i : S1024x3072.Idx) (y : S1024x1024.Idx) (h0 : (y 0).val = (i 0).val) (h1 : (y 1).val = (i 1).val) :
    (Gen.V1 m c main_v3 : S1024x3072.Idx → EReal) i = (m ((c : Thread nD τ).loc main_arg1) : S1024x1024.Idx → EReal) y :=
  after0_v3_first (Gen.V0 m c) i y h0 h1
theorem v3_second (c : Dev nD) (i : S1024x3072.Idx) (y : S1024x1024.Idx) (h0 : (y 0).val = (i 0).val) (h1 : 1024 + (y 1).val = (i 1).val) :
    (Gen.V1 m c main_v3 : S1024x3072.Idx → EReal) i = (m ((c : Thread nD τ).loc main_arg2) : S1024x1024.Idx → EReal) y :=
  after0_v3_second (Gen.V0 m c) i y h0 h1
theorem v3_third (c : Dev nD) (i : S1024x3072.Idx) (y : S1024x1024.Idx) (h0 : (y 0).val = (i 0).val) (h1 : 2048 + (y 1).val = (i 1).val) :
    (Gen.V1 m c main_v3 : S1024x3072.Idx → EReal) i = (m ((c : Thread nD τ).loc main_arg3) : S1024x1024.Idx → EReal) y :=
  after0_v3_third (Gen.V0 m c) i y h0 h1

theorem v3_apply_first (c : Dev nD) (k : Fin 1024) (s : Fin 1024) :
    (Gen.V1 m c main_v3 : S1024x3072.Idx → EReal) (ix2 k (⟨s.val, by have := s.isLt; omega⟩ : Fin 3072))
      = (m ((c : Thread nD τ).loc main_arg1) : S1024x1024.Idx → EReal) (ix2 k s) :=
  after0_v3_apply_first (Gen.V0 m c) k s
theorem v3_apply_second (c : Dev nD) (k : Fin 1024) (s : Fin 1024) :
    (Gen.V1 m c main_v3 : S1024x3072.Idx → EReal) (ix2 k (⟨1024 + s.val, by have := s.isLt; omega⟩ : Fin 3072))
      = (m ((c : Thread nD τ).loc main_arg2) : S1024x1024.Idx → EReal) (ix2 k s) :=
  after0_v3_apply_second (Gen.V0 m c) k s
theorem v3_apply_third (c : Dev nD) (k : Fin 1024) (s : Fin 1024) :
    (Gen.V1 m c main_v3 : S1024x3072.Idx → EReal) (ix2 k (⟨2048 + s.val, by have := s.isLt; omega⟩ : Fin 3072))
      = (m ((c : Thread nD τ).loc main_arg3) : S1024x1024.Idx → EReal) (ix2 k s) :=
  after0_v3_apply_third (Gen.V0 m c) k s

end Cert.KernelIdeal.Host

end
-- ==== Proof.Spec.lean ====
/-
  The specification: single-head scaled dot-product self-attention with an output projection, on the reals.

  For activations `x` [4, 2048, 1024] and weights `Wq`, `Wk`, `Wv`, `Wo` [1024, 1024]: queries, keys and values
  are the rows of `x` projected by the three weight matrices; the logit of query `s` against key `j` (of one batch
  entry) is their inner product scaled by 1/32 = 1024^(-1/2); the attention row is the softmax of the logits over the
  keys (written here without a shift: the softmax does not depend on one) weighing the values; the result is that
  row projected by `Wo`. Both programs are shown to compute `out`, entry by entry, on finite inputs.
-/
import Idealize.ShloMosaic.Lib.ValueIdx
import Mathlib.Analysis.SpecialFunctions.Exp

noncomputable section

namespace Cert.Spec

open Idealize.ShloMosaic Idealize.ShloMosaic.ValueIdx

/-- Real activations [4, 2048, 1024]. -/
abbrev Act : Type := (⟨3, ![4, 2048, 1024]⟩ : Shape).Idx → ℝ
/-- A real weight matrix [1024, 1024]. -/
abbrev Mat : Type := (⟨2, ![1024, 1024]⟩ : Shape).Idx → ℝ

/-- Row `s` of batch entry `b` projected onto column `e` of `W`. -/
def proj (x : Act) (W : Mat) (b : Fin 4) (s : Fin 2048) (e : Fin 1024) : ℝ :=
  ∑ k : Fin 1024, x (ix3 b s k) * W (ix2 k e)

/-- The scaled logit of query `s` against key `j`. -/
def logit (x : Act) (Wq Wk : Mat) (b : Fin 4) (s j : Fin 2048) : ℝ :=
  (∑ d : Fin 1024, proj x Wq b s d * proj x Wk b j d) * (1 / 32)

/-- The attention row of query `s`: the softmax of its logits weighing the values, at value column `e`. -/
def attn (x : Act) (Wq Wk Wv : Mat) (b : Fin 4) (s : Fin 2048) (e : Fin 1024) : ℝ :=
  ∑ j : Fin 2048, Real.exp (logit x Wq Wk b s j) / (∑ j' : Fin 2048, Real.exp (logit x Wq Wk b s j')) * proj x Wv b j e

/-- The result: the attention row projected by `Wo`, at output column `f`. -/
def out (x : Act) (Wq Wk Wv Wo : Mat) (b : Fin 4) (s : Fin 2048) (f : Fin 1024) : ℝ :=
  ∑ e : Fin 1024, attn x Wq Wk Wv b s e * Wo (ix2 e f)

end Cert.Spec

end
-- ==== Proof.LibOnlineSoftmax.lean ====
/-
  Online softmax on the extended reals, one query row and one output column at a time.

  A row of attention logits `s k` (finite reals) weighs values `v k`. The textbook result is
  `∑ k, (exp (s k - M) / ∑ j, exp (s j - M)) * v k` for any shift `M` (the weights do not depend on it).
  A blocked kernel never forms the whole row: it carries a shift `m`, a denominator
  `l = ∑ k ∈ seen, exp (s k - m)` and a numerator `a = ∑ k ∈ seen, exp (s k - m) * v k`, and on a new block
  moves to a new shift `μ` by `l' = exp (m - μ) * l + ∑ k ∈ block, exp (s k - μ)` (the same for `a`), starting
  from `m = -∞`, `l = 0`, `a = 0`. Which shift is carried is immaterial for the value: every finite `μ` gives
  the same quotient `a / l`. The laws below say so, first on the reals, then for the extended-real operations
  (`Ideal.exp`, `Ideal.div`, EReal's `+`, `*`, `-`) on finite arguments.
-/
import Idealize.ShloMosaic.PureOps.Ideal
import Mathlib.Analysis.SpecialFunctions.Exp

noncomputable section

namespace OnlineSoftmax

open Idealize.ShloMosaic

/-! ## On the reals -/

section Real

variable {K : Type*} [Fintype K]

/-- Moving a block's weighted sum from the shift `m` to the shift `μ` is one factor `exp (m - μ)`. -/
theorem rescale (m μ : ℝ) (s w : K → ℝ) :
    Real.exp (m - μ) * ∑ k, Real.exp (s k - m) * w k = ∑ k, Real.exp (s k - μ) * w k := by
  rw [Finset.mul_sum]
  refine Finset.sum_congr rfl fun k _ => ?_
  rw [← mul_assoc, ← Real.exp_add]
  congr 2; ring

/-- The same without weights. -/
theorem rescale_one (m μ : ℝ) (s : K → ℝ) :
    Real.exp (m - μ) * ∑ k, Real.exp (s k - m) = ∑ k, Real.exp (s k - μ) := by
  have := rescale m μ s (fun _ => (1 : ℝ))
  simpa using this

/-- A sum of exponentials over a nonempty index type is positive. -/
theorem sum_exp_pos [Nonempty K] (μ : ℝ) (s : K → ℝ) : 0 < ∑ k, Real.exp (s k - μ) :=
  Finset.sum_pos (fun k _ => Real.exp_pos _) Finset.univ_nonempty

/-- The softmax-weighted sum does not depend on the shift: the quotient of the carried numerator by the carried
    denominator at any shift `μ` is the textbook weighted sum at any shift `M`. -/
theorem quotient_eq [Nonempty K] (μ M : ℝ) (s v : K → ℝ) :
    (∑ k, Real.exp (s k - μ) * v k) / (∑ j, Real.exp (s j - μ))
      = ∑ k, Real.exp (s k - M) / (∑ j, Real.exp (s j - M)) * v k := by
  have hμ : (∑ j, Real.exp (s j - μ)) ≠ 0 := (sum_exp_pos μ s).ne'
  have hM : (∑ j, Real.exp (s j - M)) ≠ 0 := (sum_exp_pos M s).ne'
  rw [← rescale M μ s v, ← rescale_one M μ s, mul_div_mul_left _ _ (Real.exp_pos _).ne', Finset.sum_div]
  refine Finset.sum_congr rfl fun k _ => ?_
  ring

end Real

/-! ## On the extended reals -/

section EReal

variable {K : Type*} [Fintype K]

/-- The coercion of a finite sum of reals is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- `exp` of a difference of finite values. -/
theorem exp_sub_coe (x y : ℝ) : Ideal.exp ((x : EReal) - (y : EReal)) = ((Real.exp (x - y) : ℝ) : EReal) := by
  rw [← EReal.coe_sub]; rfl

/-- `exp (-∞ - y) = 0` for finite `y`: the factor the first block rescales the empty state by. -/
theorem exp_bot_sub_coe (y : ℝ) : Ideal.exp ((⊥ : EReal) - (y : EReal)) = 0 := by
  rw [EReal.bot_sub]; rfl

/-- The first block: from the empty state (`-∞`, `0`) the carried sum is the block's own. -/
theorem first_block (y : ℝ) (X : EReal) : Ideal.exp ((⊥ : EReal) - (y : EReal)) * 0 + X = X := by
  rw [exp_bot_sub_coe, mul_zero, zero_add]

/-- A block's sum of exponentials, on the extended reals, is the coercion of the real sum. -/
theorem sum_exp_coe (μ : ℝ) (s : K → ℝ) :
    ∑ k, Ideal.exp ((s k : EReal) - (μ : EReal)) = ((∑ k, Real.exp (s k - μ) : ℝ) : EReal) := by
  rw [coe_sum]; exact Finset.sum_congr rfl fun k _ => exp_sub_coe _ _

/-- A block's weighted sum of exponentials is the coercion of the real sum. -/
theorem sum_exp_mul_coe (μ : ℝ) (s v : K → ℝ) :
    ∑ k, Ideal.exp ((s k : EReal) - (μ : EReal)) * (v k : EReal) = ((∑ k, Real.exp (s k - μ) * v k : ℝ) : EReal) := by
  rw [coe_sum]; exact Finset.sum_congr rfl fun k _ => by rw [exp_sub_coe, ← EReal.coe_mul]

/-- One step of the recurrence for a finite carried state: rescaling the carried sum `L` (at shift `m`) to the
    shift `μ` and adding a finite block sum `B` stays finite. -/
theorem step_coe (m μ L B : ℝ) :
    Ideal.exp ((m : EReal) - (μ : EReal)) * (L : EReal) + (B : EReal) = ((Real.exp (m - μ) * L + B : ℝ) : EReal) := by
  rw [exp_sub_coe, ← EReal.coe_mul, ← EReal.coe_add]

/-- The final quotient of finite carried values with a nonzero denominator. -/
theorem div_coe_coe (A L : ℝ) (hL : L ≠ 0) : Ideal.div (A : EReal) (L : EReal) = ((A / L : ℝ) : EReal) := by
  rw [Ideal.div_coe hL, ← EReal.coe_mul]; congr 1; ring

/-- The maximum of two finite values is finite. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum with `-∞` is the other value. -/
theorem max_bot_coe (y : ℝ) : max (⊥ : EReal) (y : EReal) = (y : EReal) := max_eq_right bot_le

end EReal

/-! ## Two blocks against the whole row -/

section TwoBlocks

variable {K₁ K₂ : Type*} [Fintype K₁] [Fintype K₂] [Nonempty K₁]

/-- TWO BLOCKS. A row split into a first block (`s₁`, `v₁`) and a second (`s₂`, `v₂`), the first carried at any
    finite shift `m` from the empty state, the second taken at any finite shift `μ`: the quotient of the carried
    numerator by the carried denominator is the textbook softmax-weighted sum of the whole row at any shift `M`,
    all on the extended reals. -/
theorem two_blocks (m μ M : ℝ) (s₁ v₁ : K₁ → ℝ) (s₂ v₂ : K₂ → ℝ) :
    Ideal.div
        (Ideal.exp ((m : EReal) - (μ : EReal))
            * (Ideal.exp ((⊥ : EReal) - (m : EReal)) * 0 + ∑ k, Ideal.exp ((s₁ k : EReal) - (m : EReal)) * (v₁ k : EReal))
          + ∑ k, Ideal.exp ((s₂ k : EReal) - (μ : EReal)) * (v₂ k : EReal))
        (Ideal.exp ((m : EReal) - (μ : EReal))
            * (Ideal.exp ((⊥ : EReal) - (m : EReal)) * 0 + ∑ k, Ideal.exp ((s₁ k : EReal) - (m : EReal)))
          + ∑ k, Ideal.exp ((s₂ k : EReal) - (μ : EReal)))
      = (((∑ k, Real.exp (s₁ k - M) / ((∑ j, Real.exp (s₁ j - M)) + ∑ j, Real.exp (s₂ j - M)) * v₁ k)
          + ∑ k, Real.exp (s₂ k - M) / ((∑ j, Real.exp (s₁ j - M)) + ∑ j, Real.exp (s₂ j - M)) * v₂ k : ℝ) : EReal) := by
  rw [first_block, first_block, sum_exp_mul_coe, sum_exp_coe, sum_exp_mul_coe, sum_exp_coe, step_coe, step_coe,
    rescale, rescale_one]
  have hpos : 0 < (∑ k, Real.exp (s₁ k - μ)) + ∑ k, Real.exp (s₂ k - μ) :=
    add_pos_of_pos_of_nonneg (sum_exp_pos μ s₁) (Finset.sum_nonneg fun k _ => (Real.exp_pos _).le)
  rw [div_coe_coe _ _ hpos.ne']
  congr 1
  -- the whole row as one sum over the disjoint union of the two blocks
  have key := quotient_eq (K := K₁ ⊕ K₂) μ M (Sum.elim s₁ s₂) (Sum.elim v₁ v₂)
  simpa [Fintype.sum_sum_type] using key

end TwoBlocks

end OnlineSoftmax

end
-- ==== Proof.KI.FusedValue.lean ====
/-
  The fused query-key-value array the attention region reads, on finite inputs. The projection region leaves the
  product of the re-laid activations with the joined weights; re-laid back to [4, 2048, 3072], its entry
  (b, s, c) is row `s` of batch entry `b` projected onto column `c` of the joined weights — onto the query
  weights for `c < 1024`, the key weights for `1024 ≤ c < 2048`, the value weights beyond. The output weights
  reach the attention region unchanged.
-/
import proofs.«133693_j50972671869478_2_alg».proof.Proof.KI.RunMain
import proofs.«133693_j50972671869478_2_alg».proof.Proof.KI.Region0Value
import proofs.«133693_j50972671869478_2_alg».proof.Proof.KI.HostStages
import proofs.«133693_j50972671869478_2_alg».proof.Proof.Spec
import proofs.«133693_j50972671869478_2_alg».proof.Proof.LibOnlineSoftmax

noncomputable section

open scoped BigOperators

namespace Cert.KernelIdeal.FV

open Cert.KernelIdeal Cert.KernelIdeal.Gen
open Idealize.ShloMosaic Idealize.ShloMosaic.TcCoe Idealize.SL.Sem
open Idealize.ShloMosaic.ValueIdx

/-- A buffer's contents as a function from its index to the extended reals. -/
abbrev fn {S : Shape} (f : S.Idx → EReal) : S.Idx → EReal := f

variable (m : (ℓ : Loc nD τ sig) → Buf (Elt Ideal) ℓ) (ρ : Dev nD → PrngReg) (c : Dev nD)

/-- The fused array at (b, s, cc): the sum over `k` of the re-laid activations times the joined weights. -/
theorem fused_apply (b : Fin 4) (s : Fin 2048) (cc : Fin 3072) :
    fn (S := S4x2048x3072) (Run.E3 m ρ c main_v5) (ix3 b s cc)
      = ∑ k : Fin 1024, fn (S := S8192x1024) (Run.E1 m ρ c main_v2) (ix2 (⟨b.val * 2048 + s.val, by have := b.isLt; have := s.isLt; omega⟩ : Fin 8192) k)
          * fn (S := S1024x3072) (Run.E1 m ρ c main_v3) (ix2 k cc) := by
  refine (Host.after1_v5_apply (Run.W2 m ρ c) b s cc).trans ?_
  have h4 : fn (S := S8192x3072) (Run.W2 m ρ c main_v4) = R0V.G (Run.E1 m ρ c main_v2) (Run.E1 m ρ c main_v3) :=
    (Run.W2_main_v4 m ρ c).trans (R0V.final (Run.E1 m ρ) c)
  exact congrFun h4 _

variable (x : Cert.Spec.Act) (Wq Wk Wv Wo : Cert.Spec.Mat)

/-- The re-laid activations, on finite inputs. -/
theorem act_apply (h0 : fn (S := S4x2048x1024) (m ((c : Thread nD τ).loc main_arg0)) = fun i => ((x i : ℝ) : EReal))
    (b : Fin 4) (s : Fin 2048) (k : Fin 1024) :
    fn (S := S8192x1024) (Run.E1 m ρ c main_v2) (ix2 (⟨b.val * 2048 + s.val, by have := b.isLt; have := s.isLt; omega⟩ : Fin 8192) k)
      = ((x (ix3 b s k) : ℝ) : EReal) := by
  refine (Host.after0_v2_apply (Run.W0 m ρ c) _ k).trans ?_
  show fn (S := S4x2048x1024) (m ((c : Thread nD τ).loc main_arg0)) _ = _
  rw [h0]
  have e1 : (b.val * 2048 + s.val) / 2048 = b.val := by have := s.isLt; omega
  have e2 : (b.val * 2048 + s.val) % 2048 = s.val := by have := s.isLt; omega
  exact congrArg (fun i => ((x i : ℝ) : EReal)) (funext fun a => Fin.ext (by
    match a with
    | ⟨0, _⟩ => exact e1
    | ⟨1, _⟩ => exact e2
    | ⟨2, _⟩ => rfl))

/-- The joined weights' three column ranges, on finite inputs. -/
theorem wq_apply (W : Cert.Spec.Mat) (h : fn (S := S1024x1024) (m ((c : Thread nD τ).loc main_arg1)) = fun i => ((W i : ℝ) : EReal)) (k d : Fin 1024) :
    fn (S := S1024x3072) (Run.E1 m ρ c main_v3) (ix2 k (⟨d.val, by have := d.isLt; omega⟩ : Fin 3072)) = ((W (ix2 k d) : ℝ) : EReal) := by
  refine (Host.after0_v3_apply_first (Run.W0 m ρ c) k d).trans ?_
  show fn (S := S1024x1024) (m ((c : Thread nD τ).loc main_arg1)) _ = _
  rw [h]
theorem wk_apply (W : Cert.Spec.Mat) (h : fn (S := S1024x1024) (m ((c : Thread nD τ).loc main_arg2)) = fun i => ((W i : ℝ) : EReal)) (k d : Fin 1024) :
    fn (S := S1024x3072) (Run.E1 m ρ c main_v3) (ix2 k (⟨1024 + d.val, by have := d.isLt; omega⟩ : Fin 3072)) = ((W (ix2 k d) : ℝ) : EReal) := by
  refine (Host.after0_v3_apply_second (Run.W0 m ρ c) k d).trans ?_
  show fn (S := S1024x1024) (m ((c : Thread nD τ).loc main_arg2)) _ = _
  rw [h]
theorem wv_apply (W : Cert.Spec.Mat) (h : fn (S := S1024x1024) (m ((c : Thread nD τ).loc main_arg3)) = fun i => ((W i : ℝ) : EReal)) (k d : Fin 1024) :
    fn (S := S1024x3072) (Run.E1 m ρ c main_v3) (ix2 k (⟨2048 + d.val, by have := d.isLt; omega⟩ : Fin 3072)) = ((W (ix2 k d) : ℝ) : EReal) := by
  refine (Host.after0_v3_apply_third (Run.W0 m ρ c) k d).trans ?_
  show fn (S := S1024x1024) (m ((c : Thread nD τ).loc main_arg3)) _ = _
  rw [h]

variable (h0 : fn (S := S4x2048x1024) (m ((c : Thread nD τ).loc main_arg0)) = fun i => ((x i : ℝ) : EReal))
  (hWq : fn (S := S1024x1024) (m ((c : Thread nD τ).loc main_arg1)) = fun i => ((Wq i : ℝ) : EReal))
  (hWk : fn (S := S1024x1024) (m ((c : Thread nD τ).loc main_arg2)) = fun i => ((Wk i : ℝ) : EReal))
  (hWv : fn (S := S1024x1024) (m ((c : Thread nD τ).loc main_arg3)) = fun i => ((Wv i : ℝ) : EReal))
  (hWo : fn (S := S1024x1024) (m ((c : Thread nD τ).loc main_arg4)) = fun i => ((Wo i : ℝ) : EReal))

include h0 hWq in
/-- The query columns of the fused array are the rows projected by the query weights. -/
theorem fused_q (b : Fin 4) (s : Fin 2048) (d : Fin 1024) :
    fn (S := S4x2048x3072) (Run.E3 m ρ c main_v5) (ix3 b s (⟨d.val, by have := d.isLt; omega⟩ : Fin 3072)) = ((Cert.Spec.proj x Wq b s d : ℝ) : EReal) := by
  refine (fused_apply m ρ c b s _).trans ?_
  unfold Cert.Spec.proj
  rw [OnlineSoftmax.coe_sum]
  refine Finset.sum_congr rfl fun k _ => ?_
  rw [act_apply m ρ c x h0 b s k, wq_apply m ρ c Wq hWq k d, EReal.coe_mul]

include h0 hWk in
/-- The key columns. -/
theorem fused_k (b : Fin 4) (s : Fin 2048) (d : Fin 1024) :
    fn (S := S4x2048x3072) (Run.E3 m ρ c main_v5) (ix3 b s (⟨1024 + d.val, by have := d.isLt; omega⟩ : Fin 3072)) = ((Cert.Spec.proj x Wk b s d : ℝ) : EReal) := by
  refine (fused_apply m ρ c b s _).trans ?_
  unfold Cert.Spec.proj
  rw [OnlineSoftmax.coe_sum]
  refine Finset.sum_congr rfl fun k _ => ?_
  rw [act_apply m ρ c x h0 b s k, wk_apply m ρ c Wk hWk k d, EReal.coe_mul]

include h0 hWv in
/-- The value columns. -/
theorem fused_v (b : Fin 4) (s : Fin 2048) (d : Fin 1024) :
    fn (S := S4x2048x3072) (Run.E3 m ρ c main_v5) (ix3 b s (⟨2048 + d.val, by have := d.isLt; omega⟩ : Fin 3072)) = ((Cert.Spec.proj x Wv b s d : ℝ) : EReal) := by
  refine (fused_apply m ρ c b s _).trans ?_
  unfold Cert.Spec.proj
  rw [OnlineSoftmax.coe_sum]
  refine Finset.sum_congr rfl fun k _ => ?_
  rw [act_apply m ρ c x h0 b s k, wv_apply m ρ c Wv hWv k d, EReal.coe_mul]

include hWo in
/-- The output weights reach the attention region as launched. -/
theorem wo_eq : fn (S := S1024x1024) (Run.E3 m ρ c main_v6) = fun i => ((Wo i : ℝ) : EReal) := by
  refine (Host.after1_v6 (Run.W2 m ρ c)).trans ?_
  refine Eq.trans ?_ hWo
  show fn (S := S1024x1024) (Run.W2 m ρ c main_arg4) = _
  rw [Run.W2_of_ne' m ρ c main_arg4 (by decide)]
  exact StableHlo.after_of_writes_sub hostOps0 _ hostOps0_writes (by decide)

end Cert.KernelIdeal.FV

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibRowSoftmax.lean ====
/-
  A row-wise softmax on the vector unit, read at explicit coordinates of a `[B, n]` array.

  * the maximum over the lanes of row `p`, taken from the value the accumulator's word denotes, is the
    greatest of that value and the row's `n` entries;
  * the softmax as a kernel spells it with `keepdims` reductions — subtract the row's maximum (the
    maxima cast to a column and broadcast back along the lanes), exponentiate, divide by the row's sum of
    exponentials (cast and broadcast the same way) — holds at `(p, q)` the share
    `exp (s q - M) / ∑ k, exp (s k - M)` of row `p`, where `s` is the row and `M` its maximum.

  Statements about indices and extended reals only; nothing here mentions a program.
-/
import Idealize.ShloMosaic.PureOps.Ideal
import Idealize.ShloMosaic.PureOps.Ideal.Laws
import Idealize.ShloMosaic.Lib.ValueIdx
import Idealize.ShloMosaic.Lib.Pipeline.Value
import proofs.«133693_j50972671869478_2_alg».proof.Proof.LibRowLayout

noncomputable section

open scoped BigOperators

namespace Cert.RowSoftmax

open Idealize.ShloMosaic Idealize.ShloMosaic.ValueIdx Cert.RowLayout

/-- The greatest of `lo` and a row's entries. -/
def rowMax {n : Nat} (lo : EReal) (s : Fin n → EReal) : EReal := (Finset.univ : Finset (Fin n)).fold max lo s

/-- Entry `q`'s softmax share of its row: its exponential, shifted by the row's maximum, over the sum of
    the row's shifted exponentials. -/
def share {n : Nat} (lo : EReal) (s : Fin n → EReal) (q : Fin n) : EReal :=
  Ideal.div (Ideal.exp (s q - rowMax lo s)) (∑ k : Fin n, Ideal.exp (s k - rowMax lo s))

/-- The vector unit's maximum over the lanes is, in row `p`, the greatest of the accumulator's value and the
    row's `n` entries. -/
theorem laneMax_apply {B n : Nat} (v : FVec Ideal (⟨2, ![B, n]⟩ : Shape) .f32) (acc : BitVec 32)
    (h : Shape.Reduces (⟨2, ![B, n]⟩ : Shape) [(1 : Fin 2)] (⟨1, ![B]⟩ : Shape)) (hφ : FKind.Formats .f32)
    (hacc : acc = FKind.maximumf.neutral .f32 hφ) (p : Fin B) :
    multiReduction .maximumf [(1 : Fin 2)] (⟨1, ![B]⟩ : Shape) v acc h hφ hacc (ix1 p)
      = rowMax (Ideal.ofBits .f32 acc) (fun k : Fin n => v (ix2 p k)) := by
  refine (Ideal.multiReduction_maximumf_single v acc h hφ hacc (ix1 p)).trans ?_
  unfold rowMax
  refine Finset.fold_congr fun k _ => ?_
  exact congrArg v (funext fun a => Fin.ext (by match a with | ⟨0, _⟩ => rfl | ⟨1, _⟩ => rfl))

/-- THE ROW SOFTMAX with `keepdims` reductions: at `(p, q)` it is entry `q`'s share of row `p`. -/
theorem rowSoftmax_apply {B n : Nat} (S : FVec Ideal (⟨2, ![B, n]⟩ : Shape) .f32) (acc : BitVec 32)
    (hred : Shape.Reduces (⟨2, ![B, n]⟩ : Shape) [(1 : Fin 2)] (⟨1, ![B]⟩ : Shape))
    (hφM : FKind.Formats .f32) (haccM : acc = FKind.maximumf.neutral .f32 hφM)
    (hφA : FKind.Formats .f32) (haccA : (0x00000000#32 : BitVec 32) = FKind.add.neutral .f32 hφA)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf
        (exp (subf S (broadcastTo (⟨2, ![B, n]⟩ : Shape)
          (shapeCast (⟨2, ![B, 1]⟩ : Shape) (multiReduction .maximumf [(1 : Fin 2)] (⟨1, ![B]⟩ : Shape) S acc hred hφM haccM) hcast) hbc)))
        (broadcastTo (⟨2, ![B, n]⟩ : Shape)
          (shapeCast (⟨2, ![B, 1]⟩ : Shape)
            (multiReduction .add [(1 : Fin 2)] (⟨1, ![B]⟩ : Shape)
              (exp (subf S (broadcastTo (⟨2, ![B, n]⟩ : Shape)
                (shapeCast (⟨2, ![B, 1]⟩ : Shape) (multiReduction .maximumf [(1 : Fin 2)] (⟨1, ![B]⟩ : Shape) S acc hred hφM haccM) hcast) hbc)))
              0x00000000#32 hred hφA haccA) hcast) hbc) (ix2 p q)
      = share (Ideal.ofBits .f32 acc) (fun k : Fin n => S (ix2 p k)) q := by
  have hM : ∀ k : Fin n, broadcastTo (⟨2, ![B, n]⟩ : Shape)
        (shapeCast (⟨2, ![B, 1]⟩ : Shape) (multiReduction .maximumf [(1 : Fin 2)] (⟨1, ![B]⟩ : Shape) S acc hred hφM haccM) hcast) hbc (ix2 p k)
      = rowMax (Ideal.ofBits .f32 acc) (fun k : Fin n => S (ix2 p k)) := fun k =>
    (bcastCol_apply _ hbc p k).trans ((castCol_apply _ hcast p).trans (laneMax_apply S acc hred hφM haccM p))
  have hE : ∀ k : Fin n, (exp (subf S (broadcastTo (⟨2, ![B, n]⟩ : Shape)
        (shapeCast (⟨2, ![B, 1]⟩ : Shape) (multiReduction .maximumf [(1 : Fin 2)] (⟨1, ![B]⟩ : Shape) S acc hred hφM haccM) hcast) hbc))
        : FVec Ideal (⟨2, ![B, n]⟩ : Shape) .f32) (ix2 p k)
      = Ideal.exp (S (ix2 p k) - rowMax (Ideal.ofBits .f32 acc) (fun k : Fin n => S (ix2 p k))) := fun k =>
    congrArg (fun z => Ideal.exp (S (ix2 p k) - z)) (hM k)
  refine (rowShare_apply _ hred hφA haccA hcast hbc p q).trans ?_
  unfold share
  rw [hE q]
  exact congrArg _ (Finset.sum_congr rfl fun k _ => hE k)

end Cert.RowSoftmax

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.KI.PayValue.lean ====
/-
  The attention body's arithmetic read at an entry, at the ideal values. Each payload of the body is one step of
  the online softmax on a 1024-row query block against a 1024-row key block: the scaled logits (a matrix product
  with the transposed keys, times 1/32), the new running row maximum, the rescaling factor exp (old - new), the
  shifted exponentials, the new row sum, the exponentials' product with the values, the rescaled accumulator,
  and at the end the accumulator over the row sums times the output weights.
-/
import proofs.«133693_j50972671869478_2_alg».proof.Proof.KI.Region1Tile
import proofs.«133693_j50972671869478_2_alg».proof.Proof.LibRowSoftmax
import proofs.«133693_j50972671869478_2_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.KernelIdeal.PV

open Cert.KernelIdeal Cert.KernelIdeal.Gen
open Idealize.ShloMosaic Idealize.ShloMosaic.ValueIdx
open Cert.RowLayout Cert.RowSoftmax

variable {α : Type}

/-! ## Layout steps -/

/-- Dropping the leading unit axis of a [1, 1024, 1024] block. -/
theorem drop_apply (v : S1x1024x1024.Idx → α) (h : S1x1024x1024.ShapeCasts S1024x1024) (r d : Fin 1024) :
    shapeCast S1024x1024 v h (ix2 r d) = v (ix3 (0 : Fin 1) r d) :=
  shapeCast_apply v h (ix2 r d) (ix3 (0 : Fin 1) r d) (by
    rw [Shape.rowMajor_val_three, Shape.rowMajor_val_two]
    show (0 * 1024 + r.val) * 1024 + d.val = r.val * 1024 + d.val
    omega)

/-- Adding it back. -/
theorem addUnit_apply (v : S1024x1024.Idx → α) (h : S1024x1024.ShapeCasts S1x1024x1024) (r f : Fin 1024) :
    shapeCast S1x1024x1024 v h (ix3 (0 : Fin 1) r f) = v (ix2 r f) :=
  shapeCast_apply v h (ix3 (0 : Fin 1) r f) (ix2 r f) (by
    rw [Shape.rowMajor_val_three, Shape.rowMajor_val_two]
    show r.val * 1024 + f.val = (0 * 1024 + r.val) * 1024 + f.val
    omega)

/-- The transpose of a square block. -/
theorem tr_apply (v : S1024x1024.Idx → α) (h : S1024x1024.Transposes [1, 0] S1024x1024) (d j : Fin 1024) :
    transpose S1024x1024 [1, 0] v h (ix2 d j) = v (ix2 j d) :=
  transpose_apply [1, 0] v h (ix2 d j) (ix2 j d) (fun b => by match b with | ⟨0, _⟩ => rfl | ⟨1, _⟩ => rfl)

/-! ## The square matrix product -/

theorem D_l0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem D_l1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem D_r0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem D_r1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Entry (p, c) of a 1024 × 1024 by 1024 × 1024 product into the zero accumulator. -/
theorem mm (l r : FVec Ideal S1024x1024 .bf16) (p c : Fin 1024) :
    matmul dot_S1024x1024_S1024x1024_S1024x1024_1_0_0_1_n_n none l r (constant (F := Ideal) S1024x1024 .f32 0x00000000#32) (ix2 p c) = ∑ k : Fin 1024, l (ix2 p k) * r (ix2 k c) :=
  Cert.PlainMatmul.matmul_zero_apply dot_S1024x1024_S1024x1024_S1024x1024_1_0_0_1_n_n rfl rfl D_l0 D_l1 D_r0 D_r1 none l r p c

/-! ## The payloads at an entry -/

/-- The scaled logits: query row `r` against key row `j`, times the scale. -/
theorem pay7_apply (q k : Vec Ideal S1x1024x1024 .bf16) (r j : Fin 1024) :
    k1_pay7 (F := Ideal) q k (ix2 r j) = (∑ d : Fin 1024, q (ix3 (0 : Fin 1) r d) * k (ix3 (0 : Fin 1) j d)) * Ideal.ofBits .f32 0x3D000000#32 := by
  unfold k1_pay7
  try dsimp only
  refine (mulf_apply _ _ _).trans ?_
  refine congrArg₂ (· * ·) ?_ rfl
  refine (mm _ _ r j).trans ?_
  refine Finset.sum_congr rfl fun d _ => ?_
  rw [drop_apply, tr_apply, drop_apply]

/-- The new running maximum of row `r`: the old one against the greatest logit of the row. -/
theorem pay8_apply (q k : Vec Ideal S1x1024x1024 .bf16) (m : Vec Ideal S1024x1 .f32) (r : Fin 1024) :
    k1_pay8 (F := Ideal) q k m (ix2 r (0 : Fin 1))
      = max (m (ix2 r (0 : Fin 1))) (rowMax (Ideal.ofBits .f32 0xFF800000#32) (fun j : Fin 1024 => k1_pay7 (F := Ideal) q k (ix2 r j))) := by
  unfold k1_pay8
  try dsimp only
  refine (maximumf_apply _ _ _).trans ?_
  refine congrArg (max (m (ix2 r (0 : Fin 1)))) ?_
  exact (castCol_apply _ _ r).trans (laneMax_apply _ _ _ _ _ r)

/-- The rescaling factor of row `r`. -/
theorem pay9_apply (q k : Vec Ideal S1x1024x1024 .bf16) (m : Vec Ideal S1024x1 .f32) (r : Fin 1024) :
    k1_pay9 (F := Ideal) q k m (ix2 r (0 : Fin 1)) = Ideal.exp (m (ix2 r (0 : Fin 1)) - k1_pay8 (F := Ideal) q k m (ix2 r (0 : Fin 1))) := by
  unfold k1_pay9
  rfl

/-- The shifted exponential of logit (r, j). -/
theorem pay10_apply (q k : Vec Ideal S1x1024x1024 .bf16) (m : Vec Ideal S1024x1 .f32) (r j : Fin 1024) :
    k1_pay10 (F := Ideal) q k m (ix2 r j) = Ideal.exp (k1_pay7 (F := Ideal) q k (ix2 r j) - k1_pay8 (F := Ideal) q k m (ix2 r (0 : Fin 1))) := by
  unfold k1_pay10
  try dsimp only
  exact congrArg (fun z => Ideal.exp (k1_pay7 (F := Ideal) q k (ix2 r j) - z)) (bcastCol_apply _ _ r j)

/-- The new running sum of row `r`. -/
theorem pay11_apply (q k : Vec Ideal S1x1024x1024 .bf16) (m l : Vec Ideal S1024x1 .f32) (r : Fin 1024) :
    k1_pay11 (F := Ideal) q k m l (ix2 r (0 : Fin 1))
      = k1_pay9 (F := Ideal) q k m (ix2 r (0 : Fin 1)) * l (ix2 r (0 : Fin 1)) + ∑ j : Fin 1024, k1_pay10 (F := Ideal) q k m (ix2 r j) := by
  unfold k1_pay11
  try dsimp only
  rw [shapeCast_self]
  refine (addf_apply _ _ _).trans ?_
  refine congrArg₂ (· + ·) rfl ?_
  exact (castCol_apply _ _ r).trans (laneSum_apply _ _ _ _ r)

/-- The exponentials' product with the values at (r, e). -/
theorem pay12_apply (q k v : Vec Ideal S1x1024x1024 .bf16) (m : Vec Ideal S1024x1 .f32) (r e : Fin 1024) :
    k1_pay12 (F := Ideal) q k v m (ix2 r e) = ∑ j : Fin 1024, k1_pay10 (F := Ideal) q k m (ix2 r j) * v (ix3 (0 : Fin 1) j e) := by
  unfold k1_pay12
  try dsimp only
  refine (mm _ _ r e).trans ?_
  refine Finset.sum_congr rfl fun j _ => ?_
  rw [drop_apply]
  rfl

/-- The rescaled accumulator at (r, e). -/
theorem pay1_apply (a : FVec Ideal S1024x1 .f32) (pv : FVec Ideal S1024x1024 .f32) (acc : Vec Ideal S1024x1024 .f32) (r e : Fin 1024) :
    k1_pay1 (F := Ideal) a pv acc (ix2 r e) = a (ix2 r (0 : Fin 1)) * acc (ix2 r e) + pv (ix2 r e) := by
  unfold k1_pay1
  try dsimp only
  rw [shapeCast_self]
  refine (addf_apply _ _ _).trans ?_
  refine congrArg₂ (· + ·) ?_ rfl
  refine (mulf_apply _ _ _).trans ?_
  exact congrArg (· * acc (ix2 r e)) (bcastCol_apply _ _ r e)

theorem pay2_eq (x : FVec Ideal S1024x1 .f32) : k1_pay2 (F := Ideal) x = x := by
  unfold k1_pay2
  exact shapeCast_self _ _

/-- The stored entry (r, f): the normalised accumulator row against column `f` of the output weights. -/
theorem pay3_apply (acc : Vec Ideal S1024x1024 .f32) (l : Vec Ideal S1024x1 .f32) (wo : Vec Ideal S1024x1024 .bf16) (r f : Fin 1024) :
    k1_pay3 (F := Ideal) acc l wo (ix3 (0 : Fin 1) r f)
      = ∑ e : Fin 1024, Ideal.div (acc (ix2 r e)) (l (ix2 r (0 : Fin 1))) * wo (ix2 e f) := by
  unfold k1_pay3
  try dsimp only
  rw [shapeCast_self]
  refine (addUnit_apply _ _ r f).trans ?_
  refine (mm _ _ r f).trans ?_
  refine Finset.sum_congr rfl fun e _ => ?_
  refine congrArg (· * wo (ix2 e f)) ?_
  exact congrArg (Ideal.div (acc (ix2 r e))) (bcastCol_apply _ _ r e)

/-- The reset values: -∞ for the running maximum, zero for the sum and the accumulator. -/
theorem pay4_apply (i : S1024x1.Idx) : k1_pay4 (F := Ideal) i = Ideal.ofBits .f32 0xFF800000#32 := by
  unfold k1_pay4
  try dsimp only
  rw [shapeCast_self]
  rfl
theorem pay5_apply (i : S1024x1.Idx) : k1_pay5 (F := Ideal) i = Ideal.ofBits .f32 0x00000000#32 := by
  unfold k1_pay5
  try dsimp only
  rw [shapeCast_self]
  rfl
theorem pay6_apply (i : S1024x1024.Idx) : k1_pay6 (F := Ideal) i = Ideal.ofBits .f32 0x00000000#32 := by
  unfold k1_pay6
  try dsimp only
  rw [shapeCast_self]
  rfl

end Cert.KernelIdeal.PV

end
-- ==== Proof.LibFoldMax.lean ====
/-
  The greatest of finitely many finite values is finite: a fold of `max` over coerced reals, from a coerced real or
  from `-∞` over a nonempty index set, is a coerced real (which real is immaterial to a softmax: every finite shift
  gives the same weights).
-/
import Mathlib.Data.EReal.Basic
import Mathlib.Data.Finset.Fold
import Mathlib.Analysis.SpecialFunctions.Exp

namespace FoldMax

/-- From `-∞`: nothing folded gives `-∞`, anything folded gives a finite value. -/
theorem fold_bot {ι : Type*} [DecidableEq ι] (S : Finset ι) (s : ι → ℝ) :
    (S = ∅ ∧ S.fold max (⊥ : EReal) (fun k => ((s k : ℝ) : EReal)) = ⊥)
      ∨ ∃ μ : ℝ, S.fold max (⊥ : EReal) (fun k => ((s k : ℝ) : EReal)) = (μ : EReal) := by
  induction S using Finset.induction_on with
  | empty => exact Or.inl ⟨rfl, Finset.fold_empty⟩
  | insert a S ha ih =>
    right
    rw [Finset.fold_insert ha]
    rcases ih with ⟨_, h⟩ | ⟨μ, h⟩
    · exact ⟨s a, by rw [h]; exact max_eq_left bot_le⟩
    · refine ⟨max (s a) μ, ?_⟩
      rw [h]
      rcases le_total (s a) μ with hle | hle
      · rw [max_eq_right hle, max_eq_right (EReal.coe_le_coe_iff.mpr hle)]
      · rw [max_eq_left hle, max_eq_left (EReal.coe_le_coe_iff.mpr hle)]

/-- Over a whole nonempty index type, from `-∞`. -/
theorem univ_bot {n : ℕ} (hn : 0 < n) (s : Fin n → ℝ) :
    ∃ μ : ℝ, (Finset.univ : Finset (Fin n)).fold max (⊥ : EReal) (fun k => ((s k : ℝ) : EReal)) = (μ : EReal) := by
  rcases fold_bot Finset.univ s with ⟨h, _⟩ | h
  · exact absurd h (Finset.univ_nonempty_iff.mpr ⟨⟨0, hn⟩⟩).ne_empty
  · exact h

end FoldMax
-- ==== Proof.Consts.lean ====
/-
  The float constants the attention kernel spells, as the extended reals their patterns denote: the scale
  1/32 = 1024^(-1/2), the reset value -∞ of the running maximum, and zero.
-/
import Idealize.ShloMosaic.PureOps.Ideal

noncomputable section

namespace Cert.Consts

open Idealize.ShloMosaic

/-- `3.125e-02` denotes the real `1/32`. -/
theorem ofBits_inv32 : Ideal.ofBits .f32 0x3D000000#32 = ((1 / 32 : ℝ) : EReal) := by
  simp [Ideal.ofBits, Ideal.ieee, -EReal.coe_mul]; norm_num

/-- The negative infinity's pattern denotes `-∞`. -/
theorem ofBits_neg_inf : Ideal.ofBits .f32 0xFF800000#32 = (⊥ : EReal) := by
  simp [Ideal.ofBits, Ideal.ieee]

/-- `+0.0` denotes `0`. -/
theorem ofBits_zero : Ideal.ofBits .f32 0x00000000#32 = 0 := by
  simp [Ideal.ofBits, Ideal.ieee]

end Cert.Consts

end
-- ==== Proof.KI.PairValue.lean ====
/-
  One (batch, query block) pair of the attention kernel on FINITE blocks. With the query block `q`, the two key
  blocks `k1`, `k2`, the two value blocks `v1`, `v2` and the output weights `wo` all real, every intermediate
  of the online softmax is real (the running maxima are some reals `μ₁`, `μ₂`; which ones is immaterial), the
  two-block recurrence telescopes, and entry (r, f) of the stored block is the real softmax-weighted sum of the
  values of BOTH key blocks, projected by the output weights.
-/
import proofs.«133693_j50972671869478_2_alg».proof.Proof.KI.PayValue
import proofs.«133693_j50972671869478_2_alg».proof.Proof.LibOnlineSoftmax
import proofs.«133693_j50972671869478_2_alg».proof.Proof.LibFoldMax
import proofs.«133693_j50972671869478_2_alg».proof.Proof.Consts

noncomputable section

open scoped BigOperators

namespace Cert.KernelIdeal.PairV

open Cert.KernelIdeal Cert.KernelIdeal.Gen
open Idealize.ShloMosaic Idealize.ShloMosaic.ValueIdx
open Cert.RowSoftmax

/-- The scaled logit of query row `r` against key row `j` of a block, on the reals. -/
def lg (q k : S1x1024x1024.Idx → ℝ) (r j : Fin 1024) : ℝ :=
  (∑ d : Fin 1024, q (ix3 (0 : Fin 1) r d) * k (ix3 (0 : Fin 1) j d)) * (1 / 32)

variable (q k1 v1 k2 v2 : S1x1024x1024.Idx → ℝ) (wo : S1024x1024.Idx → ℝ)

/-- The kernel's scaled logits of finite blocks are the real ones. -/
theorem pay7_coe (q k : S1x1024x1024.Idx → ℝ) (r j : Fin 1024) :
    k1_pay7 (F := Ideal) (fun i => ((q i : ℝ) : EReal)) (fun i => ((k i : ℝ) : EReal)) (ix2 r j) = ((lg q k r j : ℝ) : EReal) := by
  rw [PV.pay7_apply, Cert.Consts.ofBits_inv32]
  unfold lg
  rw [EReal.coe_mul, OnlineSoftmax.coe_sum]
  refine congrArg (· * ((1 / 32 : ℝ) : EReal)) ?_
  exact Finset.sum_congr rfl fun d _ => (EReal.coe_mul _ _).symm

/-- A row's greatest logit, from -∞, is some real. -/
theorem rowMax_coe (q k : S1x1024x1024.Idx → ℝ) (r : Fin 1024) :
    ∃ μ : ℝ, rowMax (Ideal.ofBits .f32 0xFF800000#32) (fun j : Fin 1024 => k1_pay7 (F := Ideal) (fun i => ((q i : ℝ) : EReal)) (fun i => ((k i : ℝ) : EReal)) (ix2 r j)) = (μ : EReal) := by
  obtain ⟨μ, hμ⟩ := FoldMax.univ_bot (n := 1024) (by norm_num) (lg q k r)
  refine ⟨μ, ?_⟩
  unfold rowMax
  rw [Cert.Consts.ofBits_neg_inf, ← hμ]
  exact Finset.fold_congr fun j _ => pay7_coe q k r j

/-- THE PAIR at entry (r, f), on finite blocks. -/
theorem pair_apply (r f : Fin 1024) :
    R1.pair (F := Ideal) (fun i => ((q i : ℝ) : EReal)) (fun i => ((k1 i : ℝ) : EReal)) (fun i => ((v1 i : ℝ) : EReal)) (fun i => ((k2 i : ℝ) : EReal)) (fun i => ((v2 i : ℝ) : EReal)) (fun i => ((wo i : ℝ) : EReal)) (ix3 (0 : Fin 1) r f)
      = ((∑ e : Fin 1024,
          ((∑ j : Fin 1024, Real.exp (lg q k1 r j - 0) / ((∑ j' : Fin 1024, Real.exp (lg q k1 r j' - 0)) + ∑ j' : Fin 1024, Real.exp (lg q k2 r j' - 0)) * v1 (ix3 (0 : Fin 1) j e))
            + ∑ j : Fin 1024, Real.exp (lg q k2 r j - 0) / ((∑ j' : Fin 1024, Real.exp (lg q k1 r j' - 0)) + ∑ j' : Fin 1024, Real.exp (lg q k2 r j' - 0)) * v2 (ix3 (0 : Fin 1) j e))
          * wo (ix2 e f) : ℝ) : EReal) := by
  -- the two running maxima are finite
  obtain ⟨ρ₁, hρ₁⟩ := rowMax_coe q k1 r
  obtain ⟨ρ₂, hρ₂⟩ := rowMax_coe q k2 r
  have hM1 : k1_pay8 (F := Ideal) (fun i => ((q i : ℝ) : EReal)) (fun i => ((k1 i : ℝ) : EReal)) (k1_pay4 (F := Ideal)) (ix2 r (0 : Fin 1)) = ((ρ₁ : ℝ) : EReal) := by
    rw [PV.pay8_apply, hρ₁, PV.pay4_apply, Cert.Consts.ofBits_neg_inf]
    exact max_eq_right bot_le
  have hF : R1.firstMax (F := Ideal) (fun i => ((q i : ℝ) : EReal)) (fun i => ((k1 i : ℝ) : EReal)) (ix2 r (0 : Fin 1)) = ((ρ₁ : ℝ) : EReal) := by
    unfold R1.firstMax; rw [PV.pay2_eq]; exact hM1
  have hM2 : k1_pay8 (F := Ideal) (fun i => ((q i : ℝ) : EReal)) (fun i => ((k2 i : ℝ) : EReal)) (R1.firstMax (F := Ideal) (fun i => ((q i : ℝ) : EReal)) (fun i => ((k1 i : ℝ) : EReal))) (ix2 r (0 : Fin 1)) = ((max ρ₁ ρ₂ : ℝ) : EReal) := by
    rw [PV.pay8_apply, hF, hρ₂, OnlineSoftmax.max_coe]
  -- the first point's sum and accumulator
  have hS1 : R1.firstSum (F := Ideal) (fun i => ((q i : ℝ) : EReal)) (fun i => ((k1 i : ℝ) : EReal)) (ix2 r (0 : Fin 1))
      = Ideal.exp ((⊥ : EReal) - ((ρ₁ : ℝ) : EReal)) * 0 + ∑ j : Fin 1024, Ideal.exp (((lg q k1 r j : ℝ) : EReal) - ((ρ₁ : ℝ) : EReal)) := by
    unfold R1.firstSum
    rw [PV.pay11_apply, PV.pay9_apply, hM1, PV.pay4_apply, PV.pay5_apply, Cert.Consts.ofBits_neg_inf, Cert.Consts.ofBits_zero]
    refine congrArg (Ideal.exp ((⊥ : EReal) - ((ρ₁ : ℝ) : EReal)) * 0 + ·) ?_
    exact Finset.sum_congr rfl fun j _ => by rw [PV.pay10_apply, hM1, pay7_coe]
  have hA1 : ∀ e : Fin 1024, R1.firstAcc (F := Ideal) (fun i => ((q i : ℝ) : EReal)) (fun i => ((k1 i : ℝ) : EReal)) (fun i => ((v1 i : ℝ) : EReal)) (ix2 r e)
      = Ideal.exp ((⊥ : EReal) - ((ρ₁ : ℝ) : EReal)) * 0 + ∑ j : Fin 1024, Ideal.exp (((lg q k1 r j : ℝ) : EReal) - ((ρ₁ : ℝ) : EReal)) * ((v1 (ix3 (0 : Fin 1) j e) : ℝ) : EReal) := by
    intro e
    unfold R1.firstAcc
    rw [PV.pay1_apply, PV.pay9_apply, hM1, PV.pay4_apply, PV.pay6_apply, Cert.Consts.ofBits_neg_inf, Cert.Consts.ofBits_zero, PV.pay12_apply]
    refine congrArg (Ideal.exp ((⊥ : EReal) - ((ρ₁ : ℝ) : EReal)) * 0 + ·) ?_
    exact Finset.sum_congr rfl fun j _ => by rw [PV.pay10_apply, hM1, pay7_coe]
  -- the second point's
  have hS2 : R1.lastSum (F := Ideal) (fun i => ((q i : ℝ) : EReal)) (fun i => ((k2 i : ℝ) : EReal)) (R1.firstMax (F := Ideal) (fun i => ((q i : ℝ) : EReal)) (fun i => ((k1 i : ℝ) : EReal))) (R1.firstSum (F := Ideal) (fun i => ((q i : ℝ) : EReal)) (fun i => ((k1 i : ℝ) : EReal))) (ix2 r (0 : Fin 1))
      = Ideal.exp (((ρ₁ : ℝ) : EReal) - ((max ρ₁ ρ₂ : ℝ) : EReal))
          * (Ideal.exp ((⊥ : EReal) - ((ρ₁ : ℝ) : EReal)) * 0 + ∑ j : Fin 1024, Ideal.exp (((lg q k1 r j : ℝ) : EReal) - ((ρ₁ : ℝ) : EReal)))
        + ∑ j : Fin 1024, Ideal.exp (((lg q k2 r j : ℝ) : EReal) - ((max ρ₁ ρ₂ : ℝ) : EReal)) := by
    unfold R1.lastSum
    rw [PV.pay11_apply, PV.pay9_apply, hM2, hF, hS1]
    refine congrArg₂ (· + ·) rfl ?_
    exact Finset.sum_congr rfl fun j _ => by rw [PV.pay10_apply, hM2, pay7_coe]
  have hA2 : ∀ e : Fin 1024, R1.lastAcc (F := Ideal) (fun i => ((q i : ℝ) : EReal)) (fun i => ((k2 i : ℝ) : EReal)) (fun i => ((v2 i : ℝ) : EReal)) (R1.firstMax (F := Ideal) (fun i => ((q i : ℝ) : EReal)) (fun i => ((k1 i : ℝ) : EReal))) (R1.firstAcc (F := Ideal) (fun i => ((q i : ℝ) : EReal)) (fun i => ((k1 i : ℝ) : EReal)) (fun i => ((v1 i : ℝ) : EReal))) (ix2 r e)
      = Ideal.exp (((ρ₁ : ℝ) : EReal) - ((max ρ₁ ρ₂ : ℝ) : EReal))
          * (Ideal.exp ((⊥ : EReal) - ((ρ₁ : ℝ) : EReal)) * 0 + ∑ j : Fin 1024, Ideal.exp (((lg q k1 r j : ℝ) : EReal) - ((ρ₁ : ℝ) : EReal)) * ((v1 (ix3 (0 : Fin 1) j e) : ℝ) : EReal))
        + ∑ j : Fin 1024, Ideal.exp (((lg q k2 r j : ℝ) : EReal) - ((max ρ₁ ρ₂ : ℝ) : EReal)) * ((v2 (ix3 (0 : Fin 1) j e) : ℝ) : EReal) := by
    intro e
    unfold R1.lastAcc
    rw [PV.pay1_apply, PV.pay9_apply, hM2, hF, hA1 e, PV.pay12_apply]
    refine congrArg₂ (· + ·) rfl ?_
    exact Finset.sum_congr rfl fun j _ => by rw [PV.pay10_apply, hM2, pay7_coe]
  -- the stored entry
  unfold R1.pair R1.lastOut
  rw [PV.pay3_apply, OnlineSoftmax.coe_sum]
  refine Finset.sum_congr rfl fun e _ => ?_
  rw [hA2 e, hS2, EReal.coe_mul]
  refine congrArg (· * ((wo (ix2 e f) : ℝ) : EReal)) ?_
  exact OnlineSoftmax.two_blocks ρ₁ (max ρ₁ ρ₂) 0 (lg q k1 r) (fun j => v1 (ix3 (0 : Fin 1) j e)) (lg q k2 r) (fun j => v2 (ix3 (0 : Fin 1) j e))

end Cert.KernelIdeal.PairV

end
-- ==== Proof.SpecSplit.lean ====
/-
  The specification with the 2048 keys of a batch entry split into the first 1024 and the last 1024: the form in
  which a kernel that visits the keys in two blocks of 1024 meets it. A sum over 2048 indices is the sum over the
  first half plus the sum over the second.
-/
import proofs.«133693_j50972671869478_2_alg».proof.Proof.Spec

noncomputable section

open scoped BigOperators

namespace Cert.Spec

open Idealize.ShloMosaic Idealize.ShloMosaic.ValueIdx

/-- Key `j` of the first block, and of the second. -/
def lo (j : Fin 1024) : Fin 2048 := ⟨j.val, by omega⟩
def hi (j : Fin 1024) : Fin 2048 := ⟨1024 + j.val, by omega⟩

theorem sum_halves (g : Fin 2048 → ℝ) : ∑ j : Fin 2048, g j = (∑ j : Fin 1024, g (lo j)) + ∑ j : Fin 1024, g (hi j) := by
  have h := Fin.sum_univ_add (a := 1024) (b := 1024) (fun j : Fin (1024 + 1024) => g j)
  refine h.trans ?_
  exact congrArg₂ (· + ·) (Finset.sum_congr rfl fun j _ => congrArg g (Fin.ext rfl)) (Finset.sum_congr rfl fun j _ => congrArg g (Fin.ext rfl))

/-- The result with the keys in two blocks (each exponential written with the shift `0`). -/
theorem out_split (x : Act) (Wq Wk Wv Wo : Mat) (b : Fin 4) (s : Fin 2048) (f : Fin 1024) :
    out x Wq Wk Wv Wo b s f
      = ∑ e : Fin 1024,
          ((∑ j : Fin 1024, Real.exp (logit x Wq Wk b s (lo j) - 0)
                / ((∑ j' : Fin 1024, Real.exp (logit x Wq Wk b s (lo j') - 0)) + ∑ j' : Fin 1024, Real.exp (logit x Wq Wk b s (hi j') - 0)) * proj x Wv b (lo j) e)
            + ∑ j : Fin 1024, Real.exp (logit x Wq Wk b s (hi j) - 0)
                / ((∑ j' : Fin 1024, Real.exp (logit x Wq Wk b s (lo j') - 0)) + ∑ j' : Fin 1024, Real.exp (logit x Wq Wk b s (hi j') - 0)) * proj x Wv b (hi j) e)
          * Wo (ix2 e f) := by
  unfold out attn
  refine Finset.sum_congr rfl fun e _ => ?_
  refine congrArg (· * Wo (ix2 e f)) ?_
  simp only [sub_zero]
  rw [sum_halves (fun j => Real.exp (logit x Wq Wk b s j) / (∑ j' : Fin 2048, Real.exp (logit x Wq Wk b s j')) * proj x Wv b j e),
    sum_halves (fun j' => Real.exp (logit x Wq Wk b s j'))]

end Cert.Spec

end
-- ==== Proof.KI.KernelValue.lean ====
/-
  The kernel's result on finite inputs is the specification. The attention region's result array is, pair by
  pair, the online softmax of the fused array's query, key and value blocks; on finite inputs those blocks are the
  rows projected by the three weight matrices, the online softmax of a pair is the softmax-weighted value sum over
  both key blocks, and the two blocks' sums are the sums over all 2048 keys.
-/
import proofs.«133693_j50972671869478_2_alg».proof.Proof.KI.Region1Value
import proofs.«133693_j50972671869478_2_alg».proof.Proof.KI.FusedValue
import proofs.«133693_j50972671869478_2_alg».proof.Proof.KI.PairValue
import proofs.«133693_j50972671869478_2_alg».proof.Proof.SpecSplit

noncomputable section

open scoped BigOperators

namespace Cert.KernelIdeal.KV

open Cert.KernelIdeal Cert.KernelIdeal.Gen
open Idealize.ShloMosaic Idealize.ShloMosaic.TcCoe Idealize.SL.Sem
open Idealize.ShloMosaic.ValueIdx

variable (x : Cert.Spec.Act) (Wq Wk Wv Wo : Cert.Spec.Mat)

/-- The query block of a pair, on the reals: rows `qi * 1024 …` of batch entry `b` projected by the query weights. -/
def tq (b : Fin 4) (qi : Fin 2) : S1x1024x1024.Idx → ℝ := fun y =>
  Cert.Spec.proj x Wq b (⟨qi.val * 1024 + (y 1).val, by have h : (y 1).val < 1024 := (y 1).isLt; have := qi.isLt; omega⟩ : Fin 2048)
    (⟨(y 2).val, (y 2).isLt⟩ : Fin 1024)
/-- A key or value block: rows `kv * 1024 …` projected by `W`. -/
def tkv (W : Cert.Spec.Mat) (b : Fin 4) (kv : Fin 2) : S1x1024x1024.Idx → ℝ := fun y =>
  Cert.Spec.proj x W b (⟨kv.val * 1024 + (y 1).val, by have h : (y 1).val < 1024 := (y 1).isLt; have := kv.isLt; omega⟩ : Fin 2048)
    (⟨(y 2).val, (y 2).isLt⟩ : Fin 1024)

/-- The real two-block formula of a pair is the specification at query row `qi * 1024 + r`. -/
theorem pair_spec (b : Fin 4) (qi : Fin 2) (r f : Fin 1024) :
    (∑ e : Fin 1024,
        ((∑ j : Fin 1024, Real.exp (PairV.lg (tq x Wq b qi) (tkv x Wk b 0) r j - 0)
              / ((∑ j' : Fin 1024, Real.exp (PairV.lg (tq x Wq b qi) (tkv x Wk b 0) r j' - 0)) + ∑ j' : Fin 1024, Real.exp (PairV.lg (tq x Wq b qi) (tkv x Wk b 1) r j' - 0))
              * tkv x Wv b 0 (ix3 (0 : Fin 1) j e))
          + ∑ j : Fin 1024, Real.exp (PairV.lg (tq x Wq b qi) (tkv x Wk b 1) r j - 0)
              / ((∑ j' : Fin 1024, Real.exp (PairV.lg (tq x Wq b qi) (tkv x Wk b 0) r j' - 0)) + ∑ j' : Fin 1024, Real.exp (PairV.lg (tq x Wq b qi) (tkv x Wk b 1) r j' - 0))
              * tkv x Wv b 1 (ix3 (0 : Fin 1) j e))
        * Wo (ix2 e f))
      = Cert.Spec.out x Wq Wk Wv Wo b (⟨qi.val * 1024 + r.val, by have := qi.isLt; have := r.isLt; omega⟩ : Fin 2048) f := by
  rw [Cert.Spec.out_split]
  have hlo : ∀ j : Fin 1024, (⟨(0 : Fin 2).val * 1024 + j.val, by have := j.isLt; simp; omega⟩ : Fin 2048) = Cert.Spec.lo j := fun j => Fin.ext (by simp [Cert.Spec.lo])
  have hhi : ∀ j : Fin 1024, (⟨(1 : Fin 2).val * 1024 + j.val, by have := j.isLt; simp; omega⟩ : Fin 2048) = Cert.Spec.hi j := fun j => Fin.ext (by simp [Cert.Spec.hi])
  have hl0 : ∀ j : Fin 1024, PairV.lg (tq x Wq b qi) (tkv x Wk b 0) r j = Cert.Spec.logit x Wq Wk b (⟨qi.val * 1024 + r.val, by have := qi.isLt; have := r.isLt; omega⟩ : Fin 2048) (Cert.Spec.lo j) := fun j => by
    unfold PairV.lg Cert.Spec.logit tq tkv
    refine congrArg (· * (1 / 32 : ℝ)) (Finset.sum_congr rfl fun d _ => ?_)
    exact congrArg (Cert.Spec.proj x Wq b _ d * ·) (congrArg (fun z => Cert.Spec.proj x Wk b z d) (hlo j))
  have hl1 : ∀ j : Fin 1024, PairV.lg (tq x Wq b qi) (tkv x Wk b 1) r j = Cert.Spec.logit x Wq Wk b (⟨qi.val * 1024 + r.val, by have := qi.isLt; have := r.isLt; omega⟩ : Fin 2048) (Cert.Spec.hi j) := fun j => by
    unfold PairV.lg Cert.Spec.logit tq tkv
    refine congrArg (· * (1 / 32 : ℝ)) (Finset.sum_congr rfl fun d _ => ?_)
    exact congrArg (Cert.Spec.proj x Wq b _ d * ·) (congrArg (fun z => Cert.Spec.proj x Wk b z d) (hhi j))
  have hv0 : ∀ (j e : Fin 1024), tkv x Wv b 0 (ix3 (0 : Fin 1) j e) = Cert.Spec.proj x Wv b (Cert.Spec.lo j) e := fun j e => by
    unfold tkv; exact congrArg (fun z => Cert.Spec.proj x Wv b z e) (hlo j)
  have hv1 : ∀ (j e : Fin 1024), tkv x Wv b 1 (ix3 (0 : Fin 1) j e) = Cert.Spec.proj x Wv b (Cert.Spec.hi j) e := fun j e => by
    unfold tkv; exact congrArg (fun z => Cert.Spec.proj x Wv b z e) (hhi j)
  simp only [hl0, hl1, hv0, hv1]

variable (m : (ℓ : Loc nD τ sig) → Buf (Elt Ideal) ℓ) (ρ : Dev nD → PrngReg) (c : Dev nD)
variable (h0 : FV.fn (S := S4x2048x1024) (m ((c : Thread nD τ).loc main_arg0)) = fun i => ((x i : ℝ) : EReal))
  (hWq : FV.fn (S := S1024x1024) (m ((c : Thread nD τ).loc main_arg1)) = fun i => ((Wq i : ℝ) : EReal))
  (hWk : FV.fn (S := S1024x1024) (m ((c : Thread nD τ).loc main_arg2)) = fun i => ((Wk i : ℝ) : EReal))
  (hWv : FV.fn (S := S1024x1024) (m ((c : Thread nD τ).loc main_arg3)) = fun i => ((Wv i : ℝ) : EReal))
  (hWo : FV.fn (S := S1024x1024) (m ((c : Thread nD τ).loc main_arg4)) = fun i => ((Wo i : ℝ) : EReal))

include h0 hWq in
theorem blkQ_eq (b : Fin 4) (qi : Fin 2) :
    R1V.blkQ (FV.fn (S := S4x2048x3072) (Run.E3 m ρ c main_v5)) b qi = fun y => ((tq x Wq b qi y : ℝ) : EReal) :=
  funext fun y => FV.fused_q m ρ c x Wq h0 hWq b _ (⟨(y 2).val, (y 2).isLt⟩ : Fin 1024)

include h0 hWk in
theorem blkK_eq (b : Fin 4) (kv : Fin 2) :
    R1V.blkK (FV.fn (S := S4x2048x3072) (Run.E3 m ρ c main_v5)) b kv = fun y => ((tkv x Wk b kv y : ℝ) : EReal) :=
  funext fun y => FV.fused_k m ρ c x Wk h0 hWk b _ (⟨(y 2).val, (y 2).isLt⟩ : Fin 1024)

include h0 hWv in
theorem blkV_eq (b : Fin 4) (kv : Fin 2) :
    R1V.blkV (FV.fn (S := S4x2048x3072) (Run.E3 m ρ c main_v5)) b kv = fun y => ((tkv x Wv b kv y : ℝ) : EReal) :=
  funext fun y => FV.fused_v m ρ c x Wv h0 hWv b _ (⟨(y 2).val, (y 2).isLt⟩ : Fin 1024)

include h0 hWq hWk hWv hWo in
/-- THE KERNEL'S VALUE: the result array the attention region leaves is the specification, entry by entry. -/
theorem value :
    FV.fn (S := S4x2048x1024) ((R1.dat (F := Ideal) (Run.E3 m ρ) c).arrAt 4 cfg1.N)
      = fun i => ((Cert.Spec.out x Wq Wk Wv Wo (⟨(i 0).val, (i 0).isLt⟩ : Fin 4) (⟨(i 1).val, (i 1).isLt⟩ : Fin 2048) (⟨(i 2).val, (i 2).isLt⟩ : Fin 1024) : ℝ) : EReal) := by
  have hfin : FV.fn (S := S4x2048x1024) ((R1.dat (F := Ideal) (Run.E3 m ρ) c).arrAt 4 cfg1.N)
      = R1V.G (FV.fn (S := S4x2048x3072) (Run.E3 m ρ c main_v5)) (FV.fn (S := S1024x1024) (Run.E3 m ρ c main_v6)) := R1V.final (Run.E3 m ρ) c
  rw [hfin]
  funext i
  unfold R1V.G R1V.tile
  rw [blkQ_eq x Wq m ρ c h0 hWq, blkK_eq x Wk m ρ c h0 hWk, blkK_eq x Wk m ρ c h0 hWk, blkV_eq x Wv m ρ c h0 hWv, blkV_eq x Wv m ρ c h0 hWv,
    FV.wo_eq m ρ c Wo hWo, PairV.pair_apply, pair_spec]
  refine congrArg (fun s : Fin 2048 => ((Cert.Spec.out x Wq Wk Wv Wo _ s _ : ℝ) : EReal)) (Fin.ext ?_)
  show (i 1).val / 1024 * 1024 + (i 1).val % 1024 = (i 1).val
  omega

end Cert.KernelIdeal.KV

end
-- ==== Proof.RefValue.lean ====
/-
  The reference program computes the specification.

  On real inputs (each array the coercion of a real array) every stage of the reference is the coercion of a real
  array: the three projections are the real projections; the scale `1024 ^ (-1/2)` is the real `1/32`; the scaled
  logits are the real logits; the row maximum of finite logits (a fold of `max` from `-∞`, then `max` with `-∞`)
  is some real `M`; the exponentials `exp (l - M)`, their row sum and the quotient are real, the row sum being
  positive; the weighted sum of the values is then the softmax-weighted sum at the shift `M`, which does not depend on
  the shift, so it is the specification's attention row; and the last product with `Wo` is the specification's result.
-/
import proofs.«133693_j50972671869478_2_alg».proof.Proof.Spec
import proofs.«133693_j50972671869478_2_alg».proof.Proof.LibOnlineSoftmax
import proofs.«133693_j50972671869478_2_alg».proof.Proof.Gen.ReferenceIdeal.Read

noncomputable section

namespace Cert.RefValue

open Cert.ReferenceIdeal Cert.ReferenceIdeal.Read Idealize.ShloMosaic Idealize.ShloMosaic.ValueIdx Cert.Spec

/-- Real activations as extended reals. -/
abbrev coeA (x : Act) : S4x2048x1024.Idx → EReal := fun i => ((x i : ℝ) : EReal)
/-- A real matrix as extended reals. -/
abbrev coeM (W : Mat) : S1024x1024.Idx → EReal := fun i => ((W i : ℝ) : EReal)

/-! ## The projections -/

/-- A row of coerced activations against a column of a coerced matrix is the coerced real projection. -/
theorem proj_coe (x : Act) (W : Mat) (b : Fin 4) (s : Fin 2048) (e : Fin 1024) :
    ∑ k : Fin 1024, coeA x (ix3 b s k) * coeM W (ix2 k e) = ((proj x W b s e : ℝ) : EReal) := by
  unfold proj
  rw [OnlineSoftmax.coe_sum]
  exact Finset.sum_congr rfl fun k _ => (EReal.coe_mul _ _).symm

/-- The query projection. -/
theorem v0_eq (x : Act) (W : Mat) (b : Fin 4) (s : Fin 2048) (e : Fin 1024) :
    val_main_v0 (F := Ideal) (coeA x) (coeM W) (ix3 b s e) = ((proj x W b s e : ℝ) : EReal) := by
  rw [val_main_v0_apply]
  have hl : ∀ k : Fin 1024, lidx_main_v0 (ix3 b s e) k = ix3 b s k := fun k =>
    funext fun a => Fin.ext (by match a with | ⟨0, _⟩ => rfl | ⟨1, _⟩ => rfl | ⟨2, _⟩ => rfl)
  have hr : ∀ k : Fin 1024, ridx_main_v0 (ix3 b s e) k = ix2 k e := fun k =>
    funext fun a => Fin.ext (by match a with | ⟨0, _⟩ => rfl | ⟨1, _⟩ => rfl)
  simp only [hl, hr]
  exact proj_coe x W b s e

/-- The key projection. -/
theorem v1_eq (x : Act) (W : Mat) (b : Fin 4) (s : Fin 2048) (e : Fin 1024) :
    val_main_v1 (F := Ideal) (coeA x) (coeM W) (ix3 b s e) = ((proj x W b s e : ℝ) : EReal) := by
  rw [val_main_v1_apply]
  have hl : ∀ k : Fin 1024, lidx_main_v1 (ix3 b s e) k = ix3 b s k := fun k =>
    funext fun a => Fin.ext (by match a with | ⟨0, _⟩ => rfl | ⟨1, _⟩ => rfl | ⟨2, _⟩ => rfl)
  have hr : ∀ k : Fin 1024, ridx_main_v1 (ix3 b s e) k = ix2 k e := fun k =>
    funext fun a => Fin.ext (by match a with | ⟨0, _⟩ => rfl | ⟨1, _⟩ => rfl)
  simp only [hl, hr]
  exact proj_coe x W b s e

/-- The value projection. -/
theorem v2_eq (x : Act) (W : Mat) (b : Fin 4) (s : Fin 2048) (e : Fin 1024) :
    val_main_v2 (F := Ideal) (coeA x) (coeM W) (ix3 b s e) = ((proj x W b s e : ℝ) : EReal) := by
  rw [val_main_v2_apply]
  have hl : ∀ k : Fin 1024, lidx_main_v2 (ix3 b s e) k = ix3 b s k := fun k =>
    funext fun a => Fin.ext (by match a with | ⟨0, _⟩ => rfl | ⟨1, _⟩ => rfl | ⟨2, _⟩ => rfl)
  have hr : ∀ k : Fin 1024, ridx_main_v2 (ix3 b s e) k = ix2 k e := fun k =>
    funext fun a => Fin.ext (by match a with | ⟨0, _⟩ => rfl | ⟨1, _⟩ => rfl)
  simp only [hl, hr]
  exact proj_coe x W b s e

/-! ## The scale -/

/-- The word of `1024.0`. -/
theorem ofBits_1024 : Ideal.ofBits .f32 0x44800000#32 = ((1024 : ℝ) : EReal) := by
  simp [Ideal.ofBits, Ideal.ieee, -EReal.coe_mul]; norm_num

/-- The word of `-0.5`. -/
theorem ofBits_neg_half : Ideal.ofBits .f32 0xBF000000#32 = ((-(1 / 2) : ℝ) : EReal) := by
  simp [Ideal.ofBits, Ideal.ieee, -EReal.coe_mul]; norm_num

/-- The word of `-∞`. -/
theorem ofBits_neg_inf : Ideal.ofBits .f32 0xFF800000#32 = ⊥ := by
  simp [Ideal.ofBits, Ideal.ieee]

/-- `1024 ^ (-1/2) = 1/32` on the reals. -/
theorem rpow_1024 : Real.rpow 1024 (-(1 / 2)) = 1 / 32 := by
  show (1024 : ℝ) ^ (-(1 / 2) : ℝ) = 1 / 32
  have h : (1024 : ℝ) = (32 : ℝ) ^ ((2 : ℕ) : ℝ) := by rw [Real.rpow_natCast]; norm_num
  rw [h, ← Real.rpow_mul (by norm_num), show ((2 : ℕ) : ℝ) * -(1 / 2) = -1 by norm_num, Real.rpow_neg_one]
  norm_num

/-- The broadcast scale is `1/32` everywhere. -/
theorem v5_eq (i : S4x2048x2048.Idx) : val_main_v5 (F := Ideal) i = ((1 / 32 : ℝ) : EReal) := by
  rw [val_main_v5_apply, val_main_v3_apply, val_main_cst_apply, val_main_cst_0_apply]
  show Ideal.pow (Ideal.ofBits .f32 0x44800000#32) (Ideal.ofBits .f32 0xBF000000#32) = _
  rw [ofBits_1024, ofBits_neg_half]
  show ((Real.rpow 1024 (-(1 / 2)) : ℝ) : EReal) = _
  rw [rpow_1024]

/-! ## The logits -/

/-- The scaled logits are the real logits. -/
theorem v6_eq (x : Act) (Wq Wk : Mat) (b : Fin 4) (s j : Fin 2048) :
    val_main_v6 (F := Ideal) (coeA x) (coeM Wq) (coeM Wk) (ix3 b s j) = ((logit x Wq Wk b s j : ℝ) : EReal) := by
  rw [val_main_v6_apply, val_main_v4_apply, v5_eq]
  have hl : ∀ k : Fin 1024, lidx_main_v4 (ix3 b s j) k = ix3 b s k := fun k =>
    funext fun a => Fin.ext (by match a with | ⟨0, _⟩ => rfl | ⟨1, _⟩ => rfl | ⟨2, _⟩ => rfl)
  have hr : ∀ k : Fin 1024, ridx_main_v4 (ix3 b s j) k = ix3 b j k := fun k =>
    funext fun a => Fin.ext (by match a with | ⟨0, _⟩ => rfl | ⟨1, _⟩ => rfl | ⟨2, _⟩ => rfl)
  simp only [hl, hr, v0_eq, v1_eq]
  show (∑ k : Fin 1024, ((proj x Wq b s k : ℝ) : EReal) * ((proj x Wk b j k : ℝ) : EReal)) * ((1 / 32 : ℝ) : EReal) = _
  unfold logit
  rw [EReal.coe_mul, OnlineSoftmax.coe_sum]
  exact congrArg (fun t => t * ((1 / 32 : ℝ) : EReal)) (Finset.sum_congr rfl fun k _ => (EReal.coe_mul _ _).symm)

/-- Every logit is a real. -/
theorem v6_real (x : Act) (Wq Wk : Mat) (i : S4x2048x2048.Idx) :
    ∃ r : ℝ, val_main_v6 (F := Ideal) (coeA x) (coeM Wq) (coeM Wk) i = (r : EReal) := by
  obtain ⟨b, s, j, rfl⟩ : ∃ (b : Fin 4) (s j : Fin 2048), i = ix3 b s j := ⟨i 0, i 1, i 2, eq_ix3 i⟩
  exact ⟨_, v6_eq x Wq Wk b s j⟩

/-! ## The row maximum -/

/-- A fold of `max` from `-∞` over a nonempty finite family of reals is a real: it is below `+∞` since every member
    is, and above `-∞` since it is at least the first member. -/
theorem fold_max_real {ι : Type} {n : ℕ} (hn : 0 < n) (x : ι → EReal) (f : Fin n → ι) (hx : ∀ i, ∃ r : ℝ, x i = (r : EReal)) :
    ∃ M : ℝ, (Finset.univ : Finset (Fin n)).fold max (⊥ : EReal) (x ∘ f) = (M : EReal) := by
  have htop : (Finset.univ : Finset (Fin n)).fold max (⊥ : EReal) (x ∘ f) ≠ ⊤ := by
    refine ne_of_lt ?_
    rw [Finset.fold_max_lt]
    refine ⟨bot_lt_top, fun k _ => ?_⟩
    obtain ⟨r, hr⟩ := hx (f k)
    show x (f k) < ⊤
    rw [hr]; exact EReal.coe_lt_top r
  have hbot : (Finset.univ : Finset (Fin n)).fold max (⊥ : EReal) (x ∘ f) ≠ ⊥ := by
    refine ne_of_gt ?_
    obtain ⟨r, hr⟩ := hx (f ⟨0, hn⟩)
    refine lt_of_lt_of_le (EReal.bot_lt_coe r) ?_
    rw [Finset.le_fold_max]
    refine Or.inr ⟨⟨0, hn⟩, Finset.mem_univ _, ?_⟩
    show (r : EReal) ≤ x (f ⟨0, hn⟩)
    exact hr.ge
  exact ⟨_, (EReal.coe_toReal htop hbot).symm⟩

/-- The same for the program's maximum: the maximum with `-∞` of the fold from `-∞`. -/
theorem max_fold_real {ι : Type} {n : ℕ} (hn : 0 < n) (c : EReal) (hc : c = ⊥) (x : ι → EReal) (f : Fin n → ι)
    (hx : ∀ i, ∃ r : ℝ, x i = (r : EReal)) :
    ∃ M : ℝ, FloatOps.maximumf (F := Ideal) (φ := .f32) c
        ((Finset.univ : Finset (Fin n)).fold (FloatOps.maximumf (F := Ideal) (φ := .f32)) c (x ∘ f)) = (M : EReal) := by
  subst hc
  obtain ⟨M, hM⟩ := fold_max_real hn x f hx
  refine ⟨M, ?_⟩
  show max (⊥ : EReal) ((Finset.univ : Finset (Fin n)).fold max (⊥ : EReal) (x ∘ f)) = _
  rw [hM, OnlineSoftmax.max_bot_coe]

/-- The row maximum of the logits (the reduce from `-∞`, then the maximum with `-∞`) is some real. -/
theorem v9_real (x : Act) (Wq Wk : Mat) (b : Fin 4) (s : Fin 2048) :
    ∃ M : ℝ, val_main_v9 (F := Ideal) (coeA x) (coeM Wq) (coeM Wk) (ix2 b s) = (M : EReal) := by
  have hR : S4x2048x2048.Reduces [2] S4x2048 := by decide
  have hL := v6_real x Wq Wk
  have hc : FloatOps.ofBits (F := Ideal) .f32 0xFF800000#32 = (⊥ : EReal) := ofBits_neg_inf
  rw [val_main_v9_apply, val_main_v8_apply, val_main_cst_2_apply]
  unfold val_main_v7
  generalize val_main_v6 (F := Ideal) (coeA x) (coeM Wq) (coeM Wk) = L at hL ⊢
  have e := Host.reduce_eq_fold_single (α := EReal) (FloatOps.maximumf (F := Ideal) (φ := .f32)) L
    (val_main_cst_1 (F := Ideal)) Gen.reducesTo_S4x2048x2048_S4x2048_d2 hR Gen.h_S_ (ix2 b s)
  rw [val_main_cst_1_apply] at e
  generalize FloatOps.ofBits (F := Ideal) .f32 0xFF800000#32 = c at hc e ⊢
  generalize hR.lift (ix2 b s) = f at e
  have hn : 0 < S4x2048x2048.size 2 := by show 0 < 2048; omega
  have key := max_fold_real hn c hc L f hL
  rw [e]
  exact key

/-! ## The softmax row at the shift `M` -/

/-- The exponentials of the shifted logits. -/
theorem v13_eq (x : Act) (Wq Wk : Mat) (b : Fin 4) (s j : Fin 2048) (M : ℝ)
    (hM : val_main_v9 (F := Ideal) (coeA x) (coeM Wq) (coeM Wk) (ix2 b s) = (M : EReal)) :
    val_main_v13 (F := Ideal) (coeA x) (coeM Wq) (coeM Wk) (ix3 b s j)
      = ((Real.exp (logit x Wq Wk b s j - M) : ℝ) : EReal) := by
  rw [val_main_v13_apply, val_main_v12_apply, val_main_v11_apply, val_main_v10_apply, v6_eq]
  have hi : idx_main_v10 (idx_main_v11 (ix3 b s j)) = ix2 b s :=
    funext fun a => Fin.ext (by match a with | ⟨0, _⟩ => rfl | ⟨1, _⟩ => rfl)
  rw [hi, hM]
  exact OnlineSoftmax.exp_sub_coe _ _

/-- Their row sum. -/
theorem v14_eq (x : Act) (Wq Wk : Mat) (b : Fin 4) (s : Fin 2048) (M : ℝ)
    (hM : val_main_v9 (F := Ideal) (coeA x) (coeM Wq) (coeM Wk) (ix2 b s) = (M : EReal)) :
    val_main_v14 (F := Ideal) (coeA x) (coeM Wq) (coeM Wk) (ix2 b s)
      = ((∑ k : Fin 2048, Real.exp (logit x Wq Wk b s k - M) : ℝ) : EReal) := by
  rw [val_main_v14_apply, val_main_cst_3_apply]
  have hi : ∀ k : Fin 2048, idx_main_v14 (ix2 b s) k = ix3 b s k := fun k =>
    funext fun a => Fin.ext (by match a with | ⟨0, _⟩ => rfl | ⟨1, _⟩ => rfl | ⟨2, _⟩ => rfl)
  have h13 := fun k => v13_eq x Wq Wk b s k M hM
  simp only [hi, h13]
  show Ideal.ofBits .f32 0x00000000#32 + _ = _
  rw [Ideal.ofBits_zero_f32, zero_add, OnlineSoftmax.coe_sum]

/-- The softmax weights at the shift `M`. -/
theorem v17_eq (x : Act) (Wq Wk : Mat) (b : Fin 4) (s j : Fin 2048) (M : ℝ)
    (hM : val_main_v9 (F := Ideal) (coeA x) (coeM Wq) (coeM Wk) (ix2 b s) = (M : EReal)) :
    val_main_v17 (F := Ideal) (coeA x) (coeM Wq) (coeM Wk) (ix3 b s j)
      = ((Real.exp (logit x Wq Wk b s j - M) / ∑ k : Fin 2048, Real.exp (logit x Wq Wk b s k - M) : ℝ) : EReal) := by
  rw [val_main_v17_apply, val_main_v16_apply, val_main_v15_apply, v13_eq x Wq Wk b s j M hM]
  have hi : idx_main_v15 (idx_main_v16 (ix3 b s j)) = ix2 b s :=
    funext fun a => Fin.ext (by match a with | ⟨0, _⟩ => rfl | ⟨1, _⟩ => rfl)
  rw [hi, v14_eq x Wq Wk b s M hM]
  haveI : Nonempty (Fin 2048) := ⟨⟨0, by decide⟩⟩
  exact OnlineSoftmax.div_coe_coe _ _ (OnlineSoftmax.sum_exp_pos M fun k => logit x Wq Wk b s k).ne'

/-! ## The attention row and the result -/

/-- The weighted sum of the values is the specification's attention row: the softmax does not depend on the shift. -/
theorem v18_eq (x : Act) (Wq Wk Wv : Mat) (b : Fin 4) (s : Fin 2048) (e : Fin 1024) :
    val_main_v18 (F := Ideal) (coeA x) (coeM Wq) (coeM Wk) (coeM Wv) (ix3 b s e)
      = ((attn x Wq Wk Wv b s e : ℝ) : EReal) := by
  obtain ⟨M, hM⟩ := v9_real x Wq Wk b s
  rw [val_main_v18_apply]
  have hl : ∀ k : Fin 2048, lidx_main_v18 (ix3 b s e) k = ix3 b s k := fun k =>
    funext fun a => Fin.ext (by match a with | ⟨0, _⟩ => rfl | ⟨1, _⟩ => rfl | ⟨2, _⟩ => rfl)
  have hr : ∀ k : Fin 2048, ridx_main_v18 (ix3 b s e) k = ix3 b k e := fun k =>
    funext fun a => Fin.ext (by match a with | ⟨0, _⟩ => rfl | ⟨1, _⟩ => rfl | ⟨2, _⟩ => rfl)
  have h17 := fun k => v17_eq x Wq Wk b s k M hM
  simp only [hl, hr, h17, v2_eq]
  haveI : Nonempty (Fin 2048) := ⟨⟨0, by decide⟩⟩
  have key := (OnlineSoftmax.quotient_eq 0 M (fun k => logit x Wq Wk b s k) (fun k => proj x Wv b k e)).symm.trans
    (OnlineSoftmax.quotient_eq 0 0 (fun k => logit x Wq Wk b s k) (fun k => proj x Wv b k e))
  simp only [sub_zero] at key
  unfold attn
  rw [← key, OnlineSoftmax.coe_sum]
  exact Finset.sum_congr rfl fun k _ => (EReal.coe_mul _ _).symm

/-- THE REFERENCE COMPUTES THE SPECIFICATION, entry by entry, on real inputs. -/
theorem ref_out (x : Act) (Wq Wk Wv Wo : Mat) (b : Fin 4) (s : Fin 2048) (f : Fin 1024) :
    val_main_v19 (F := Ideal) (fun i => ((x i : ℝ) : EReal)) (fun i => ((Wq i : ℝ) : EReal)) (fun i => ((Wk i : ℝ) : EReal))
        (fun i => ((Wv i : ℝ) : EReal)) (fun i => ((Wo i : ℝ) : EReal)) (ix3 b s f)
      = ((out x Wq Wk Wv Wo b s f : ℝ) : EReal) := by
  show val_main_v19 (F := Ideal) (coeA x) (coeM Wq) (coeM Wk) (coeM Wv) (coeM Wo) (ix3 b s f) = _
  rw [val_main_v19_apply]
  have hl : ∀ k : Fin 1024, lidx_main_v19 (ix3 b s f) k = ix3 b s k := fun k =>
    funext fun a => Fin.ext (by match a with | ⟨0, _⟩ => rfl | ⟨1, _⟩ => rfl | ⟨2, _⟩ => rfl)
  have hr : ∀ k : Fin 1024, ridx_main_v19 (ix3 b s f) k = ix2 k f := fun k =>
    funext fun a => Fin.ext (by match a with | ⟨0, _⟩ => rfl | ⟨1, _⟩ => rfl)
  simp only [hl, hr, v18_eq]
  unfold out
  rw [OnlineSoftmax.coe_sum]
  exact Finset.sum_congr rfl fun k _ => (EReal.coe_mul _ _).symm

end Cert.RefValue

end
-- ==== Proof.Finite.lean ====
/-
  Finite inputs are real arrays.

  The precondition says of each of the five argument arrays that `|a i| < +∞` at every index (a `jnp.all` of the
  comparison, the five results joined by `and`). On the extended reals an element whose absolute value is below `+∞`
  is neither `+∞` nor `-∞`, so it is the coercion of a real; choosing that real at every index gives real arrays
  whose coercions are the arguments.
-/
import proofs.«133693_j50972671869478_2_alg».proof.Proof.Spec
import proofs.«133693_j50972671869478_2_alg».proof.Proof.Gen.Pre_finite_inputs
import Idealize.ShloMosaic.Lib.ReduceAll
import Idealize.ShloMosaic.PureOps.Ideal

noncomputable section

namespace Cert.Finite

open Idealize.ShloMosaic Cert.Pre_finite_inputs

/-- The word `0x7F800000` denotes `+∞`. -/
theorem inf_word : Ideal.ofBits .f32 0x7F800000#32 = ⊤ := by simp [Ideal.ofBits, Ideal.ieee]

/-- An extended real whose absolute value `max x (-x)` compares below `+∞` is the coercion of a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The result of a `jnp.all` has one index. -/
instance : Subsingleton S_.Idx := ⟨fun a b => funext fun d => d.elim0⟩

/-- An array all of whose elements pass `|a i| < +∞` (the reduce by `and` of the comparison is 1) is the coercion of a
    real array. -/
theorem real_array {s : Shape} (a : s.Idx → EReal) (bc : S_.BroadcastsInDim s (![] : Fin 0 → Fin s.rank))
    {axes : List (Fin s.rank)} (hr : s.ReducesTo axes S_) (hu : 0 < S_.numel) (init : IVec S_ 1)
    (e : Host.reduce IntOp.andi
          (cmpf .olt (Host.absf (F := Ideal) (φ := .f32) a)
            (broadcastInDim s ![] bc (constant (F := Ideal) S_ .f32 0x7F800000#32))) init hr hu ValueIdx.ix0 = 1#1) :
    ∃ x : s.Idx → ℝ, a = fun i => ((x i : ℝ) : EReal) := by
  have hall : ∀ i, ∃ r : ℝ, a i = (r : EReal) := fun i =>
    real_of_abs_lt_inf (a i) (Host.reduce_andi_all _ init hr hu ValueIdx.ix0 e i)
  choose x hx using hall
  exact ⟨x, funext hx⟩

/-- FINITE INPUTS ARE REAL ARRAYS. -/
theorem reals_of_pre (a0 : S4x2048x1024.Idx → EReal) (a1 a2 a3 a4 : S1024x1024.Idx → EReal)
    (h : Cert.Pre_finite_inputs.fn (F := Ideal) a0 a1 a2 a3 a4 = fun _ => 1#1) :
    ∃ (x : Cert.Spec.Act) (Wq Wk Wv Wo : Cert.Spec.Mat),
      a0 = (fun i => ((x i : ℝ) : EReal)) ∧ a1 = (fun i => ((Wq i : ℝ) : EReal)) ∧ a2 = (fun i => ((Wk i : ℝ) : EReal))
        ∧ a3 = (fun i => ((Wv i : ℝ) : EReal)) ∧ a4 = (fun i => ((Wo i : ℝ) : EReal)) := by
  have h0 := congrFun h ValueIdx.ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨x, hx⟩ := real_array a0 _ _ _ _ e0
  obtain ⟨Wq, hq⟩ := real_array a1 _ _ _ _ e1
  obtain ⟨Wk, hk⟩ := real_array a2 _ _ _ _ e2
  obtain ⟨Wv, hv⟩ := real_array a3 _ _ _ _ e3
  obtain ⟨Wo, ho⟩ := real_array a4 _ _ _ _ e4
  exact ⟨x, Wq, Wk, Wv, Wo, hx, hq, hk, hv, ho⟩

end Cert.Finite

end
-- ==== Proof.lean ====
/-
  The certificate's claims for the fused attention kernel against its reference.

  The kernel projects the activations by the joined query, key and value weights in one blocked matrix product,
  then, per (batch, query block), folds the two key blocks into a running row maximum, row sum and accumulator
  (the online softmax), normalises and projects by the output weights. The reference computes single-head scaled
  dot-product attention directly. On finite inputs both are, entry by entry, the real-valued specification
  `Cert.Spec.out`: for the kernel because the online recurrence telescopes to the softmax-weighted value sum
  (any finite running shift gives the same weights) and its scale 1/32 is the reference's 1024^(-1/2); for the
  reference by reading its operations at an entry. The three frames are the runs with the result dropped; the
  idealization rewrote nothing.
-/
import proofs.«133693_j50972671869478_2_alg».proof.Defs
import proofs.«133693_j50972671869478_2_alg».proof.Proof.Gen.Kernel
import proofs.«133693_j50972671869478_2_alg».proof.Proof.Gen.KernelIdeal
import proofs.«133693_j50972671869478_2_alg».proof.Proof.Gen.ReferenceIdeal
import proofs.«133693_j50972671869478_2_alg».proof.Proof.Gen.Pre_finite_inputs
import proofs.«133693_j50972671869478_2_alg».proof.Proof.Gen.ReferenceIdeal.Run
import proofs.«133693_j50972671869478_2_alg».proof.Proof.Gen.ReferenceIdeal.Read
import proofs.«133693_j50972671869478_2_alg».proof.Proof.K.RunMain
import proofs.«133693_j50972671869478_2_alg».proof.Proof.KI.RunMain
import proofs.«133693_j50972671869478_2_alg».proof.Proof.KI.KernelValue
import proofs.«133693_j50972671869478_2_alg».proof.Proof.RefValue
import proofs.«133693_j50972671869478_2_alg».proof.Proof.Finite

noncomputable section

namespace Cert.Proof

open Idealize.ShloMosaic Idealize.SL.Sem Idealize.ShloMosaic.TcCoe

theorem frame_k : Cert.frame_Kernel := fun m ρ _ =>
  (θ_run Cert.Kernel.defs _ _).mono (fun _ h c => (h c).2) (Cert.Kernel.Run.run_main (F := Bits) m ρ)

theorem frame_ki : Cert.frame_KernelIdeal := fun m ρ _ =>
  (θ_run Cert.KernelIdeal.defs _ _).mono (fun _ h c => (h c).2) (Cert.KernelIdeal.Run.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs both programs end with the specification in their result arrays. -/
theorem algebraic : Cert.algebraic_KernelIdeal_ReferenceIdeal := by
  intro m ρ m' ρ' hpre hagree
  -- the inputs are real, core by core
  have hreal := fun c : Dev Cert.KernelIdeal.nD => Cert.Finite.reals_of_pre _ _ _ _ _ (hpre c)
  choose x Wq Wk Wv Wo h0 hWq hWk hWv hWo using hreal
  refine ⟨fun c i => ((Cert.Spec.out (x c) (Wq c) (Wk c) (Wv c) (Wo c) (⟨(i 0).val, (i 0).isLt⟩ : Fin 4) (⟨(i 1).val, (i 1).isLt⟩ : Fin 2048) (⟨(i 2).val, (i 2).isLt⟩ : Fin 1024) : ℝ) : EReal), ?_, ?_⟩
  · refine (θ_run Cert.KernelIdeal.defs _ _).mono (fun _ h c => ⟨(h c).1.trans ?_, (h c).2⟩) (Cert.KernelIdeal.Run.run_main (F := Ideal) m ρ)
    exact Cert.KernelIdeal.KV.value (x c) (Wq c) (Wk c) (Wv c) (Wo c) m ρ c (h0 c) (hWq c) (hWk c) (hWv c) (hWo c)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v19_eq, (hagree c).1, (hagree c).2.1, (hagree c).2.2.1, (hagree c).2.2.2.1, (hagree c).2.2.2.2]
    funext i
    have hi : i = ValueIdx.ix3 (⟨(i 0).val, (i 0).isLt⟩ : Fin 4) (⟨(i 1).val, (i 1).isLt⟩ : Fin 2048) (⟨(i 2).val, (i 2).isLt⟩ : Fin 1024) := ValueIdx.eq_ix3 i
    rw [show m ((c.tc : Thread Cert.KernelIdeal.nD Cert.KernelIdeal.τ).loc Cert.KernelIdeal.main_arg0) = (fun i => ((x c i : ℝ) : EReal)) from h0 c,
      show m ((c.tc : Thread Cert.KernelIdeal.nD Cert.KernelIdeal.τ).loc Cert.KernelIdeal.main_arg1) = (fun i => ((Wq c i : ℝ) : EReal)) from hWq c,
      show m ((c.tc : Thread Cert.KernelIdeal.nD Cert.KernelIdeal.τ).loc Cert.KernelIdeal.main_arg2) = (fun i => ((Wk c i : ℝ) : EReal)) from hWk c,
      show m ((c.tc : Thread Cert.KernelIdeal.nD Cert.KernelIdeal.τ).loc Cert.KernelIdeal.main_arg3) = (fun i => ((Wv c i : ℝ) : EReal)) from hWv c,
      show m ((c.tc : Thread Cert.KernelIdeal.nD Cert.KernelIdeal.τ).loc Cert.KernelIdeal.main_arg4) = (fun i => ((Wo c i : ℝ) : EReal)) from hWo c]
    conv_lhs => rw [hi]
    exact Cert.RefValue.ref_out (x c) (Wq c) (Wk c) (Wv c) (Wo c) _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
